-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1536 : Shape := ⟨1, ![1536]⟩
abbrev S1536x512 : Shape := ⟨2, ![1536, 512]⟩
abbrev S9x512 : Shape := ⟨2, ![9, 512]⟩
abbrev S1024x2048 : Shape := ⟨2, ![1024, 2048]⟩
abbrev S1x2048 : Shape := ⟨2, ![1, 2048]⟩
abbrev S9x512x128 : Shape := ⟨3, ![9, 512, 128]⟩
abbrev S9x1x128 : Shape := ⟨3, ![9, 1, 128]⟩
abbrev S_ : Shape := ⟨0, ![]⟩

class Facts : Prop where
  bcast_S_S1536x512 : S_.BroadcastsInDim S1536x512 (![] : Fin 0 → Fin S1536x512.rank)
  reducesTo_S1536x512_S_d0_1 : S1536x512.ReducesTo [0, 1] S_
  h_S_ : 0 < S_.numel
  bcast_S_S9x512 : S_.BroadcastsInDim S9x512 (![] : Fin 0 → Fin S9x512.rank)
  reducesTo_S9x512_S_d0_1 : S9x512.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S1x2048 : S_.BroadcastsInDim S1x2048 (![] : Fin 0 → Fin S1x2048.rank)
  reducesTo_S1x2048_S_d0_1 : S1x2048.ReducesTo [0, 1] S_
  bcast_S_S9x512x128 : S_.BroadcastsInDim S9x512x128 (![] : Fin 0 → Fin S9x512x128.rank)
  reducesTo_S9x512x128_S_d0_1_2 : S9x512x128.ReducesTo [0, 1, 2] S_
  bcast_S_S9x1x128 : S_.BroadcastsInDim S9x1x128 (![] : Fin 0 → Fin S9x1x128.rank)
  reducesTo_S9x1x128_S_d0_1_2 : S9x1x128.ReducesTo [0, 1, 2] S_
  bcast_S_S1536 : S_.BroadcastsInDim S1536 (![] : Fin 0 → Fin S1536.rank)
  reducesTo_S1536_S_d0 : S1536.ReducesTo [0] S_

variable [Facts]

def fn_part2 {F : FTy → Type} [FloatOps F] (main_arg0 : IVec S1536 32) (main_v33 : IVec S_ 1) : IVec S_ 1 :=
  let main_c_12 : IVec S_ 32 := constantI S_ 32 0#32
  let main_v34 : IVec S1536 32 := broadcastInDim S1536 ![] bcast_S_S1536 main_c_12
  let main_v35 : IVec S1536 1 := cmpi .sge main_arg0 main_v34
  let main_c_13 : IVec S_ 1 := constantI S_ 1 1#1
  let main_v36 : IVec S_ 1 := (fun x v => Host.reduce IntOp.andi x v reducesTo_S1536_S_d0 h_S_) main_v35 main_c_13
  let main_v37 : IVec S_ 1 := andi main_v33 main_v36
  let main_c_14 : IVec S_ 32 := constantI S_ 32 9#32
  let main_v38 : IVec S1536 32 := broadcastInDim S1536 ![] bcast_S_S1536 main_c_14
  let main_v39 : IVec S1536 1 := cmpi .slt main_arg0 main_v38
  let main_c_15 : IVec S_ 1 := constantI S_ 1 1#1
  let main_v40 : IVec S_ 1 := (fun x v => Host.reduce IntOp.andi x v reducesTo_S1536_S_d0 h_S_) main_v39 main_c_15
  let main_v41 : IVec S_ 1 := andi main_v37 main_v40
  main_v41

def fn_part1 {F : FTy → Type} [FloatOps F] (main_arg0 : IVec S1536 32) (main_arg5 : FVec F S1x2048 .f32) (main_arg6 : FVec F S9x512x128 .f32) (main_arg7 : FVec F S9x1x128 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S1x2048 .f32 := Host.absf main_arg5
  let main_cst_6 : FVec F S_ .f32 := constant S_ .f32 0x7F800000#32
  let main_v20 : FVec F S1x2048 .f32 := broadcastInDim S1x2048 ![] bcast_S_S1x2048 main_cst_6
  let main_v21 : IVec S1x2048 1 := cmpf .olt main_v19 main_v20
  let main_c_7 : IVec S_ 1 := constantI S_ 1 1#1
  let main_v22 : IVec S_ 1 := (fun x v => Host.reduce IntOp.andi x v reducesTo_S1x2048_S_d0_1 h_S_) main_v21 main_c_7
  let main_v23 : IVec S_ 1 := andi main_v18 main_v22
  let main_v24 : FVec F S9x512x128 .f32 := Host.absf main_arg6
  let main_cst_8 : FVec F S_ .f32 := constant S_ .f32 0x7F800000#32
  let main_v25 : FVec F S9x512x128 .f32 := broadcastInDim S9x512x128 ![] bcast_S_S9x512x128 main_cst_8
  let main_v26 : IVec S9x512x128 1 := cmpf .olt main_v24 main_v25
  let main_c_9 : IVec S_ 1 := constantI S_ 1 1#1
  let main_v27 : IVec S_ 1 := (fun x v => Host.reduce IntOp.andi x v reducesTo_S9x512x128_S_d0_1_2 h_S_) main_v26 main_c_9
  let main_v28 : IVec S_ 1 := andi main_v23 main_v27
  let main_v29 : FVec F S9x1x128 .f32 := Host.absf main_arg7
  let main_cst_10 : FVec F S_ .f32 := constant S_ .f32 0x7F800000#32
  let main_v30 : FVec F S9x1x128 .f32 := broadcastInDim S9x1x128 ![] bcast_S_S9x1x128 main_cst_10
  let main_v31 : IVec S9x1x128 1 := cmpf .olt main_v29 main_v30
  let main_c_11 : IVec S_ 1 := constantI S_ 1 1#1
  let main_v32 : IVec S_ 1 := (fun x v => Host.reduce IntOp.andi x v reducesTo_S9x1x128_S_d0_1_2 h_S_) main_v31 main_c_11
  let main_v33 : IVec S_ 1 := andi main_v28 main_v32
  fn_part2 (F := F) main_arg0 main_v33

def fn {F : FTy → Type} [FloatOps F] (main_arg0 : IVec S1536 32) (main_arg1 : FVec F S1536x512 .f32) (main_arg2 : FVec F S1536x512 .f32) (main_arg3 : FVec F S9x512 .f32) (main_arg4 : FVec F S1024x2048 .f32) (main_arg5 : FVec F S1x2048 .f32) (main_arg6 : FVec F S9x512x128 .f32) (main_arg7 : FVec F S9x1x128 .f32) : IVec S_ 1 :=
  let main_v0 : FVec F S1536x512 .f32 := Host.absf main_arg1
  let main_cst : FVec F S_ .f32 := constant S_ .f32 0x7F800000#32
  let main_v1 : FVec F S1536x512 .f32 := broadcastInDim S1536x512 ![] bcast_S_S1536x512 main_cst
  let main_v2 : IVec S1536x512 1 := cmpf .olt main_v0 main_v1
  let main_c : IVec S_ 1 := constantI S_ 1 1#1
  let main_v3 : IVec S_ 1 := (fun x v => Host.reduce IntOp.andi x v reducesTo_S1536x512_S_d0_1 h_S_) main_v2 main_c
  let main_v4 : FVec F S1536x512 .f32 := Host.absf main_arg2
  let main_cst_0 : FVec F S_ .f32 := constant S_ .f32 0x7F800000#32
  let main_v5 : FVec F S1536x512 .f32 := broadcastInDim S1536x512 ![] bcast_S_S1536x512 main_cst_0
  let main_v6 : IVec S1536x512 1 := cmpf .olt main_v4 main_v5
  let main_c_1 : IVec S_ 1 := constantI S_ 1 1#1
  let main_v7 : IVec S_ 1 := (fun x v => Host.reduce IntOp.andi x v reducesTo_S1536x512_S_d0_1 h_S_) main_v6 main_c_1
  let main_v8 : IVec S_ 1 := andi main_v3 main_v7
  let main_v9 : FVec F S9x512 .f32 := Host.absf main_arg3
  let main_cst_2 : FVec F S_ .f32 := constant S_ .f32 0x7F800000#32
  let main_v10 : FVec F S9x512 .f32 := broadcastInDim S9x512 ![] bcast_S_S9x512 main_cst_2
  let main_v11 : IVec S9x512 1 := cmpf .olt main_v9 main_v10
  let main_c_3 : IVec S_ 1 := constantI S_ 1 1#1
  let main_v12 : IVec S_ 1 := (fun x v => Host.reduce IntOp.andi x v reducesTo_S9x512_S_d0_1 h_S_) main_v11 main_c_3
  let main_v13 : IVec S_ 1 := andi main_v8 main_v12
  let main_v14 : FVec F S1024x2048 .f32 := Host.absf main_arg4
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg0 main_arg5 main_arg6 main_arg7 main_v13 main_v16
-- ==== Kernel.lean ====
abbrev S1536 : Shape := ⟨1, ![1536]⟩
abbrev S1536x512 : Shape := ⟨2, ![1536, 512]⟩
abbrev S9x512 : Shape := ⟨2, ![9, 512]⟩
abbrev S1024x2048 : Shape := ⟨2, ![1024, 2048]⟩
abbrev S1x2048 : Shape := ⟨2, ![1, 2048]⟩
abbrev S9x512x128 : Shape := ⟨3, ![9, 512, 128]⟩
abbrev S9x1x128 : Shape := ⟨3, ![9, 1, 128]⟩
abbrev S1536x1 : Shape := ⟨2, ![1536, 1]⟩
abbrev S1536x4 : Shape := ⟨2, ![1536, 4]⟩
abbrev S384x1 : Shape := ⟨2, ![384, 1]⟩
abbrev S384x512 : Shape := ⟨2, ![384, 512]⟩
abbrev S1x512x128 : Shape := ⟨3, ![1, 512, 128]⟩
abbrev S1x1x128 : Shape := ⟨3, ![1, 1, 128]⟩
abbrev S384x4 : Shape := ⟨2, ![384, 4]⟩
abbrev S16x2048 : Shape := ⟨2, ![16, 2048]⟩
abbrev S512x128 : Shape := ⟨2, ![512, 128]⟩
abbrev S7x512 : Shape := ⟨2, ![7, 512]⟩
abbrev S16x512 : Shape := ⟨2, ![16, 512]⟩
abbrev S512x2048 : Shape := ⟨2, ![512, 2048]⟩
abbrev S1x16 : Shape := ⟨2, ![1, 16]⟩
abbrev S384x16 : Shape := ⟨2, ![384, 16]⟩
abbrev S384x2048 : Shape := ⟨2, ![384, 2048]⟩
abbrev S384x128 : Shape := ⟨2, ![384, 128]⟩
abbrev S1x128 : Shape := ⟨2, ![1, 128]⟩

abbrev nBuf : Space → Nat
  | .hbm => 12
  | .vmem => 20
  | .smem => 0
  | _ => 0

abbrev bufTy : (tb : Table) → Fin (tcTables nBuf tb) → BufTy
  | .hbm, ⟨0, _⟩ => ⟨S1536, .i32⟩
  | .hbm, ⟨1, _⟩ => ⟨S1536x512, .f32⟩
  | .hbm, ⟨2, _⟩ => ⟨S1536x512, .f32⟩
  | .hbm, ⟨3, _⟩ => ⟨S9x512, .f32⟩
  | .hbm, ⟨4, _⟩ => ⟨S1024x2048, .f32⟩
  | .hbm, ⟨5, _⟩ => ⟨S1x2048, .f32⟩
  | .hbm, ⟨6, _⟩ => ⟨S9x512x128, .f32⟩
  | .hbm, ⟨7, _⟩ => ⟨S9x1x128, .f32⟩
  | .hbm, ⟨8, _⟩ => ⟨S1536x1, .i32⟩
  | .hbm, ⟨9, _⟩ => ⟨S1536x4, .f32⟩
  | .hbm, ⟨10, _⟩ => ⟨S1536x512, .f32⟩
  | .hbm, ⟨11, _⟩ => ⟨S1536x512, .f32⟩
  | .local _ .vmem, ⟨0, _⟩ => ⟨S384x1, .i32⟩
  | .local _ .vmem, ⟨1, _⟩ => ⟨S384x1, .i32⟩
  | .local _ .vmem, ⟨2, _⟩ => ⟨S384x512, .f32⟩
  | .local _ .vmem, ⟨3, _⟩ => ⟨S384x512, .f32⟩
  | .local _ .vmem, ⟨4, _⟩ => ⟨S384x512, .f32⟩
  | .local _ .vmem, ⟨5, _⟩ => ⟨S384x512, .f32⟩
  | .local _ .vmem, ⟨6, _⟩ => ⟨S9x512, .f32⟩
  | .local _ .vmem, ⟨7, _⟩ => ⟨S1024x2048, .f32⟩
  | .local _ .vmem, ⟨8, _⟩ => ⟨S1x2048, .f32⟩
  | .local _ .vmem, ⟨9, _⟩ => ⟨S1x512x128, .f32⟩
  | .local _ .vmem, ⟨10, _⟩ => ⟨S1x1x128, .f32⟩
  | .local _ .vmem, ⟨11, _⟩ => ⟨S384x4, .f32⟩
  | .local _ .vmem, ⟨12, _⟩ => ⟨S384x4, .f32⟩
  | .local _ .vmem, ⟨13, _⟩ => ⟨S384x512, .f32⟩
  | .local _ .vmem, ⟨14, _⟩ => ⟨S384x512, .f32⟩
  | .local _ .vmem, ⟨15, _⟩ => ⟨S384x512, .f32⟩
  | .local _ .vmem, ⟨16, _⟩ => ⟨S384x512, .f32⟩
  | .local _ .vmem, ⟨17, _⟩ => ⟨S1024x2048, .bf16⟩
  | .local _ .vmem, ⟨18, _⟩ => ⟨S16x2048, .bf16⟩
  | .local _ .vmem, ⟨19, _⟩ => ⟨S512x128, .bf16⟩
  | _, _ => ⟨S1536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S384x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S384x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S384x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S9x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S384x4 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S384x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S384x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

class Facts₀ : Prop where
  shapeCasts_S1536_S1536x1 : S1536.ShapeCasts S1536x1
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  shapeCasts_S1024x2048_S1024x2048 : S1024x2048.ShapeCasts S1024x2048
  packedbf16_S1024x2048_S1024x2048_0_0 : (Rect.unit (s := S1024x2048) ![0, 0] S1024x2048.size inb_S1024x2048_S1024x2048_0_0).PackedRows (EltTy.packing .bf16)
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  packedbf16_S512x128_S512x128_0_0 : (Rect.unit (s := S512x128) ![0, 0] S512x128.size inb_S512x128_S512x128_0_0).PackedRows (EltTy.packing .bf16)
  inb_S9x512_S9x512_0_0 : ∀ a, (![0, 0] : Fin 2 → Nat) a + S9x512.size a ≤ S9x512.size a
  h_S9x512 : 0 < S9x512.numel
  concatenates_S9x512_S7x512_S16x512_d0 : Shape.Concatenates [S9x512, S7x512] S16x512 0
  inb_S1024x2048_S512x2048_0_0 : ∀ a, (![0, 0] : Fin 2 → Nat) a + S512x2048.size a ≤ S1024x2048.size a
  h_S512x2048 : 0 < S512x2048.numel
  inb_S1x2048_S1x2048_0_0 : ∀ a, (![0, 0] : Fin 2 → Nat) a + S1x2048.size a ≤ S1x2048.size a
  h_S1x2048 : 0 < S1x2048.numel
  broadcasts_S1x2048_S16x2048 : S1x2048.Broadcasts S16x2048
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  packedbf16_S16x2048_S16x2048_0_0 : (Rect.unit (s := S16x2048) ![0, 0] S16x2048.size inb_S16x2048_S16x2048_0_0).PackedRows (EltTy.packing .bf16)
  inb_S384x1_S384x1_0_0 : ∀ a, (![0, 0] : Fin 2 → Nat) a + S384x1.size a ≤ S384x1.size a
  h_S384x1 : 0 < S384x1.numel
  shapeCasts_S384x1_S384x1 : S384x1.ShapeCasts S384x1
  iota_S1x16_d1_w32 : S1x16.Iotas .tc 32 [1]
  broadcasts_S384x1_S384x16 : S384x1.Broadcasts S384x16
  broadcasts_S1x16_S384x16 : S1x16.Broadcasts S384x16
  natLt_1_32 : 1 < 32
  inb_S384x512_S384x512_0_0 : ∀ a, (![0, 0] : Fin 2 → Nat) a + S384x512.size a ≤ S384x512.size a
  h_S384x512 : 0 < S384x512.numel
  inb_S1024x2048_S512x2048_512_0 : ∀ a, (![512, 0] : Fin 2 → Nat) a + S512x2048.size a ≤ S1024x2048.size a
  slices_S384x2048_o0_0_S384x512 : S384x2048.Slices ![0, 0] S384x512
  slices_S384x2048_o0_512_S384x512 : S384x2048.Slices ![0, 512] S384x512
  slices_S384x2048_o0_1024_S384x512 : S384x2048.Slices ![0, 1024] S384x512
  slices_S384x2048_o0_1536_S384x512 : S384x2048.Slices ![0, 1536] S384x512
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  broadcasts_S1x128_S384x128 : S1x128.Broadcasts S384x128
  slices_S384x128_o0_0_S384x4 : S384x128.Slices ![0, 0] S384x4
  inb_S384x4_S384x4_0_0 : ∀ a, (![0, 0] : Fin 2 → Nat) a + S384x4.size a ≤ S384x4.size a
  h_S384x4 : 0 < S384x4.numel
  dot_S16x512_S512x2048_S16x2048_1_0_0_1_n_n_wf : DotDims.WF S16x512 S512x2048 S16x2048 [1] [0] [0] [1] [] []
  dot_S384x16_S16x2048_S384x2048_1_0_0_1_n_n_wf : DotDims.WF S384x16 S16x2048 S384x2048 [1] [0] [0] [1] [] []
  dot_S384x512_S512x2048_S384x2048_1_0_0_1_n_n_wf : DotDims.WF S384x512 S512x2048 S384x2048 [1] [0] [0] [1] [] []
  dot_S384x512_S512x128_S384x128_1_0_0_1_n_n_wf : DotDims.WF S384x512 S512x128 S384x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S384x1.size a ≤ S1536x1.size a
  hwx0_0 : ∀ i : grid0.Coords, EltTy.bits .i32 = 32 ∨ (Rect.block (s := S1536x1) S384x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S384x512.size a ≤ S1536x512.size a
  hwx0_1 : ∀ i : grid0.Coords, EltTy.bits .f32 = 32 ∨ (Rect.block (s := S1536x512) S384x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S384x512.size a ≤ S1536x512.size a
  hwx0_2 : ∀ i : grid0.Coords, EltTy.bits .f32 = 32 ∨ (Rect.block (s := S1536x512) S384x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S9x512.size a ≤ S9x512.size a
  hwx0_3 : ∀ i : grid0.Coords, EltTy.bits .f32 = 32 ∨ (Rect.block (s := S9x512) S9x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S1024x2048.size a
  hwx0_4 : ∀ i : grid0.Coords, EltTy.bits .f32 = 32 ∨ (Rect.block (s := S1024x2048) S1024x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 false = 1
  hreads0_6 : ∀ i i' : grid0.Coords, (∀ a, reads0_6 a = true → i a = i' a) → cc0_transform_6 i = cc0_transform_6 i'
  hinb0_6 : ∀ (i : grid0.Coords) a, (cc0_transform_6 i a + 1) * S1x512x128.size a ≤ S9x512x128.size a
  hwx0_6 : ∀ i : grid0.Coords, EltTy.bits .f32 = 32 ∨ (Rect.block (s := S9x512x128) S1x512x128.size (cc0_transform_6 i) (hinb0_6 i)).WholeWords (EltTy.packing .f32)
  hstage0_7 : ∀ j, (stage0_7 j).IsWhole
  nbuf0_7 : grid0.bufCount reads0_7 false = 1
  hreads0_7 : ∀ i i' : grid0.Coords, (∀ a, reads0_7 a = true → i a = i' a) → cc0_transform_7 i = cc0_transform_7 i'
  hinb0_7 : ∀ (i : grid0.Coords) a, (cc0_transform_7 i a + 1) * S1x1x128.size a ≤ S9x1x128.size a
  hwx0_7 : ∀ i : grid0.Coords, EltTy.bits .f32 = 32 ∨ (Rect.block (s := S9x1x128) S1x1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S384x4.size a ≤ S1536x4.size a
  hwx0_8 : ∀ i : grid0.Coords, EltTy.bits .f32 = 32 ∨ (Rect.block (s := S1536x4) S384x4.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S384x512.size a ≤ S1536x512.size a
  hwx0_9 : ∀ i : grid0.Coords, EltTy.bits .f32 = 32 ∨ (Rect.block (s := S1536x512) S384x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S384x512.size a ≤ S1536x512.size a
  hwx0_10 : ∀ i : grid0.Coords, EltTy.bits .f32 = 32 ∨ (Rect.block (s := S1536x512) S384x512.size (cc0_transform_10 i) (hinb0_10 i)).WholeWords (EltTy.packing .f32)

variable [Facts₀]

def dot_S16x512_S512x2048_S16x2048_1_0_0_1_n_n : DotDims S16x512 S512x2048 S16x2048 where
  lhsContracting := [1]
  rhsContracting := [0]
  lhsNonContracting := [0]
  rhsNonContracting := [1]
  lhsBatch := []
  rhsBatch := []
  wf := dot_S16x512_S512x2048_S16x2048_1_0_0_1_n_n_wf
def dot_S384x16_S16x2048_S384x2048_1_0_0_1_n_n : DotDims S384x16 S16x2048 S384x2048 where
  lhsContracting := [1]
  rhsContracting := [0]
  lhsNonContracting := [0]
  rhsNonContracting := [1]
  lhsBatch := []
  rhsBatch := []
  wf := dot_S384x16_S16x2048_S384x2048_1_0_0_1_n_n_wf
def dot_S384x512_S512x2048_S384x2048_1_0_0_1_n_n : DotDims S384x512 S512x2048 S384x2048 where
  lhsContracting := [1]
  rhsContracting := [0]
  lhsNonContracting := [0]
  rhsNonContracting := [1]
  lhsBatch := []
  rhsBatch := []
  wf := dot_S384x512_S512x2048_S384x2048_1_0_0_1_n_n_wf
def dot_S384x512_S512x128_S384x128_1_0_0_1_n_n : DotDims S384x512 S512x128 S384x128 where
  lhsContracting := [1]
  rhsContracting := [0]
  lhsNonContracting := [0]
  rhsNonContracting := [1]
  lhsBatch := []
  rhsBatch := []
  wf := dot_S384x512_S512x128_S384x128_1_0_0_1_n_n_wf

abbrev win0_0 : Pipeline.Window sig grid0 :=
  Pipeline.Window.ofSpec (Memref.whole main_v0) S384x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S384x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S384x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S9x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x512x128.size cc0_transform_6 reads0_6 false false 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x1x128.size cc0_transform_7 reads0_7 false false 1 stage0_7 sem0_7
    hrank0 hreads0_7 hinb0_7 nbuf0_7 (Memref.isWhole_whole _) hwx0_7 hstage0_7

abbrev win0_8 : Pipeline.Window sig grid0 :=
  Pipeline.Window.ofSpec (Memref.whole main_v1_0) S384x4.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v1_1) S384x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v1_2) S384x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S1536 : Shape := ⟨1, ![1536]⟩
abbrev S1536x512 : Shape := ⟨2, ![1536, 512]⟩
abbrev S9x512 : Shape := ⟨2, ![9, 512]⟩
abbrev S1024x2048 : Shape := ⟨2, ![1024, 2048]⟩
abbrev S1x2048 : Shape := ⟨2, ![1, 2048]⟩
abbrev S9x512x128 : Shape := ⟨3, ![9, 512, 128]⟩
abbrev S9x1x128 : Shape := ⟨3, ![9, 1, 128]⟩
abbrev S_ : Shape := ⟨0, ![]⟩
abbrev S1536x1 : Shape := ⟨2, ![1536, 1]⟩
abbrev S1 : Shape := ⟨1, ![1]⟩
abbrev S1x1 : Shape := ⟨2, ![1, 1]⟩
abbrev S1536x1024 : Shape := ⟨2, ![1536, 1024]⟩
abbrev S1536x128 : Shape := ⟨2, ![1536, 128]⟩
abbrev S1x512x128 : Shape := ⟨3, ![1, 512, 128]⟩
abbrev S1x1x128 : Shape := ⟨3, ![1, 1, 128]⟩
abbrev S1536x2048 : Shape := ⟨2, ![1536, 2048]⟩
abbrev S512x128 : Shape := ⟨2, ![512, 128]⟩
abbrev S1x128 : Shape := ⟨2, ![1, 128]⟩
abbrev S1536x4 : Shape := ⟨2, ![1536, 4]⟩

abbrev nBuf : Space → Nat
  | .hbm => 38
  | .vmem => 9
  | .smem => 1
  | _ => 0

abbrev bufTy : (tb : Table) → Fin (tcTables nBuf tb) → BufTy
  | .hbm, ⟨0, _⟩ => ⟨S1536, .i32⟩
  | .hbm, ⟨1, _⟩ => ⟨S1536x512, .f32⟩
  | .hbm, ⟨2, _⟩ => ⟨S1536x512, .f32⟩
  | .hbm, ⟨3, _⟩ => ⟨S9x512, .f32⟩
  | .hbm, ⟨4, _⟩ => ⟨S1024x2048, .f32⟩
  | .hbm, ⟨5, _⟩ => ⟨S1x2048, .f32⟩
  | .hbm, ⟨6, _⟩ => ⟨S9x512x128, .f32⟩
  | .hbm, ⟨7, _⟩ => ⟨S9x1x128, .f32⟩
  | .hbm, ⟨8, _⟩ => ⟨S_, .i32⟩
  | .hbm, ⟨9, _⟩ => ⟨S_, .i32⟩
  | .hbm, ⟨10, _⟩ => ⟨S1536, .i32⟩
  | .hbm, ⟨11, _⟩ => ⟨S1536, .i1⟩
  | .hbm, ⟨12, _⟩ => ⟨S_, .i32⟩
  | .hbm, ⟨13, _⟩ => ⟨S1536, .i32⟩
  | .hbm, ⟨14, _⟩ => ⟨S1536, .i32⟩
  | .hbm, ⟨15, _⟩ => ⟨S1536, .i32⟩
  | .hbm, ⟨16, _⟩ => ⟨S1536x1, .i32⟩
  | .hbm, ⟨17, _⟩ => ⟨S1, .i32⟩
  | .hbm, ⟨18, _⟩ => ⟨S_, .i32⟩
  | .hbm, ⟨19, _⟩ => ⟨S1536x1, .i32⟩
  | .hbm, ⟨20, _⟩ => ⟨S1536x1, .i1⟩
  | .hbm, ⟨21, _⟩ => ⟨S1x1, .i32⟩
  | .hbm, ⟨22, _⟩ => ⟨S1536x1, .i32⟩
  | .hbm, ⟨23, _⟩ => ⟨S1536x1, .i1⟩
  | .hbm, ⟨24, _⟩ => ⟨S1536x1, .i1⟩
  | .hbm, ⟨25, _⟩ => ⟨S_, .i1⟩
  | .hbm, ⟨26, _⟩ => ⟨S1536, .i1⟩
  | .hbm, ⟨27, _⟩ => ⟨S1536x512, .f32⟩
  | .hbm, ⟨28, _⟩ => ⟨S1536x512, .i1⟩
  | .hbm, ⟨29, _⟩ => ⟨S_, .f32⟩
  | .hbm, ⟨30, _⟩ => ⟨S1536x512, .f32⟩
  | .hbm, ⟨31, _⟩ => ⟨S1536x512, .f32⟩
  | .hbm, ⟨32, _⟩ => ⟨S1536x1024, .f32⟩
  | .hbm, ⟨33, _⟩ => ⟨S1, .i32⟩
  | .hbm, ⟨34, _⟩ => ⟨S1536x128, .f32⟩
  | .hbm, ⟨35, _⟩ => ⟨S1536x512, .f32⟩
  | .hbm, ⟨36, _⟩ => ⟨S1536x512, .f32⟩
  | .hbm, ⟨37, _⟩ => ⟨S1536x4, .f32⟩
  | .local _ .vmem, ⟨0, _⟩ => ⟨S1536x1024, .f32⟩
  | .local _ .vmem, ⟨1, _⟩ => ⟨S1536x512, .f32⟩
  | .local _ .vmem, ⟨2, _⟩ => ⟨S1024x2048, .f32⟩
  | .local _ .vmem, ⟨3, _⟩ => ⟨S1x2048, .f32⟩
  | .local _ .vmem, ⟨4, _⟩ => ⟨S1x512x128, .f32⟩
  | .local _ .vmem, ⟨5, _⟩ => ⟨S1x1x128, .f32⟩
  | .local _ .vmem, ⟨6, _⟩ => ⟨S1536x128, .f32⟩
  | .local _ .vmem, ⟨7, _⟩ => ⟨S1536x512, .f32⟩
  | .local _ .vmem, ⟨8, _⟩ => ⟨S1536x512, .f32⟩
  | .local _ .smem, ⟨0, _⟩ => ⟨S1, .i32⟩
  | _, _ => ⟨S1536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_call0_c : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_c_0 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_c_1 : Ref sig .tc := ⟨.hbm, 17, rfl⟩
abbrev main_call0_call0_c_2 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_call0_c_3 : Ref sig .tc := ⟨.hbm, 25, rfl⟩
abbrev main_call0_call0_v12 : Ref sig .tc := ⟨.hbm, 26, rfl⟩
abbrev main_call0_call0_v13 : Ref sig .tc := ⟨.hbm, 27, rfl⟩
abbrev main_call0_call0_v14 : Ref sig .tc := ⟨.hbm, 28, rfl⟩
abbrev main_call0_call0_cst : Ref sig .tc := ⟨.hbm, 29, rfl⟩
abbrev main_call0_call0_v15 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v0_0 : Ref sig .tc := ⟨.hbm, 34, rfl⟩
abbrev main_v0_1 : Ref sig .tc := ⟨.hbm, 35, rfl⟩
abbrev main_v0_2 : Ref sig .tc := ⟨.hbm, 36, rfl⟩
abbrev main_v1 : Ref sig .tc := ⟨.hbm, 37, rfl⟩
abbrev main_call0_v3 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_call0_v3.idx], fun | 0 => main_call0_v3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1536x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1536x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1536x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1536x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1536x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

class Facts₀ : Prop where
  bcast_S_S1536 : S_.BroadcastsInDim S1536 (![] : Fin 0 → Fin S1536.rank)
  bcast_S1536_S1536x1_0 : S1536.BroadcastsInDim S1536x1 (![0] : Fin 1 → Fin S1536x1.rank)
  bcast_S_S1536x1 : S_.BroadcastsInDim S1536x1 (![] : Fin 0 → Fin S1536x1.rank)
  bcast_S1_S1x1_1 : S1.BroadcastsInDim S1x1 (![1] : Fin 1 → Fin S1x1.rank)
  bcast_S1x1_S1536x1_0_1 : S1x1.BroadcastsInDim S1536x1 (![0, 1] : Fin 2 → Fin S1536x1.rank)
  reducesTo_S1536x1_S1536_d1 : S1536x1.ReducesTo [1] S1536
  h_S_ : 0 < S_.numel
  bcast_S1536_S1536x512_0 : S1536.BroadcastsInDim S1536x512 (![0] : Fin 1 → Fin S1536x512.rank)
  bcast_S_S1536x512 : S_.BroadcastsInDim S1536x512 (![] : Fin 0 → Fin S1536x512.rank)
  concatenates_S1536x512_S1536x512_S1536x1024_d1 : Shape.Concatenates [S1536x512, S1536x512] S1536x1024 1
  shapeCasts_S_S1 : S_.ShapeCasts S1
  inb_S1_S1_0 : ∀ a, (![0] : Fin 1 → Nat) a + S1.size a ≤ S1.size a
  numel1_S1 : S1.numel = 1
  inb_S1536x1024_S1536x1024_0_0 : ∀ a, (![0, 0] : Fin 2 → Nat) a + S1536x1024.size a ≤ S1536x1024.size a
  h_S1536x1024 : 0 < S1536x1024.numel
  shapeCasts_S1536x1024_S1536x1024 : S1536x1024.ShapeCasts S1536x1024
  inb_S1536x512_S1536x512_0_0 : ∀ a, (![0, 0] : Fin 2 → Nat) a + S1536x512.size a ≤ S1536x512.size a
  h_S1536x512 : 0 < S1536x512.numel
  inb_S1024x2048_S1024x2048_0_0 : ∀ a, (![0, 0] : Fin 2 → Nat) a + S1024x2048.size a ≤ S1024x2048.size a
  h_S1024x2048 : 0 < S1024x2048.numel
  inb_S1x2048_S1x2048_0_0 : ∀ a, (![0, 0] : Fin 2 → Nat) a + S1x2048.size a ≤ S1x2048.size a
  h_S1x2048 : 0 < S1x2048.numel
  broadcasts_S1x2048_S1536x2048 : S1x2048.Broadcasts S1536x2048
  slices_S1536x2048_o0_0_S1536x512 : S1536x2048.Slices ![0, 0] S1536x512
  slices_S1536x2048_o0_512_S1536x512 : S1536x2048.Slices ![0, 512] S1536x512
  slices_S1536x2048_o0_1024_S1536x512 : S1536x2048.Slices ![0, 1024] S1536x512
  slices_S1536x2048_o0_1536_S1536x512 : S1536x2048.Slices ![0, 1536] S1536x512
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  broadcasts_S1x128_S1536x128 : S1x128.Broadcasts S1536x128
  inb_S1536x128_S1536x128_0_0 : ∀ a, (![0, 0] : Fin 2 → Nat) a + S1536x128.size a ≤ S1536x128.size a
  h_S1536x128 : 0 < S1536x128.numel
  slices_S1536x128_S1536x4_0_0 : S1536x128.Slices ![0, 0] S1536x4
  gather_S9x512_S1536x1_S1536x512_1_0_n_n_0_1_1512_wf : GatherDims.WF S9x512 S1536x1 S1536x512 [1] [0] [] [0] [] 1 ![1, 512]
  dot_S1536x1024_S1024x2048_S1536x2048_1_0_0_1_n_n_wf : DotDims.WF S1536x1024 S1024x2048 S1536x2048 [1] [0] [0] [1] [] []
  dot_S1536x512_S512x128_S1536x128_1_0_0_1_n_n_wf : DotDims.WF S1536x512 S512x128 S1536x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1536x1024.size a ≤ S1536x1024.size a
  hwx0_0 : ∀ i : grid0.Coords, EltTy.bits .f32 = 32 ∨ (Rect.block (s := S1536x1024) S1536x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1536x512.size a ≤ S1536x512.size a
  hwx0_1 : ∀ i : grid0.Coords, EltTy.bits .f32 = 32 ∨ (Rect.block (s := S1536x512) S1536x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S1024x2048.size a
  hwx0_2 : ∀ i : grid0.Coords, EltTy.bits .f32 = 32 ∨ (Rect.block (s := S1024x2048) S1024x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 1
  hreads0_4 : ∀ {F : FTy → Type} [FloatOps F] (pf : pre0.Contents (Elt F)) (i i' : grid0.Coords), (∀ a, reads0_4 a = true → i a = i' a) → cc0_transform_4 inb_S1_S1_0 numel1_S1 pf i = cc0_transform_4 inb_S1_S1_0 numel1_S1 pf i'
  hstage0_5 : ∀ j, (stage0_5 j).IsWhole
  nbuf0_5 : grid0.bufCount reads0_5 false = 1
  hreads0_5 : ∀ {F : FTy → Type} [FloatOps F] (pf : pre0.Contents (Elt F)) (i i' : grid0.Coords), (∀ a, reads0_5 a = true → i a = i' a) → cc0_transform_5 inb_S1_S1_0 numel1_S1 pf i = cc0_transform_5 inb_S1_S1_0 numel1_S1 pf i'
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1536x128.size a ≤ S1536x128.size a
  hwx0_6 : ∀ i : grid0.Coords, EltTy.bits .f32 = 32 ∨ (Rect.block (s := S1536x128) S1536x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1536x512.size a ≤ S1536x512.size a
  hwx0_7 : ∀ i : grid0.Coords, EltTy.bits .f32 = 32 ∨ (Rect.block (s := S1536x512) S1536x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1536x512.size a ≤ S1536x512.size a
  hwx0_8 : ∀ i : grid0.Coords, EltTy.bits .f32 = 32 ∨ (Rect.block (s := S1536x512) S1536x512.size (cc0_transform_8 i) (hinb0_8 i)).WholeWords (EltTy.packing .f32)

variable [Facts₀]

def gather_S9x512_S1536x1_S1536x512_1_0_n_n_0_1_1512 : GatherDims S9x512 S1536x1 S1536x512 where
  offsetDims := [1]
  collapsedSliceDims := [0]
  operandBatchingDims := []
  startIndicesBatchingDims := []
  startIndexMap := [0]
  indexVectorDim := 1
  sliceSizes := ![1, 512]
  wf := gather_S9x512_S1536x1_S1536x512_1_0_n_n_0_1_1512_wf
def dot_S1536x1024_S1024x2048_S1536x2048_1_0_0_1_n_n : DotDims S1536x1024 S1024x2048 S1536x2048 where
  lhsContracting := [1]
  rhsContracting := [0]
  lhsNonContracting := [0]
  rhsNonContracting := [1]
  lhsBatch := []
  rhsBatch := []
  wf := dot_S1536x1024_S1024x2048_S1536x2048_1_0_0_1_n_n_wf
def dot_S1536x512_S512x128_S1536x128_1_0_0_1_n_n : DotDims S1536x512 S512x128 S1536x128 where
  lhsContracting := [1]
  rhsContracting := [0]
  lhsNonContracting := [0]
  rhsNonContracting := [1]
  lhsBatch := []
  rhsBatch := []
  wf := dot_S1536x512_S512x128_S1536x128_1_0_0_1_n_n_wf

abbrev spec0_0 : Pipeline.WinSpec sig grid0.rank :=
  Pipeline.WinSpec.ofSpec (Memref.whole main_call0_v1) S1536x1024.size reads0_0 false true 1 stage0_0 sem0_0 nbuf0_0 hstage0_0

abbrev spec0_1 : Pipeline.WinSpec sig grid0.rank :=
  Pipeline.WinSpec.ofSpec (Memref.whole main_arg2) S1536x512.size reads0_1 false true 1 stage0_1 sem0_1 nbuf0_1 hstage0_1

abbrev spec0_2 : Pipeline.WinSpec sig grid0.rank :=
  Pipeline.WinSpec.ofSpec (Memref.whole main_arg4) S1024x2048.size reads0_2 false true 1 stage0_2 sem0_2 nbuf0_2 hstage0_2

abbrev spec0_3 : Pipeline.WinSpec sig grid0.rank :=
  Pipeline.WinSpec.ofSpec (Memref.whole main_arg5) S1x2048.size reads0_3 false true 1 stage0_3 sem0_3 nbuf0_3 hstage0_3

abbrev spec0_4 : Pipeline.WinSpec sig grid0.rank :=
  Pipeline.WinSpec.ofSpec (Memref.whole main_arg6) S1x512x128.size reads0_4 false false 1 stage0_4 sem0_4 nbuf0_4 hstage0_4

abbrev spec0_5 : Pipeline.WinSpec sig grid0.rank :=
  Pipeline.WinSpec.ofSpec (Memref.whole main_arg7) S1x1x128.size reads0_5 false false 1 stage0_5 sem0_5 nbuf0_5 hstage0_5

abbrev spec0_6 : Pipeline.WinSpec sig grid0.rank :=
  Pipeline.WinSpec.ofSpec (Memref.whole main_v0_0) S1536x128.size reads0_6 true true 1 stage0_6 sem0_6 nbuf0_6 hstage0_6

abbrev spec0_7 : Pipeline.WinSpec sig grid0.rank :=
  Pipeline.WinSpec.ofSpec (Memref.whole main_v0_1) S1536x512.size reads0_7 true true 1 stage0_7 sem0_7 nbuf0_7 hstage0_7

abbrev spec0_8 : Pipeline.WinSpec sig grid0.rank :=
  Pipeline.WinSpec.ofSpec (Memref.whole main_v0_2) S1536x512.size reads0_8 true true 1 stage0_8 sem0_8 nbuf0_8 hstage0_8

abbrev spec0 : Fin 9 → Pipeline.WinSpec sig grid0.rank := fun | 0 => spec0_0 | 1 => spec0_1 | 2 => spec0_2 | 3 => spec0_3 | 4 => spec0_4 | 5 => spec0_5 | 6 => spec0_6 | 7 => spec0_7 | 8 => spec0_8 | ⟨_ + 9, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | 8 => nbuf0_8 | ⟨_ + 9, h⟩ => absurd h (Nat.not_lt.2 (Nat.le_add_left _ _))
abbrev ix0 (pf : pre0.Contents (Elt F)) : (w : Fin 9) → grid0.Coords → Fin (spec0 w).shape.rank → Nat := fun | 0 => cc0_transform_0 | 1 => cc0_transform_1 | 2 => cc0_transform_2 | 3 => cc0_transform_3 | 4 => cc0_transform_4 inb_S1_S1_0 numel1_S1 pf | 5 => cc0_transform_5 inb_S1_S1_0 numel1_S1 pf | 6 => cc0_transform_6 | 7 => cc0_transform_7 | 8 => cc0_transform_8 | ⟨_ + 9, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 pf | 5 => hreads0_5 pf | 6 => hreads0_6 | 7 => hreads0_7 | 8 => hreads0_8 | ⟨_ + 9, h⟩ => absurd h (Nat.not_lt.2 (Nat.le_add_left _ _))
def ok0 (pf : pre0.Contents (Elt F)) : Prop :=
  (∀ i : grid0.Coords, ∃ h : (∀ a, (cc0_transform_4 inb_S1_S1_0 numel1_S1 pf i a + 1) * S1x512x128.size a ≤ S9x512x128.size a), EltTy.bits .f32 = 32 ∨ (Rect.block (s := S9x512x128) S1x512x128.size (cc0_transform_4 inb_S1_S1_0 numel1_S1 pf i) h).WholeWords (EltTy.packing .f32)) ∧
  (∀ i : grid0.Coords, ∃ h : (∀ a, (cc0_transform_5 inb_S1_S1_0 numel1_S1 pf i a + 1) * S1x1x128.size a ≤ S9x1x128.size a), EltTy.bits .f32 = 32 ∨ (Rect.block (s := S9x1x128) S1x1x128.size (cc0_transform_5 inb_S1_S1_0 numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => hinb0_1 | 2 => hinb0_2 | 3 => hinb0_3 | 4 => fun i a => (hok.1 i).elim fun h _ => h a | 5 => fun i a => (hok.2 i).elim fun h _ => h a | 6 => hinb0_6 | 7 => hinb0_7 | 8 => hinb0_8 | ⟨_ + 9, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => hwx0_1 | 2 => hwx0_2 | 3 => hwx0_3 | 4 => fun i => (hok.1 i).elim fun _ h => h | 5 => fun i => (hok.2 i).elim fun _ h => h | 6 => hwx0_6 | 7 => hwx0_7 | 8 => hwx0_8 | ⟨_ + 9, h⟩ => absurd h (Nat.not_lt.2 (Nat.le_add_left _ _))

class Facts : Prop extends Facts₀ where
  harr0 : ∀ w, (spec0 w).arr.IsWhole

variable [Facts]
-- ==== Proof.PreRange.lean ====
/-
  The token range, read off the precondition.

  The precondition is one conjunction: every float argument array finite, every token word at least 0 (signed), every
  token word below 9 (signed). Its last two conjuncts are whole-array "all" reductions of the two comparisons on the
  1536 token words; a conjunction that is 1 has every conjunct 1, an "all" that is 1 has every element 1, and a word
  that is at least 0 and below 9 read signed is below 9 read unsigned. The float conjuncts are not opened.
-/
import proofs.«164750_g2000601216510222_pallasbulk_1026_17_alg».proof.Pre_finite_inputs
import Idealize.ShloMosaic.Lib.ReduceAll
import Idealize.ShloMosaic.Lib.ValueIdx

noncomputable section

namespace Cert.PreRange

open Idealize.ShloMosaic Cert.Pre_finite_inputs

/-- The scalar shape has one index. -/
instance : Subsingleton S_.Idx := ⟨fun a b => funext fun d => d.elim0⟩

/-- A 32-bit word that is at least 0 and below 9, both read signed, is below 9 read unsigned. -/
theorem toNat_lt_nine (w : BitVec 32) (h0 : IntOp.cmpi .sge w 0#32 = 1#1) (h9 : IntOp.cmpi .slt w 9#32 = 1#1) :
    w.toNat < 9 := by
  rw [IntOp.cmpi_sge, show (0#32 : BitVec 32).toInt = 0 from by decide] at h0
  rw [IntOp.cmpi_slt, show (9#32 : BitVec 32).toInt = 9 from by decide] at h9
  have hw := w.isLt
  rw [BitVec.toInt_eq_toNat_cond] at h0 h9
  split at h9 <;> omega

section
variable {F : FTy → Type} [FloatOps F] [Facts]

/-- The tail of the conjunction: whatever the running conjunction `v` of the float conjuncts is, the whole being 1
    puts every token word in [0, 9). -/
theorem part2_lt (a0 : IVec S1536 32) (v : IVec S_ 1) (h : fn_part2 (F := F) a0 v ValueIdx.ix0 = 1#1) (r : Fin 1536) :
    (a0 (ValueIdx.ix1 r)).toNat < 9 := by
  unfold fn_part2 at h
  dsimp only at h
  obtain ⟨h1, h9⟩ := IntOp.andi_eq_one.1 h
  obtain ⟨-, h0⟩ := IntOp.andi_eq_one.1 h1
  have g0 := Host.reduce_andi_all _ _ _ _ _ h0 (ValueIdx.ix1 r)
  have g9 := Host.reduce_andi_all _ _ _ _ _ h9 (ValueIdx.ix1 r)
  exact toNat_lt_nine _ g0 g9

/-- Every token word of argument arrays on which the precondition is all ones is below 9. -/
theorem tok_lt (a0 : IVec S1536 32) (a1 a2 : FVec F S1536x512 .f32) (a3 : FVec F S9x512 .f32)
    (a4 : FVec F S1024x2048 .f32) (a5 : FVec F S1x2048 .f32) (a6 : FVec F S9x512x128 .f32) (a7 : FVec F S9x1x128 .f32)
    (h : fn (F := F) a0 a1 a2 a3 a4 a5 a6 a7 = (fun _ => 1#1)) :
    ∀ r : Fin 1536, (a0 (ValueIdx.ix1 r)).toNat < 9 := by
  intro r
  have e := congrFun h ValueIdx.ix0
  unfold fn fn_part1 at e
  exact part2_lt (F := F) a0 _ e r

end

end Cert.PreRange

end
-- ==== Proof.PreRangeClaims.lean ====
/-
  The token range in the shape the claims use: on every device, each of the 1536 token words of the first argument
  array of a memory satisfying the precondition is below 9, for the kernel and for the reference alike.
-/
import proofs.«164750_g2000601216510222_pallasbulk_1026_17_alg».proof.Defs
import proofs.«164750_g2000601216510222_pallasbulk_1026_17_alg».proof.Proof.PreRange

noncomputable section

namespace Cert.PreRange

open Idealize.ShloMosaic Idealize.SL.Sem

variable [Cert.Pre_finite_inputs.Facts]

/-- Under the kernel's precondition every token word is below 9, on every device. -/
theorem kernel_tok_lt (m : (ℓ : Loc Cert.KernelIdeal.nD Cert.KernelIdeal.τ Cert.KernelIdeal.sig) → Buf (Elt Ideal) ℓ)
    (h : Cert.Pre_KernelIdeal m) (c : Dev Cert.KernelIdeal.nD) (r : Fin 1536) :
    (m ((c.tc : Thread Cert.KernelIdeal.nD Cert.KernelIdeal.τ).loc Cert.KernelIdeal.main_arg0) (ValueIdx.ix1 r)).toNat < 9 :=
  tok_lt (F := Ideal) _ _ _ _ _ _ _ _ (h c) r

/-- Under the reference's precondition every token word is below 9, on every device. -/
theorem reference_tok_lt (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) (r : Fin 1536) :
    (m ((c.tc : Thread Cert.ReferenceIdeal.nD Cert.ReferenceIdeal.τ).loc Cert.ReferenceIdeal.main_arg0) (ValueIdx.ix1 r)).toNat < 9 :=
  tok_lt (F := Ideal) _ _ _ _ _ _ _ _ (h c) r

end Cert.PreRange

end
-- ==== Proof.KPieces.lean ====
import proofs.«164750_g2000601216510222_pallasbulk_1026_17_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

/-! What each case of the body leaves in the three output blocks and the three staged tables, as pure terms of the blocks
    it was given. The first point of each core stages three tables: the whole weight matrix `W`, the sixteen-row table
    `E = embp · W[0:512] + b` (the nine embedding rows padded with seven zero rows) and the selected decoder slab `D`;
    every point then forms the gates from the token block `x0`, the hidden block `x1`, `E` and the last 512 rows of `W`. -/

namespace Cert.KSide

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A load through any rectangle of what ONE store of the whole shape left reads the payload through that rectangle. -/
theorem readCov_whole_sub {Val : EltTy → Type} [∀ e, Nonempty (Val e)] {sig : RefSig} {κ : Kind} {sp : Space} {S : Shape}
    {e : EltTy} (v : View sig κ sp S e) {off : Fin S.rank → Nat} (h : off = fun _ => 0)
    (inb : ∀ a, off a + S.size a ≤ S.size a) (w : S.Idx → Val e) (r : Rect S) :
    v.readCov [(⟨Rect.unit off S.size inb, w⟩ : View.Piece Val S e)] r.toLoadRect = View.ld w r := by
  subst h
  rw [View.readCov_eq_canon_ld _ _ _ (fun y => ⟨_, List.mem_singleton_self _, by
    show y ∈ (Rect.whole S).set; rw [Rect.set_whole]; exact Finset.mem_univ y⟩), View.canon_unit_zero rfl]

/-- The first 512 rows of a staged 1024-row matrix. -/
def loOf (X : Vec F S1024x2048 .bf16) : Vec F S512x2048 .bf16 :=
  View.ld X (Rect.unit (s := S1024x2048) ![0, 0] S512x2048.size Facts₀.inb_S1024x2048_S512x2048_0_0)

/-- Its last 512 rows. -/
def hiOf (X : Vec F S1024x2048 .bf16) : Vec F S512x2048 .bf16 :=
  View.ld X (Rect.unit (s := S1024x2048) ![512, 0] S512x2048.size Facts₀.inb_S1024x2048_S512x2048_512_0)

/-- The sixteen-row table the first point of a core stages. -/
def eTab (x3 : Vec F S9x512 .f32) (x4 : Vec F S1024x2048 .f32) (x5 : Vec F S1x2048 .f32) : Vec F S16x2048 .bf16 :=
  k0_pay6 x3 (loOf (k0_pay4 x4)) x5

/-- The new cell block from the token block, the hidden block, the old cell block, the table and the staged weights. -/
def cellBlk (x0 : Vec F S384x1 .i32) (x1 x2 : Vec F S384x512 .f32) (E : Vec F S16x2048 .bf16) (X : Vec F S1024x2048 .bf16) :
    Vec F S384x512 .f32 :=
  k0_pay1 (k0_pay8 x0 E x1 (hiOf X)) (k0_pay9 x0 E x1 (hiOf X)) (k0_pay10 x0 E x1 (hiOf X)) x2

/-- The new hidden block. -/
def hidBlk (x0 : Vec F S384x1 .i32) (x1 x2 : Vec F S384x512 .f32) (E : Vec F S16x2048 .bf16) (X : Vec F S1024x2048 .bf16) :
    Vec F S384x512 .f32 :=
  k0_pay2 (k0_pay8 x0 E x1 (hiOf X)) (k0_pay9 x0 E x1 (hiOf X)) (k0_pay10 x0 E x1 (hiOf X)) (k0_pay11 x0 E x1 (hiOf X))
    (Scalar.ofBits .f32 0x3F000000#32) x2

/-- The four kept logit lanes. -/
def logitBlk (x0 : Vec F S384x1 .i32) (x1 x2 : Vec F S384x512 .f32) (E : Vec F S16x2048 .bf16) (X : Vec F S1024x2048 .bf16)
    (D : Vec F S512x128 .bf16) (x7 : Vec F S1x1x128 .f32) : Vec F S384x4 .f32 :=
  k0_pay3 (k0_pay8 x0 E x1 (hiOf X)) (k0_pay9 x0 E x1 (hiOf X)) (k0_pay10 x0 E x1 (hiOf X)) (k0_pay11 x0 E x1 (hiOf X))
    (Scalar.ofBits .f32 0x3F000000#32) x2 D x7

theorem sA0 (c : Dev nD) (i : grid0.Coords) (arg2 : Memref sig .tc .vmem S384x1 .i32) (harg2 : arg2.IsWhole) (arg3 : Memref sig .tc .vmem S384x512 .f32) (harg3 : arg3.IsWhole) (arg4 : Memref sig .tc .vmem S384x512 .f32) (harg4 : arg4.IsWhole) (arg5 : Memref sig .tc .vmem S9x512 .f32) (harg5 : arg5.IsWhole) (arg6 : Memref sig .tc .vmem S1024x2048 .f32) (harg6 : arg6.IsWhole) (arg7 : Memref sig .tc .vmem S1x2048 .f32) (harg7 : arg7.IsWhole) (arg8 : Memref sig .tc .vmem S1x512x128 .f32) (harg8 : arg8.IsWhole) (arg9 : Memref sig .tc .vmem S1x1x128 .f32) (harg9 : arg9.IsWhole) (arg10 : Memref sig .tc .vmem S384x4 .f32) (harg10 : arg10.IsWhole) (arg11 : Memref sig .tc .vmem S384x512 .f32) (harg11 : arg11.IsWhole) (arg12 : Memref sig .tc .vmem S384x512 .f32) (harg12 : arg12.IsWhole) (arg13 : Memref sig .tc .vmem S1024x2048 .bf16) (harg13 : arg13.IsWhole) (arg14 : Memref sig .tc .vmem S16x2048 .bf16) (harg14 : arg14.IsWhole) (arg15 : Memref sig .tc .vmem S512x128 .bf16) (harg15 : arg15.IsWhole) (hc0 : cond0_0 i) (x0 : Vec F S384x1 .i32) (x1 : Vec F S384x512 .f32) (x2 : Vec F S384x512 .f32) (x3 : Vec F S9x512 .f32) (x4 : Vec F S1024x2048 .f32) (x5 : Vec F S1x2048 .f32) (x6 : Vec F S1x512x128 .f32) (x7 : Vec F S1x1x128 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = k0_pay4 x4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  unfold kernelRun0_A
  dsimp only
  sl_unfold_words
  rw [View.canon_unit_zero hz2]
  simp only [View.readAt_eq_ld, harg2.read_unread, harg3.read_unread, harg4.read_unread, harg5.read_unread,
    harg6.read_unread, harg7.read_unread, harg8.read_unread, harg9.read_unread, harg13.read_unread, harg14.read_unread,
    harg15.read_unread, View.ld_unit_zero (S := S384x1) hz2, View.ld_unit_zero (S := S384x512) hz2,
    View.ld_unit_zero (S := S9x512) hz2, View.ld_unit_zero (S := S1024x2048) hz2, View.ld_unit_zero (S := S1x2048) hz2,
    View.ld_unit_zero (S := S1x512x128) hz3, View.ld_unit_zero (S := S1x1x128) hz3, View.ld_unit_zero (S := S16x2048) hz2,
    View.ld_unit_zero (S := S512x128) hz2, View.readCov_unit_zero (S := S16x2048) _ hz2,
    View.readCov_unit_zero (S := S512x128) _ hz2, readCov_whole_sub (S := S1024x2048) _ hz2]

theorem sA1 (c : Dev nD) (i : grid0.Coords) (arg2 : Memref sig .tc .vmem S384x1 .i32) (harg2 : arg2.IsWhole) (arg3 : Memref sig .tc .vmem S384x512 .f32) (harg3 : arg3.IsWhole) (arg4 : Memref sig .tc .vmem S384x512 .f32) (harg4 : arg4.IsWhole) (arg5 : Memref sig .tc .vmem S9x512 .f32) (harg5 : arg5.IsWhole) (arg6 : Memref sig .tc .vmem S1024x2048 .f32) (harg6 : arg6.IsWhole) (arg7 : Memref sig .tc .vmem S1x2048 .f32) (harg7 : arg7.IsWhole) (arg8 : Memref sig .tc .vmem S1x512x128 .f32) (harg8 : arg8.IsWhole) (arg9 : Memref sig .tc .vmem S1x1x128 .f32) (harg9 : arg9.IsWhole) (arg10 : Memref sig .tc .vmem S384x4 .f32) (harg10 : arg10.IsWhole) (arg11 : Memref sig .tc .vmem S384x512 .f32) (harg11 : arg11.IsWhole) (arg12 : Memref sig .tc .vmem S384x512 .f32) (harg12 : arg12.IsWhole) (arg13 : Memref sig .tc .vmem S1024x2048 .bf16) (harg13 : arg13.IsWhole) (arg14 : Memref sig .tc .vmem S16x2048 .bf16) (harg14 : arg14.IsWhole) (arg15 : Memref sig .tc .vmem S512x128 .bf16) (harg15 : arg15.IsWhole) (hc0 : cond0_0 i) (x0 : Vec F S384x1 .i32) (x1 : Vec F S384x512 .f32) (x2 : Vec F S384x512 .f32) (x3 : Vec F S9x512 .f32) (x4 : Vec F S1024x2048 .f32) (x5 : Vec F S1x2048 .f32) (x6 : Vec F S1x512x128 .f32) (x7 : Vec F S1x1x128 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = eTab x3 x4 x5 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  unfold kernelRun0_A
  dsimp only
  sl_unfold_words
  rw [View.canon_unit_zero hz2]
  simp only [View.readAt_eq_ld, harg2.read_unread, harg3.read_unread, harg4.read_unread, harg5.read_unread,
    harg6.read_unread, harg7.read_unread, harg8.read_unread, harg9.read_unread, harg13.read_unread, harg14.read_unread,
    harg15.read_unread, View.ld_unit_zero (S := S384x1) hz2, View.ld_unit_zero (S := S384x512) hz2,
    View.ld_unit_zero (S := S9x512) hz2, View.ld_unit_zero (S := S1024x2048) hz2, View.ld_unit_zero (S := S1x2048) hz2,
    View.ld_unit_zero (S := S1x512x128) hz3, View.ld_unit_zero (S := S1x1x128) hz3, View.ld_unit_zero (S := S16x2048) hz2,
    View.ld_unit_zero (S := S512x128) hz2, View.readCov_unit_zero (S := S16x2048) _ hz2,
    View.readCov_unit_zero (S := S512x128) _ hz2, readCov_whole_sub (S := S1024x2048) _ hz2]
  rfl

theorem sA2 (c : Dev nD) (i : grid0.Coords) (arg2 : Memref sig .tc .vmem S384x1 .i32) (harg2 : arg2.IsWhole) (arg3 : Memref sig .tc .vmem S384x512 .f32) (harg3 : arg3.IsWhole) (arg4 : Memref sig .tc .vmem S384x512 .f32) (harg4 : arg4.IsWhole) (arg5 : Memref sig .tc .vmem S9x512 .f32) (harg5 : arg5.IsWhole) (arg6 : Memref sig .tc .vmem S1024x2048 .f32) (harg6 : arg6.IsWhole) (arg7 : Memref sig .tc .vmem S1x2048 .f32) (harg7 : arg7.IsWhole) (arg8 : Memref sig .tc .vmem S1x512x128 .f32) (harg8 : arg8.IsWhole) (arg9 : Memref sig .tc .vmem S1x1x128 .f32) (harg9 : arg9.IsWhole) (arg10 : Memref sig .tc .vmem S384x4 .f32) (harg10 : arg10.IsWhole) (arg11 : Memref sig .tc .vmem S384x512 .f32) (harg11 : arg11.IsWhole) (arg12 : Memref sig .tc .vmem S384x512 .f32) (harg12 : arg12.IsWhole) (arg13 : Memref sig .tc .vmem S1024x2048 .bf16) (harg13 : arg13.IsWhole) (arg14 : Memref sig .tc .vmem S16x2048 .bf16) (harg14 : arg14.IsWhole) (arg15 : Memref sig .tc .vmem S512x128 .bf16) (harg15 : arg15.IsWhole) (hc0 : cond0_0 i) (x0 : Vec F S384x1 .i32) (x1 : Vec F S384x512 .f32) (x2 : Vec F S384x512 .f32) (x3 : Vec F S9x512 .f32) (x4 : Vec F S1024x2048 .f32) (x5 : Vec F S1x2048 .f32) (x6 : Vec F S1x512x128 .f32) (x7 : Vec F S1x1x128 .f32) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = k0_pay5 x6 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  unfold kernelRun0_A
  dsimp only
  sl_unfold_words
  rw [View.canon_unit_zero hz2]
  simp only [View.readAt_eq_ld, harg2.read_unread, harg3.read_unread, harg4.read_unread, harg5.read_unread,
    harg6.read_unread, harg7.read_unread, harg8.read_unread, harg9.read_unread, harg13.read_unread, harg14.read_unread,
    harg15.read_unread, View.ld_unit_zero (S := S384x1) hz2, View.ld_unit_zero (S := S384x512) hz2,
    View.ld_unit_zero (S := S9x512) hz2, View.ld_unit_zero (S := S1024x2048) hz2, View.ld_unit_zero (S := S1x2048) hz2,
    View.ld_unit_zero (S := S1x512x128) hz3, View.ld_unit_zero (S := S1x1x128) hz3, View.ld_unit_zero (S := S16x2048) hz2,
    View.ld_unit_zero (S := S512x128) hz2, View.readCov_unit_zero (S := S16x2048) _ hz2,
    View.readCov_unit_zero (S := S512x128) _ hz2, readCov_whole_sub (S := S1024x2048) _ hz2]

theorem oA10 (c : Dev nD) (i : grid0.Coords) (arg2 : Memref sig .tc .vmem S384x1 .i32) (harg2 : arg2.IsWhole) (arg3 : Memref sig .tc .vmem S384x512 .f32) (harg3 : arg3.IsWhole) (arg4 : Memref sig .tc .vmem S384x512 .f32) (harg4 : arg4.IsWhole) (arg5 : Memref sig .tc .vmem S9x512 .f32) (harg5 : arg5.IsWhole) (arg6 : Memref sig .tc .vmem S1024x2048 .f32) (harg6 : arg6.IsWhole) (arg7 : Memref sig .tc .vmem S1x2048 .f32) (harg7 : arg7.IsWhole) (arg8 : Memref sig .tc .vmem S1x512x128 .f32) (harg8 : arg8.IsWhole) (arg9 : Memref sig .tc .vmem S1x1x128 .f32) (harg9 : arg9.IsWhole) (arg10 : Memref sig .tc .vmem S384x4 .f32) (harg10 : arg10.IsWhole) (arg11 : Memref sig .tc .vmem S384x512 .f32) (harg11 : arg11.IsWhole) (arg12 : Memref sig .tc .vmem S384x512 .f32) (harg12 : arg12.IsWhole) (arg13 : Memref sig .tc .vmem S1024x2048 .bf16) (harg13 : arg13.IsWhole) (arg14 : Memref sig .tc .vmem S16x2048 .bf16) (harg14 : arg14.IsWhole) (arg15 : Memref sig .tc .vmem S512x128 .bf16) (harg15 : arg15.IsWhole) (hc0 : cond0_0 i) (x0 : Vec F S384x1 .i32) (x1 : Vec F S384x512 .f32) (x2 : Vec F S384x512 .f32) (x3 : Vec F S9x512 .f32) (x4 : Vec F S1024x2048 .f32) (x5 : Vec F S1x2048 .f32) (x6 : Vec F S1x512x128 .f32) (x7 : Vec F S1x1x128 .f32) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = cellBlk x0 x1 x2 (eTab x3 x4 x5) (k0_pay4 x4) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  unfold kernelRun0_A
  dsimp only
  sl_unfold_words
  rw [View.canon_unit_zero hz2]
  simp only [View.readAt_eq_ld, harg2.read_unread, harg3.read_unread, harg4.read_unread, harg5.read_unread,
    harg6.read_unread, harg7.read_unread, harg8.read_unread, harg9.read_unread, harg13.read_unread, harg14.read_unread,
    harg15.read_unread, View.ld_unit_zero (S := S384x1) hz2, View.ld_unit_zero (S := S384x512) hz2,
    View.ld_unit_zero (S := S9x512) hz2, View.ld_unit_zero (S := S1024x2048) hz2, View.ld_unit_zero (S := S1x2048) hz2,
    View.ld_unit_zero (S := S1x512x128) hz3, View.ld_unit_zero (S := S1x1x128) hz3, View.ld_unit_zero (S := S16x2048) hz2,
    View.ld_unit_zero (S := S512x128) hz2, View.readCov_unit_zero (S := S16x2048) _ hz2,
    View.readCov_unit_zero (S := S512x128) _ hz2, readCov_whole_sub (S := S1024x2048) _ hz2]
  rfl

theorem oA9 (c : Dev nD) (i : grid0.Coords) (arg2 : Memref sig .tc .vmem S384x1 .i32) (harg2 : arg2.IsWhole) (arg3 : Memref sig .tc .vmem S384x512 .f32) (harg3 : arg3.IsWhole) (arg4 : Memref sig .tc .vmem S384x512 .f32) (harg4 : arg4.IsWhole) (arg5 : Memref sig .tc .vmem S9x512 .f32) (harg5 : arg5.IsWhole) (arg6 : Memref sig .tc .vmem S1024x2048 .f32) (harg6 : arg6.IsWhole) (arg7 : Memref sig .tc .vmem S1x2048 .f32) (harg7 : arg7.IsWhole) (arg8 : Memref sig .tc .vmem S1x512x128 .f32) (harg8 : arg8.IsWhole) (arg9 : Memref sig .tc .vmem S1x1x128 .f32) (harg9 : arg9.IsWhole) (arg10 : Memref sig .tc .vmem S384x4 .f32) (harg10 : arg10.IsWhole) (arg11 : Memref sig .tc .vmem S384x512 .f32) (harg11 : arg11.IsWhole) (arg12 : Memref sig .tc .vmem S384x512 .f32) (harg12 : arg12.IsWhole) (arg13 : Memref sig .tc .vmem S1024x2048 .bf16) (harg13 : arg13.IsWhole) (arg14 : Memref sig .tc .vmem S16x2048 .bf16) (harg14 : arg14.IsWhole) (arg15 : Memref sig .tc .vmem S512x128 .bf16) (harg15 : arg15.IsWhole) (hc0 : cond0_0 i) (x0 : Vec F S384x1 .i32) (x1 : Vec F S384x512 .f32) (x2 : Vec F S384x512 .f32) (x3 : Vec F S9x512 .f32) (x4 : Vec F S1024x2048 .f32) (x5 : Vec F S1x2048 .f32) (x6 : Vec F S1x512x128 .f32) (x7 : Vec F S1x1x128 .f32) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = hidBlk x0 x1 x2 (eTab x3 x4 x5) (k0_pay4 x4) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  unfold kernelRun0_A
  dsimp only
  sl_unfold_words
  rw [View.canon_unit_zero hz2]
  simp only [View.readAt_eq_ld, harg2.read_unread, harg3.read_unread, harg4.read_unread, harg5.read_unread,
    harg6.read_unread, harg7.read_unread, harg8.read_unread, harg9.read_unread, harg13.read_unread, harg14.read_unread,
    harg15.read_unread, View.ld_unit_zero (S := S384x1) hz2, View.ld_unit_zero (S := S384x512) hz2,
    View.ld_unit_zero (S := S9x512) hz2, View.ld_unit_zero (S := S1024x2048) hz2, View.ld_unit_zero (S := S1x2048) hz2,
    View.ld_unit_zero (S := S1x512x128) hz3, View.ld_unit_zero (S := S1x1x128) hz3, View.ld_unit_zero (S := S16x2048) hz2,
    View.ld_unit_zero (S := S512x128) hz2, View.readCov_unit_zero (S := S16x2048) _ hz2,
    View.readCov_unit_zero (S := S512x128) _ hz2, readCov_whole_sub (S := S1024x2048) _ hz2]
  rfl

theorem oA8 (c : Dev nD) (i : grid0.Coords) (arg2 : Memref sig .tc .vmem S384x1 .i32) (harg2 : arg2.IsWhole) (arg3 : Memref sig .tc .vmem S384x512 .f32) (harg3 : arg3.IsWhole) (arg4 : Memref sig .tc .vmem S384x512 .f32) (harg4 : arg4.IsWhole) (arg5 : Memref sig .tc .vmem S9x512 .f32) (harg5 : arg5.IsWhole) (arg6 : Memref sig .tc .vmem S1024x2048 .f32) (harg6 : arg6.IsWhole) (arg7 : Memref sig .tc .vmem S1x2048 .f32) (harg7 : arg7.IsWhole) (arg8 : Memref sig .tc .vmem S1x512x128 .f32) (harg8 : arg8.IsWhole) (arg9 : Memref sig .tc .vmem S1x1x128 .f32) (harg9 : arg9.IsWhole) (arg10 : Memref sig .tc .vmem S384x4 .f32) (harg10 : arg10.IsWhole) (arg11 : Memref sig .tc .vmem S384x512 .f32) (harg11 : arg11.IsWhole) (arg12 : Memref sig .tc .vmem S384x512 .f32) (harg12 : arg12.IsWhole) (arg13 : Memref sig .tc .vmem S1024x2048 .bf16) (harg13 : arg13.IsWhole) (arg14 : Memref sig .tc .vmem S16x2048 .bf16) (harg14 : arg14.IsWhole) (arg15 : Memref sig .tc .vmem S512x128 .bf16) (harg15 : arg15.IsWhole) (hc0 : cond0_0 i) (x0 : Vec F S384x1 .i32) (x1 : Vec F S384x512 .f32) (x2 : Vec F S384x512 .f32) (x3 : Vec F S9x512 .f32) (x4 : Vec F S1024x2048 .f32) (x5 : Vec F S1x2048 .f32) (x6 : Vec F S1x512x128 .f32) (x7 : Vec F S1x1x128 .f32) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = logitBlk x0 x1 x2 (eTab x3 x4 x5) (k0_pay4 x4) (k0_pay5 x6) x7 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  unfold kernelRun0_A
  dsimp only
  sl_unfold_words
  rw [View.canon_unit_zero hz2]
  simp only [View.readAt_eq_ld, harg2.read_unread, harg3.read_unread, harg4.read_unread, harg5.read_unread,
    harg6.read_unread, harg7.read_unread, harg8.read_unread, harg9.read_unread, harg13.read_unread, harg14.read_unread,
    harg15.read_unread, View.ld_unit_zero (S := S384x1) hz2, View.ld_unit_zero (S := S384x512) hz2,
    View.ld_unit_zero (S := S9x512) hz2, View.ld_unit_zero (S := S1024x2048) hz2, View.ld_unit_zero (S := S1x2048) hz2,
    View.ld_unit_zero (S := S1x512x128) hz3, View.ld_unit_zero (S := S1x1x128) hz3, View.ld_unit_zero (S := S16x2048) hz2,
    View.ld_unit_zero (S := S512x128) hz2, View.readCov_unit_zero (S := S16x2048) _ hz2,
    View.readCov_unit_zero (S := S512x128) _ hz2, readCov_whole_sub (S := S1024x2048) _ hz2]
  rfl

theorem oB10 (c : Dev nD) (i : grid0.Coords) (arg2 : Memref sig .tc .vmem S384x1 .i32) (harg2 : arg2.IsWhole) (arg3 : Memref sig .tc .vmem S384x512 .f32) (harg3 : arg3.IsWhole) (arg4 : Memref sig .tc .vmem S384x512 .f32) (harg4 : arg4.IsWhole) (arg5 : Memref sig .tc .vmem S9x512 .f32) (harg5 : arg5.IsWhole) (arg6 : Memref sig .tc .vmem S1024x2048 .f32) (harg6 : arg6.IsWhole) (arg7 : Memref sig .tc .vmem S1x2048 .f32) (harg7 : arg7.IsWhole) (arg8 : Memref sig .tc .vmem S1x512x128 .f32) (harg8 : arg8.IsWhole) (arg9 : Memref sig .tc .vmem S1x1x128 .f32) (harg9 : arg9.IsWhole) (arg10 : Memref sig .tc .vmem S384x4 .f32) (harg10 : arg10.IsWhole) (arg11 : Memref sig .tc .vmem S384x512 .f32) (harg11 : arg11.IsWhole) (arg12 : Memref sig .tc .vmem S384x512 .f32) (harg12 : arg12.IsWhole) (arg13 : Memref sig .tc .vmem S1024x2048 .bf16) (harg13 : arg13.IsWhole) (arg14 : Memref sig .tc .vmem S16x2048 .bf16) (harg14 : arg14.IsWhole) (arg15 : Memref sig .tc .vmem S512x128 .bf16) (harg15 : arg15.IsWhole) (hc0 : ¬cond0_0 i) (x0 : Vec F S384x1 .i32) (x1 : Vec F S384x512 .f32) (x2 : Vec F S384x512 .f32) (x3 : Vec F S9x512 .f32) (x4 : Vec F S1024x2048 .f32) (x5 : Vec F S1x2048 .f32) (x6 : Vec F S1x512x128 .f32) (x7 : Vec F S1x1x128 .f32) (xs0 : Vec F S1024x2048 .bf16) (xs1 : Vec F S16x2048 .bf16) (xs2 : Vec F S512x128 .bf16) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 xs1 xs2 = cellBlk x0 x1 x2 xs1 xs0 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 xs1 xs2)]
  unfold kernelRun0_B
  dsimp only
  sl_unfold_words
  rw [View.canon_unit_zero hz2]
  simp only [View.readAt_eq_ld, harg2.read_unread, harg3.read_unread, harg4.read_unread, harg5.read_unread,
    harg6.read_unread, harg7.read_unread, harg8.read_unread, harg9.read_unread, harg13.read_unread, harg14.read_unread,
    harg15.read_unread, View.ld_unit_zero (S := S384x1) hz2, View.ld_unit_zero (S := S384x512) hz2,
    View.ld_unit_zero (S := S9x512) hz2, View.ld_unit_zero (S := S1024x2048) hz2, View.ld_unit_zero (S := S1x2048) hz2,
    View.ld_unit_zero (S := S1x512x128) hz3, View.ld_unit_zero (S := S1x1x128) hz3, View.ld_unit_zero (S := S16x2048) hz2,
    View.ld_unit_zero (S := S512x128) hz2, View.readCov_unit_zero (S := S16x2048) _ hz2,
    View.readCov_unit_zero (S := S512x128) _ hz2, readCov_whole_sub (S := S1024x2048) _ hz2]
  rfl

theorem oB9 (c : Dev nD) (i : grid0.Coords) (arg2 : Memref sig .tc .vmem S384x1 .i32) (harg2 : arg2.IsWhole) (arg3 : Memref sig .tc .vmem S384x512 .f32) (harg3 : arg3.IsWhole) (arg4 : Memref sig .tc .vmem S384x512 .f32) (harg4 : arg4.IsWhole) (arg5 : Memref sig .tc .vmem S9x512 .f32) (harg5 : arg5.IsWhole) (arg6 : Memref sig .tc .vmem S1024x2048 .f32) (harg6 : arg6.IsWhole) (arg7 : Memref sig .tc .vmem S1x2048 .f32) (harg7 : arg7.IsWhole) (arg8 : Memref sig .tc .vmem S1x512x128 .f32) (harg8 : arg8.IsWhole) (arg9 : Memref sig .tc .vmem S1x1x128 .f32) (harg9 : arg9.IsWhole) (arg10 : Memref sig .tc .vmem S384x4 .f32) (harg10 : arg10.IsWhole) (arg11 : Memref sig .tc .vmem S384x512 .f32) (harg11 : arg11.IsWhole) (arg12 : Memref sig .tc .vmem S384x512 .f32) (harg12 : arg12.IsWhole) (arg13 : Memref sig .tc .vmem S1024x2048 .bf16) (harg13 : arg13.IsWhole) (arg14 : Memref sig .tc .vmem S16x2048 .bf16) (harg14 : arg14.IsWhole) (arg15 : Memref sig .tc .vmem S512x128 .bf16) (harg15 : arg15.IsWhole) (hc0 : ¬cond0_0 i) (x0 : Vec F S384x1 .i32) (x1 : Vec F S384x512 .f32) (x2 : Vec F S384x512 .f32) (x3 : Vec F S9x512 .f32) (x4 : Vec F S1024x2048 .f32) (x5 : Vec F S1x2048 .f32) (x6 : Vec F S1x512x128 .f32) (x7 : Vec F S1x1x128 .f32) (xs0 : Vec F S1024x2048 .bf16) (xs1 : Vec F S16x2048 .bf16) (xs2 : Vec F S512x128 .bf16) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 xs1 xs2 = hidBlk x0 x1 x2 xs1 xs0 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 xs1 xs2)]
  unfold kernelRun0_B
  dsimp only
  sl_unfold_words
  rw [View.canon_unit_zero hz2]
  simp only [View.readAt_eq_ld, harg2.read_unread, harg3.read_unread, harg4.read_unread, harg5.read_unread,
    harg6.read_unread, harg7.read_unread, harg8.read_unread, harg9.read_unread, harg13.read_unread, harg14.read_unread,
    harg15.read_unread, View.ld_unit_zero (S := S384x1) hz2, View.ld_unit_zero (S := S384x512) hz2,
    View.ld_unit_zero (S := S9x512) hz2, View.ld_unit_zero (S := S1024x2048) hz2, View.ld_unit_zero (S := S1x2048) hz2,
    View.ld_unit_zero (S := S1x512x128) hz3, View.ld_unit_zero (S := S1x1x128) hz3, View.ld_unit_zero (S := S16x2048) hz2,
    View.ld_unit_zero (S := S512x128) hz2, View.readCov_unit_zero (S := S16x2048) _ hz2,
    View.readCov_unit_zero (S := S512x128) _ hz2, readCov_whole_sub (S := S1024x2048) _ hz2]
  rfl

theorem oB8 (c : Dev nD) (i : grid0.Coords) (arg2 : Memref sig .tc .vmem S384x1 .i32) (harg2 : arg2.IsWhole) (arg3 : Memref sig .tc .vmem S384x512 .f32) (harg3 : arg3.IsWhole) (arg4 : Memref sig .tc .vmem S384x512 .f32) (harg4 : arg4.IsWhole) (arg5 : Memref sig .tc .vmem S9x512 .f32) (harg5 : arg5.IsWhole) (arg6 : Memref sig .tc .vmem S1024x2048 .f32) (harg6 : arg6.IsWhole) (arg7 : Memref sig .tc .vmem S1x2048 .f32) (harg7 : arg7.IsWhole) (arg8 : Memref sig .tc .vmem S1x512x128 .f32) (harg8 : arg8.IsWhole) (arg9 : Memref sig .tc .vmem S1x1x128 .f32) (harg9 : arg9.IsWhole) (arg10 : Memref sig .tc .vmem S384x4 .f32) (harg10 : arg10.IsWhole) (arg11 : Memref sig .tc .vmem S384x512 .f32) (harg11 : arg11.IsWhole) (arg12 : Memref sig .tc .vmem S384x512 .f32) (harg12 : arg12.IsWhole) (arg13 : Memref sig .tc .vmem S1024x2048 .bf16) (harg13 : arg13.IsWhole) (arg14 : Memref sig .tc .vmem S16x2048 .bf16) (harg14 : arg14.IsWhole) (arg15 : Memref sig .tc .vmem S512x128 .bf16) (harg15 : arg15.IsWhole) (hc0 : ¬cond0_0 i) (x0 : Vec F S384x1 .i32) (x1 : Vec F S384x512 .f32) (x2 : Vec F S384x512 .f32) (x3 : Vec F S9x512 .f32) (x4 : Vec F S1024x2048 .f32) (x5 : Vec F S1x2048 .f32) (x6 : Vec F S1x512x128 .f32) (x7 : Vec F S1x1x128 .f32) (xs0 : Vec F S1024x2048 .bf16) (xs1 : Vec F S16x2048 .bf16) (xs2 : Vec F S512x128 .bf16) :
    out0_B_8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 xs1 xs2 = logitBlk x0 x1 x2 xs1 xs0 xs2 x7 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 xs1 xs2)]
  unfold kernelRun0_B
  dsimp only
  sl_unfold_words
  rw [View.canon_unit_zero hz2]
  simp only [View.readAt_eq_ld, harg2.read_unread, harg3.read_unread, harg4.read_unread, harg5.read_unread,
    harg6.read_unread, harg7.read_unread, harg8.read_unread, harg9.read_unread, harg13.read_unread, harg14.read_unread,
    harg15.read_unread, View.ld_unit_zero (S := S384x1) hz2, View.ld_unit_zero (S := S384x512) hz2,
    View.ld_unit_zero (S := S9x512) hz2, View.ld_unit_zero (S := S1024x2048) hz2, View.ld_unit_zero (S := S1x2048) hz2,
    View.ld_unit_zero (S := S1x512x128) hz3, View.ld_unit_zero (S := S1x1x128) hz3, View.ld_unit_zero (S := S16x2048) hz2,
    View.ld_unit_zero (S := S512x128) hz2, View.readCov_unit_zero (S := S16x2048) _ hz2,
    View.readCov_unit_zero (S := S512x128) _ hz2, readCov_whole_sub (S := S1024x2048) _ hz2]
  rfl

end Cert.KSide

end
-- ==== Proof.Spec.lean ====
/-
  The controller step as one function of its argument arrays, entry by entry, on the extended reals.

  A batch row r carries a token id; the token's embedding row and the row's hidden state h(r,·) drive four gate
  pre-activations per hidden unit q, read off one 2048-wide row
      gate(r, col) = (Σ_d emb(tok r, d) · W(d, col) + b(col)) + Σ_d h(r, d) · W(512 + d, col),
  the columns [0,512) feeding the input gate, [512,1024) the forget gate, [1024,1536) the candidate and [1536,2048) the
  output gate. With σ the logistic function,
      cell(r,q)  = σ(gate(r, 512+q)) · c(r,q) + σ(gate(r, q)) · tanh(gate(r, 1024+q)),
      hid(r,q)   = σ(gate(r, 1536+q)) · tanh(cell(r,q)),
      logit(r,l) = 2.5 · tanh((Σ_d hid(r,d) · dw(2,d,l) + db(2,0,l)) · f32(0.2))        for the 4 leading lanes l
  (decoder head 2 of the 9 stacked heads). The scalars 2.5 and f32(0.2) stay the words the programs carry.
-/
import Idealize.ShloMosaic.PureOps.Ideal
import Idealize.ShloMosaic.Lib.ValueIdx

noncomputable section

open scoped BigOperators

namespace Cert.Cell

open Idealize.ShloMosaic Idealize.ShloMosaic.ValueIdx

/-- The embedding row a token word names: its unsigned value, folded into the nine rows (a token in range names itself). -/
def rowOf (w : BitVec 32) : Fin 9 := ⟨w.toNat % 9, Nat.mod_lt _ (by decide)⟩

theorem rowOf_val (w : BitVec 32) (h : w.toNat < 9) : (rowOf w).val = w.toNat := Nat.mod_eq_of_lt h

/-- Column `off + q` of the 2048-wide gate row, for the gate that starts at column `off`. -/
def gcol (off : Nat) (h : off + 512 ≤ 2048) (q : Fin 512) : Fin 2048 := ⟨off + q.val, by have := q.isLt; omega⟩

/-- Row `off + d` of the 1024-row weight matrix. -/
def wrow (off : Nat) (h : off + 512 ≤ 1024) (d : Fin 512) : Fin 1024 := ⟨off + d.val, by have := d.isLt; omega⟩

/-- Lane `l` of the four kept lanes, as a lane of the 128-wide decoder slab. -/
def lane (l : Fin 4) : Fin 128 := ⟨l.val, by have := l.isLt; omega⟩

section
variable (tok : (⟨1, ![1536]⟩ : Shape).Idx → BitVec 32)
  (h c : (⟨2, ![1536, 512]⟩ : Shape).Idx → EReal) (emb : (⟨2, ![9, 512]⟩ : Shape).Idx → EReal)
  (W : (⟨2, ![1024, 2048]⟩ : Shape).Idx → EReal) (b : (⟨2, ![1, 2048]⟩ : Shape).Idx → EReal)
  (dw : (⟨3, ![9, 512, 128]⟩ : Shape).Idx → EReal) (db : (⟨3, ![9, 1, 128]⟩ : Shape).Idx → EReal)

/-- The token half of a gate pre-activation, bias included: the token's embedding row against the first 512 weight rows. -/
def tokPart (r : Fin 1536) (col : Fin 2048) : EReal :=
  (∑ d : Fin 512, emb (ix2 (rowOf (tok (ix1 r))) d) * W (ix2 (wrow 0 (by omega) d) col)) + b (ix2 0 col)

/-- The hidden-state half: row r of h against the last 512 weight rows. -/
def hidPart (r : Fin 1536) (col : Fin 2048) : EReal :=
  ∑ d : Fin 512, h (ix2 r d) * W (ix2 (wrow 512 (by omega) d) col)

/-- A gate pre-activation. -/
def gate (r : Fin 1536) (col : Fin 2048) : EReal := tokPart tok emb W b r col + hidPart h W r col

/-- The new cell state. -/
def cell (r : Fin 1536) (q : Fin 512) : EReal :=
  Ideal.logistic (gate tok h emb W b r (gcol 512 (by omega) q)) * c (ix2 r q)
    + Ideal.logistic (gate tok h emb W b r (gcol 0 (by omega) q)) * Ideal.tanh (gate tok h emb W b r (gcol 1024 (by omega) q))

/-- The new hidden state. -/
def hid (r : Fin 1536) (q : Fin 512) : EReal :=
  Ideal.logistic (gate tok h emb W b r (gcol 1536 (by omega) q)) * Ideal.tanh (cell tok h c emb W b r q)

/-- The decoder head's pre-activation on one of its 128 lanes. -/
def dec (r : Fin 1536) (l : Fin 128) : EReal :=
  (∑ d : Fin 512, hid tok h c emb W b r d * dw (ix3 2 d l)) + db (ix3 2 0 l)

/-- The squashed, temperature-scaled logit on one of the 128 lanes. -/
def squash (x : EReal) : EReal :=
  Ideal.ofBits .f32 0x40200000#32 * Ideal.tanh (x * Ideal.ofBits .f32 0x3E4CCCCD#32)

/-- The three results as whole arrays. -/
def cellArr : (⟨2, ![1536, 512]⟩ : Shape).Idx → EReal := fun j => cell tok h c emb W b (j 0) (j 1)
def hidArr : (⟨2, ![1536, 512]⟩ : Shape).Idx → EReal := fun j => hid tok h c emb W b (j 0) (j 1)
def logitArr : (⟨2, ![1536, 4]⟩ : Shape).Idx → EReal :=
  fun j => squash (dec tok h c emb W b dw db (j 0) (lane (j 1)))

end

end Cert.Cell

end
-- ==== Proof.CellMath.lean ====
/-
  Two facts on the extended reals that join the two spellings of the gates.

  * The logistic function through tanh: for every extended real x, ½ · tanh(½ · x) + ½ = 1 / (1 + e^(−x)).
    On a real x this is tanh(x/2) = (e^x − 1)/(e^x + 1); at +∞ both sides are 1 and at −∞ both are 0.
  * A one-hot row picks an entry: Σ_k [k = n] · E k = E n, since 0 · y = 0 and 1 · y = y for every extended real y
    (so no entry needs to be finite).
-/
import Idealize.ShloMosaic.PureOps.Ideal

noncomputable section

open scoped BigOperators

namespace Cert.CellMath

open Idealize.ShloMosaic

/-- The word 0x3F000000 denotes ½. -/
theorem half_eq : Ideal.ofBits .f32 0x3F000000#32 = ((1 / 2 : ℝ) : EReal) := by
  simp [Ideal.ofBits, Ideal.ieee, -EReal.coe_mul]; norm_num

/-- The word 0 denotes 0. -/
theorem zero_eq : Ideal.ofBits .f32 0x00000000#32 = 0 := by
  simp [Ideal.ofBits, Ideal.ieee]

/-- On the reals: ½ · tanh(½ · r) + ½ = (1 + e^(−r))⁻¹. -/
theorem real_half_tanh (r : ℝ) : (1 / 2 : ℝ) * Real.tanh ((1 / 2 : ℝ) * r) + 1 / 2 = (1 + Real.exp (-r))⁻¹ := by
  have key : ∀ a b : ℝ, 0 < a → 0 < b → a * b = 1 →
      (1 / 2 : ℝ) * ((a - b) / 2 / ((a + b) / 2)) + 1 / 2 = (1 + b * b)⁻¹ := by
    intro a b ha hb hab
    have hs : a + b ≠ 0 := by positivity
    have h1 : 1 + b * b ≠ 0 := by positivity
    refine (mul_eq_one_iff_eq_inv₀ h1).mp ?_
    field_simp
    linear_combination (2 * b) * hab
  have hr : Real.exp (-r) = Real.exp (-(1 / 2 * r)) * Real.exp (-(1 / 2 * r)) := by
    rw [← Real.exp_add]; congr 1; ring
  have hinv : Real.exp (1 / 2 * r) * Real.exp (-(1 / 2 * r)) = 1 := by
    rw [← Real.exp_add]; simp
  rw [Real.tanh_eq_sinh_div_cosh, Real.sinh_eq, Real.cosh_eq, hr]
  exact key _ _ (Real.exp_pos _) (Real.exp_pos _) hinv

/-- The logistic function through tanh, at every extended real. -/
theorem half_tanh (x : EReal) :
    Ideal.ofBits .f32 0x3F000000#32 * Ideal.tanh (Ideal.ofBits .f32 0x3F000000#32 * x) + Ideal.ofBits .f32 0x3F000000#32
      = Ideal.logistic x := by
  rw [half_eq]
  induction x using EReal.rec with
  | bot =>
    have h : ((1 / 2 : ℝ) : EReal) * ⊥ = ⊥ := EReal.coe_mul_bot_of_pos (by norm_num)
    rw [h, Ideal.tanh_bot, Ideal.logistic_bot]
    have : ((1 / 2 : ℝ) : EReal) * -1 + ((1 / 2 : ℝ) : EReal) = (((1 / 2 : ℝ) * -1 + 1 / 2 : ℝ) : EReal) := by
      push_cast; rfl
    rw [this]; norm_num
  | coe r =>
    rw [← EReal.coe_mul, Ideal.tanh_coe, ← EReal.coe_mul, ← EReal.coe_add, Ideal.logistic_coe, real_half_tanh]
  | top =>
    have h : ((1 / 2 : ℝ) : EReal) * ⊤ = ⊤ := EReal.coe_mul_top_of_pos (by norm_num)
    rw [h, Ideal.tanh_top, Ideal.logistic_top, mul_one]
    rw [← EReal.coe_add]; norm_num

/-- A one-hot row picks an entry of any family of extended reals. -/
theorem onehot_sum {K : Nat} (n : Fin K) (E : Fin K → EReal) :
    ∑ k : Fin K, (if k = n then (1 : EReal) else 0) * E k = E n := by
  rw [Finset.sum_eq_single n]
  · rw [if_pos rfl, one_mul]
  · intro k _ hk; rw [if_neg hk, zero_mul]
  · intro h; exact absurd (Finset.mem_univ n) h

end Cert.CellMath

end
-- ==== Proof.LibPlainDot.lean ====
/-
  A plain matrix product read at an index, on the extended reals.

  For the dimension numbers of an M×K by K×N product (contract the left operand's axis 1 with the right operand's
  axis 0, no batch axis), the product at row `r`, column `n` is the sum over the K contraction positions of
  `l (r, k) · r' (k, n)`. The contraction index of the dimension record is a one-coordinate index; it is re-indexed by
  that coordinate, and the operand indices at an output index and a contraction position are read off coordinate by
  coordinate. Stated for a kernel's matrix unit accumulating into the zero splat and for a host `dot_general`.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The contraction shape of a plain product has one axis, -/
theorem contr_rank : (DotDims.plain M K N).contr.rank = 1 := rfl

/-- of extent K. -/
theorem contr_size : (DotDims.plain M K N).contr.size ⟨0, by rw [contr_rank]; exact Nat.one_pos⟩ = K := rfl

/-- The left operand's index at output index `j` and contraction position `k` is (row of `j`, `k`). -/
theorem lhsIdx_eq (j : (⟨2, ![M, N]⟩ : Shape).Idx) (k : Fin K) :
    (DotDims.plain M K N).lhsIdx j ((contrEquiv1 (DotDims.plain M K N) K (contr_rank M K N) (contr_size M K N)).symm k)
      = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand's index at output index `j` and contraction position `k` is (`k`, column of `j`). -/
theorem rhsIdx_eq (j : (⟨2, ![M, N]⟩ : Shape).Idx) (k : Fin K) :
    (DotDims.plain M K N).rhsIdx j ((contrEquiv1 (DotDims.plain M K N) K (contr_rank M K N) (contr_size M K N)).symm k)
      = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The sum over the record's contraction index is the sum over the K positions. -/
theorem sum_contr (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K (contr_rank M K N) (contr_size M K N)).symm]
  exact Finset.sum_congr rfl fun k _ =>
    congrArg₂ (fun a b => l a * r b) (lhsIdx_eq M K N j k) (rhsIdx_eq M K N j k)

/-- A kernel's matrix unit accumulating into the zero splat, at an index: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr M K N l r j)

/-- A host `dot_general` at an index: the same sum, whatever the precision and schedule keys. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr M K N l r j)

end Cert.LibPlainDot

end
-- ==== Proof.KBlock.lean ====
import proofs.«164750_g2000601216510222_pallasbulk_1026_17_alg».proof.Proof.KPieces
import proofs.«164750_g2000601216510222_pallasbulk_1026_17_alg».proof.Proof.Spec
import proofs.«164750_g2000601216510222_pallasbulk_1026_17_alg».proof.Proof.CellMath
import proofs.«164750_g2000601216510222_pallasbulk_1026_17_alg».proof.Proof.LibPlainDot
import Idealize.ShloMosaic.Lib.Pipeline.Value
import Idealize.ShloMosaic.Lib.Tactic
import Idealize.ShloMosaic.Lib.ValueIdx
import Idealize.ShloMosaic.PureOps.Ideal.Laws
set_option maxRecDepth 16384

noncomputable section

open Idealize.ShloMosaic Idealize.ShloMosaic.TcCoe Idealize.SL.Sem

open scoped BigOperators

/-! The gate pre-activations of one block, entry by entry: the one-hot product picks the token's row of the staged
    table, and the hidden product is a plain sum over the 512 hidden units. -/

namespace Cert.KSide

open Cert.KernelIdeal Cert.KernelIdeal.Gen Idealize.ShloMosaic.ValueIdx

/-- Sums of equal terms are equal. -/
theorem add_congr {α : Type} [Add α] {A B A' B' : α} (h1 : A = A') (h2 : B = B') : A + B = A' + B' := by rw [h1, h2]

/-- An entry of the one-hot matrix: 1 where the two words agree, 0 elsewhere. -/
theorem onehot_val (a b : BitVec 32) :
    (((BitVec.setWidth 32 (IntOp.cmpi .eq a b)).toInt : ℝ) : EReal) = if a = b then (1 : EReal) else 0 := by
  unfold IntOp.cmpi
  by_cases h : a = b
  · subst h; simp
  · have hb : (a == b) = false := by simpa using h
    simp [hb, h]

/-- A column vector spread along 16 lanes. -/
theorem spread_tok {α : Type} (x : S384x1.Idx → α) (h : S384x1.Broadcasts S384x16) (p : Fin 384) (k : Fin 16) :
    broadcastTo S384x16 x h (ix2 p k) = x (ix2 p 0) :=
  broadcastTo_apply x h (ix2 p k) (ix2 p 0) (fun a => by match a with | ⟨0, _⟩ => rfl | ⟨1, _⟩ => rfl)

/-- A lane row spread along 384 rows. -/
theorem spread_lane {α : Type} (x : S1x16.Idx → α) (h : S1x16.Broadcasts S384x16) (p : Fin 384) (k : Fin 16) :
    broadcastTo S384x16 x h (ix2 p k) = x (ix2 0 k) :=
  broadcastTo_apply x h (ix2 p k) (ix2 0 k) (fun a => by match a with | ⟨0, _⟩ => rfl | ⟨1, _⟩ => rfl)

/-- The gate pre-activation at row p, column col, when the row's token word is the number n < 16. -/
theorem pre_apply (x0 : Vec Ideal S384x1 .i32) (E : Vec Ideal S16x2048 .bf16) (x1 : Vec Ideal S384x512 .f32)
    (Wh : Vec Ideal S512x2048 .bf16) (p : Fin 384) (col : Fin 2048) (n : Fin 16)
    (hn : x0 (ix2 p 0) = BitVec.ofNat 32 n.val) :
    k0_pay7 x0 E x1 Wh (ix2 p col) = E (ix2 n col) + ∑ d : Fin 512, x1 (ix2 p d) * Wh (ix2 d col) := by
  have e1 : dot_S384x16_S16x2048_S384x2048_1_0_0_1_n_n = DotDims.plain 384 16 2048 := rfl
  have e2 : dot_S384x512_S512x2048_S384x2048_1_0_0_1_n_n = DotDims.plain 384 512 2048 := rfl
  unfold k0_pay7
  dsimp only
  rw [addf_apply, e1, e2]
  refine add_congr ((Cert.LibPlainDot.matmul_zero_apply 384 16 2048 (φ₁ := .bf16) (φ₂ := .bf16) none _ E (ix2 p col)).trans ?_)
    (Cert.LibPlainDot.matmul_zero_apply 384 512 2048 (φ₁ := .bf16) (φ₂ := .bf16) none _ Wh (ix2 p col))
  rw [← Cert.CellMath.onehot_sum n (fun k => E (ix2 k col))]
  refine Finset.sum_congr rfl fun k _ => ?_
  show (((BitVec.setWidth 32 (IntOp.cmpi .eq
      (broadcastTo S384x16 (shapeCast S384x1 x0 Facts₀.shapeCasts_S384x1_S384x1) Facts₀.broadcasts_S384x1_S384x16 (ix2 p k))
      (broadcastTo S384x16 (iota Kind.tc S1x16 32 [1] Facts₀.iota_S1x16_d1_w32) Facts₀.broadcasts_S1x16_S384x16 (ix2 p k)))).toInt : ℝ) : EReal)
      * E (ix2 k col) = _
  rw [spread_tok, spread_lane, shapeCast_self, iota_single_apply, hn, onehot_val]
  have hk : (BitVec.ofNat 32 n.val = BitVec.ofNat 32 ((ix2 (0 : Fin 1) k) 1).val) ↔ k = n := by
    show (BitVec.ofNat 32 n.val = BitVec.ofNat 32 k.val) ↔ k = n
    constructor
    · intro h
      have h' := congrArg BitVec.toNat h
      simp only [BitVec.toNat_ofNat] at h'
      have h1 : n.val < 16 := n.isLt
      have h2 : k.val < 16 := k.isLt
      apply Fin.ext; omega
    · rintro rfl; rfl
  rw [if_congr hk rfl rfl]

/-- The staged weight matrix holds the weights (a change of float format is the identity on the extended reals). -/
theorem pay4_apply (x4 : Vec Ideal S1024x2048 .f32) (j : S1024x2048.Idx) : k0_pay4 x4 j = x4 j := by
  unfold k0_pay4
  rw [shapeCast_self]
  rfl

/-- Row d of the last 512 staged rows is weight row 512 + d. -/
theorem hi_apply (x4 : Vec Ideal S1024x2048 .f32) (d : Fin 512) (col : Fin 2048) :
    hiOf (k0_pay4 x4) (ix2 d col) = x4 (ix2 (Cert.Cell.wrow 512 (by omega) d) col) := by
  unfold hiOf
  show k0_pay4 x4 _ = _
  rw [pay4_apply]
  congr 1
  funext a
  apply Fin.ext
  match a with
  | ⟨0, _⟩ => show 512 + 1 * d.val = 512 + d.val; omega
  | ⟨1, _⟩ => show 0 + 1 * col.val = col.val; omega

/-- Row d of the first 512 staged rows is weight row d. -/
theorem lo_apply (x4 : Vec Ideal S1024x2048 .f32) (d : Fin 512) (col : Fin 2048) :
    loOf (k0_pay4 x4) (ix2 d col) = x4 (ix2 (Cert.Cell.wrow 0 (by omega) d) col) := by
  unfold loOf
  show k0_pay4 x4 _ = _
  rw [pay4_apply]
  congr 1
  funext a
  apply Fin.ext
  match a with
  | ⟨0, _⟩ => show 0 + 1 * d.val = 0 + d.val; omega
  | ⟨1, _⟩ => show 0 + 1 * col.val = col.val; omega

/-- Row k < 9 of the sixteen-row table: embedding row k against the first 512 weight rows, plus the bias. -/
theorem etab_apply (x3 : Vec Ideal S9x512 .f32) (x4 : Vec Ideal S1024x2048 .f32) (x5 : Vec Ideal S1x2048 .f32)
    (k : Fin 16) (k' : Fin 9) (hk : k.val = k'.val) (col : Fin 2048) :
    eTab x3 x4 x5 (ix2 k col)
      = (∑ d : Fin 512, x3 (ix2 k' d) * x4 (ix2 (Cert.Cell.wrow 0 (by omega) d) col)) + x5 (ix2 0 col) := by
  have e3 : dot_S16x512_S512x2048_S16x2048_1_0_0_1_n_n = DotDims.plain 16 512 2048 := rfl
  unfold eTab k0_pay6
  rw [shapeCast_self, truncf_apply, addf_apply, e3]
  refine add_congr ((Cert.LibPlainDot.matmul_zero_apply 16 512 2048 (φ₁ := .bf16) (φ₂ := .bf16) none _ _ (ix2 k col)).trans ?_) ?_
  · refine Finset.sum_congr rfl fun d _ => ?_
    refine congrArg₂ (fun a b : EReal => a * b) ?_ (lo_apply x4 d col)
    exact concatenate_pair_apply_left (t := S16x512) (s₁ := S9x512) (s₂ := S7x512) (0 : Fin 2) _ _ _ (ix2 k d) rfl (ix2 k' d) (fun b => by
      match b with
      | ⟨0, _⟩ => exact hk.symm
      | ⟨1, _⟩ => rfl)
  · exact broadcastTo_apply x5 _ (ix2 k col) (ix2 0 col) (fun a => by match a with | ⟨0, _⟩ => rfl | ⟨1, _⟩ => rfl)

/-- The gate pre-activation of a block row is the specification's gate of the array row it came from. -/
theorem gate_blk (x0 : Vec Ideal S384x1 .i32) (x1 : Vec Ideal S384x512 .f32)
    (tok : (⟨1, ![1536]⟩ : Shape).Idx → BitVec 32) (hh : (⟨2, ![1536, 512]⟩ : Shape).Idx → EReal)
    (emb : Vec Ideal S9x512 .f32) (W : Vec Ideal S1024x2048 .f32) (b : Vec Ideal S1x2048 .f32)
    (p : Fin 384) (r : Fin 1536) (h0 : x0 (ix2 p 0) = tok (ix1 r)) (ht : (tok (ix1 r)).toNat < 9)
    (h1 : ∀ d : Fin 512, x1 (ix2 p d) = hh (ix2 r d)) (col : Fin 2048) :
    k0_pay7 x0 (eTab emb W b) x1 (hiOf (k0_pay4 W)) (ix2 p col) = Cert.Cell.gate tok hh emb W b r col := by
  have hn : x0 (ix2 p 0) = BitVec.ofNat 32 (⟨(tok (ix1 r)).toNat, by omega⟩ : Fin 16).val := by
    rw [h0]; simp
  rw [pre_apply x0 _ x1 _ p col _ hn,
    etab_apply emb W b _ (Cert.Cell.rowOf (tok (ix1 r))) (Cert.Cell.rowOf_val _ ht).symm col]
  unfold Cert.Cell.gate Cert.Cell.tokPart Cert.Cell.hidPart
  refine add_congr rfl (Finset.sum_congr rfl fun d _ => ?_)
  rw [h1 d, hi_apply]

/-! The gates: slices of the pre-activation row, squashed. -/

/-- The 512-wide slice of the gate row that starts at column off. -/
theorem gslice_apply (g : FVec Ideal S384x2048 .f32) (off : Nat) (hoff : off + 512 ≤ 2048)
    (h : S384x2048.Slices ![0, off] S384x512) (p : Fin 384) (q : Fin 512) :
    extractStridedSlice S384x512 ![0, off] g h (ix2 p q) = g (ix2 p (Cert.Cell.gcol off hoff q)) :=
  extractStridedSlice_apply ![0, off] g h (ix2 p q) (ix2 p (Cert.Cell.gcol off hoff q)) (fun a => by
    match a with
    | ⟨0, _⟩ => show p.val = 0 + p.val; omega
    | ⟨1, _⟩ => rfl)

/-- The input gate: ½ · tanh(½ · x) + ½ is the logistic function. -/
theorem pay8_apply (v3 : Vec Ideal S384x1 .i32) (v12 : Vec Ideal S16x2048 .bf16) (v14 : Vec Ideal S384x512 .f32)
    (v16 : Vec Ideal S512x2048 .bf16) (p : Fin 384) (q : Fin 512) :
    k0_pay8 v3 v12 v14 v16 (ix2 p q)
      = Ideal.logistic (k0_pay7 v3 v12 v14 v16 (ix2 p (Cert.Cell.gcol 0 (by omega) q))) := by
  unfold k0_pay8
  show Ideal.ofBits .f32 0x3F000000#32 * Ideal.tanh (Ideal.ofBits .f32 0x3F000000#32
      * extractStridedSlice S384x512 ![0, 0] (k0_pay7 v3 v12 v14 v16) Facts₀.slices_S384x2048_o0_0_S384x512 (ix2 p q))
      + Ideal.ofBits .f32 0x3F000000#32 = _
  rw [gslice_apply _ 0 (by omega)]
  exact Cert.CellMath.half_tanh _

/-- The forget gate. -/
theorem pay9_apply (v3 : Vec Ideal S384x1 .i32) (v12 : Vec Ideal S16x2048 .bf16) (v14 : Vec Ideal S384x512 .f32)
    (v16 : Vec Ideal S512x2048 .bf16) (p : Fin 384) (q : Fin 512) :
    k0_pay9 v3 v12 v14 v16 (ix2 p q)
      = Ideal.logistic (k0_pay7 v3 v12 v14 v16 (ix2 p (Cert.Cell.gcol 512 (by omega) q))) := by
  unfold k0_pay9
  show Ideal.ofBits .f32 0x3F000000#32 * Ideal.tanh (Ideal.ofBits .f32 0x3F000000#32
      * extractStridedSlice S384x512 ![0, 512] (k0_pay7 v3 v12 v14 v16) Facts₀.slices_S384x2048_o0_512_S384x512 (ix2 p q))
      + Ideal.ofBits .f32 0x3F000000#32 = _
  rw [gslice_apply _ 512 (by omega)]
  exact Cert.CellMath.half_tanh _

/-- The candidate. -/
theorem pay10_apply (v3 : Vec Ideal S384x1 .i32) (v12 : Vec Ideal S16x2048 .bf16) (v14 : Vec Ideal S384x512 .f32)
    (v16 : Vec Ideal S512x2048 .bf16) (p : Fin 384) (q : Fin 512) :
    k0_pay10 v3 v12 v14 v16 (ix2 p q)
      = Ideal.tanh (k0_pay7 v3 v12 v14 v16 (ix2 p (Cert.Cell.gcol 1024 (by omega) q))) := by
  unfold k0_pay10
  show Ideal.tanh (extractStridedSlice S384x512 ![0, 1024] (k0_pay7 v3 v12 v14 v16)
      Facts₀.slices_S384x2048_o0_1024_S384x512 (ix2 p q)) = _
  rw [gslice_apply _ 1024 (by omega)]

/-- The output gate's pre-activation. -/
theorem pay11_apply (v3 : Vec Ideal S384x1 .i32) (v12 : Vec Ideal S16x2048 .bf16) (v14 : Vec Ideal S384x512 .f32)
    (v16 : Vec Ideal S512x2048 .bf16) (p : Fin 384) (q : Fin 512) :
    k0_pay11 v3 v12 v14 v16 (ix2 p q) = k0_pay7 v3 v12 v14 v16 (ix2 p (Cert.Cell.gcol 1536 (by omega) q)) := by
  unfold k0_pay11
  exact gslice_apply _ 1536 (by omega) _ p q

/-- The new cell state of a block entry, over the block's gate pre-activations. -/
theorem cellBlk_apply (x0 : Vec Ideal S384x1 .i32) (x1 x2 : Vec Ideal S384x512 .f32) (E : Vec Ideal S16x2048 .bf16)
    (X : Vec Ideal S1024x2048 .bf16) (p : Fin 384) (q : Fin 512) :
    cellBlk x0 x1 x2 E X (ix2 p q)
      = Ideal.logistic (k0_pay7 x0 E x1 (hiOf X) (ix2 p (Cert.Cell.gcol 512 (by omega) q))) * x2 (ix2 p q)
        + Ideal.logistic (k0_pay7 x0 E x1 (hiOf X) (ix2 p (Cert.Cell.gcol 0 (by omega) q)))
          * Ideal.tanh (k0_pay7 x0 E x1 (hiOf X) (ix2 p (Cert.Cell.gcol 1024 (by omega) q))) := by
  unfold cellBlk k0_pay1
  rw [addf_apply, mulf_apply, mulf_apply, pay9_apply, pay8_apply, pay10_apply]

/-- The new hidden state of a block entry. -/
theorem hidBlk_apply (x0 : Vec Ideal S384x1 .i32) (x1 x2 : Vec Ideal S384x512 .f32) (E : Vec Ideal S16x2048 .bf16)
    (X : Vec Ideal S1024x2048 .bf16) (p : Fin 384) (q : Fin 512) :
    hidBlk x0 x1 x2 E X (ix2 p q)
      = Ideal.logistic (k0_pay7 x0 E x1 (hiOf X) (ix2 p (Cert.Cell.gcol 1536 (by omega) q)))
        * Ideal.tanh (cellBlk x0 x1 x2 E X (ix2 p q)) := by
  unfold hidBlk k0_pay2
  show (Ideal.ofBits .f32 0x3F000000#32 * Ideal.tanh (Ideal.ofBits .f32 0x3F000000#32
      * k0_pay11 x0 E x1 (hiOf X) (ix2 p q)) + Ideal.ofBits .f32 0x3F000000#32)
      * Ideal.tanh (cellBlk x0 x1 x2 E X (ix2 p q)) = _
  rw [pay11_apply, Cert.CellMath.half_tanh]

/-- The staged decoder slab holds the selected head's weights. -/
theorem pay5_apply (x6 : Vec Ideal S1x512x128 .f32) (d : Fin 512) (l : Fin 128) :
    k0_pay5 x6 (ix2 d l) = x6 (ix3 0 d l) := by
  unfold k0_pay5
  rw [shapeCast_self, truncf_apply]
  refine shapeCast_apply x6 _ (ix2 d l) (ix3 0 d l) ?_
  rw [Shape.rowMajor_val_three, Shape.rowMajor_val_two]
  show ((0 : Fin 1).val * 512 + d.val) * 128 + l.val = d.val * 128 + l.val
  simp

/-- A kept logit lane of a block entry: the decoder head on the new hidden row, scaled and squashed. -/
theorem logitBlk_apply (x0 : Vec Ideal S384x1 .i32) (x1 x2 : Vec Ideal S384x512 .f32) (E : Vec Ideal S16x2048 .bf16)
    (X : Vec Ideal S1024x2048 .bf16) (x6 : Vec Ideal S1x512x128 .f32) (x7 : Vec Ideal S1x1x128 .f32)
    (p : Fin 384) (l : Fin 4) :
    logitBlk x0 x1 x2 E X (k0_pay5 x6) x7 (ix2 p l)
      = Cert.Cell.squash ((∑ d : Fin 512, hidBlk x0 x1 x2 E X (ix2 p d) * x6 (ix3 0 d (Cert.Cell.lane l)))
          + x7 (ix3 0 0 (Cert.Cell.lane l))) := by
  have e4 : dot_S384x512_S512x128_S384x128_1_0_0_1_n_n = DotDims.plain 384 512 128 := rfl
  unfold logitBlk k0_pay3
  rw [extractStridedSlice_apply ![0, 0] _ _ (ix2 p l) (ix2 p (Cert.Cell.lane l)) (fun a => by
    match a with
    | ⟨0, _⟩ => show p.val = 0 + p.val; omega
    | ⟨1, _⟩ => show l.val = 0 + l.val; omega), e4]
  unfold Cert.Cell.squash
  show Ideal.ofBits .f32 0x40200000#32 * Ideal.tanh ((_ + _) * Ideal.ofBits .f32 0x3E4CCCCD#32) = _
  refine congrArg (fun z : EReal => Ideal.ofBits .f32 0x40200000#32 * Ideal.tanh (z * Ideal.ofBits .f32 0x3E4CCCCD#32)) ?_
  refine add_congr ((Cert.LibPlainDot.matmul_zero_apply 384 512 128 (φ₁ := .bf16) (φ₂ := .bf16) none _ _
    (ix2 p (Cert.Cell.lane l))).trans ?_) ?_
  · exact Finset.sum_congr rfl fun d _ => congrArg (fun z : EReal => hidBlk x0 x1 x2 E X (ix2 p d) * z)
      (pay5_apply x6 d (Cert.Cell.lane l))
  · refine (broadcastTo_apply _ _ (ix2 p (Cert.Cell.lane l)) (ix2 0 (Cert.Cell.lane l)) (fun a => by
      match a with | ⟨0, _⟩ => rfl | ⟨1, _⟩ => rfl)).trans ?_
    refine shapeCast_apply x7 _ (ix2 0 (Cert.Cell.lane l)) (ix3 0 0 (Cert.Cell.lane l)) ?_
    rw [Shape.rowMajor_val_three, Shape.rowMajor_val_two]
    show ((0 : Fin 1).val * 1 + (0 : Fin 1).val) * 128 + (Cert.Cell.lane l).val = (0 : Fin 1).val * 128 + (Cert.Cell.lane l).val
    simp

/-! A block entry is the specification's entry of the array row the block row came from. -/

section ToSpec

variable (x0 : Vec Ideal S384x1 .i32) (x1 x2 : Vec Ideal S384x512 .f32)
  (tok : (⟨1, ![1536]⟩ : Shape).Idx → BitVec 32) (hh cc : (⟨2, ![1536, 512]⟩ : Shape).Idx → EReal)
  (emb : Vec Ideal S9x512 .f32) (W : Vec Ideal S1024x2048 .f32) (b : Vec Ideal S1x2048 .f32)
  (p : Fin 384) (r : Fin 1536) (h0 : x0 (ix2 p 0) = tok (ix1 r)) (ht : (tok (ix1 r)).toNat < 9)
  (h1 : ∀ d : Fin 512, x1 (ix2 p d) = hh (ix2 r d)) (h2 : ∀ q : Fin 512, x2 (ix2 p q) = cc (ix2 r q))

include h0 ht h1 h2

theorem cell_blk (q : Fin 512) :
    cellBlk x0 x1 x2 (eTab emb W b) (k0_pay4 W) (ix2 p q) = Cert.Cell.cell tok hh cc emb W b r q := by
  rw [cellBlk_apply, h2 q]
  simp only [gate_blk x0 x1 tok hh emb W b p r h0 ht h1]
  rfl

theorem hid_blk (q : Fin 512) :
    hidBlk x0 x1 x2 (eTab emb W b) (k0_pay4 W) (ix2 p q) = Cert.Cell.hid tok hh cc emb W b r q := by
  rw [hidBlk_apply, cell_blk x0 x1 x2 tok hh cc emb W b p r h0 ht h1 h2 q]
  simp only [gate_blk x0 x1 tok hh emb W b p r h0 ht h1]
  rfl

theorem logit_blk (x6 : Vec Ideal S1x512x128 .f32) (x7 : Vec Ideal S1x1x128 .f32)
    (dw : (⟨3, ![9, 512, 128]⟩ : Shape).Idx → EReal) (db : (⟨3, ![9, 1, 128]⟩ : Shape).Idx → EReal)
    (h6 : ∀ (d : Fin 512) (l : Fin 128), x6 (ix3 0 d l) = dw (ix3 2 d l))
    (h7 : ∀ l : Fin 128, x7 (ix3 0 0 l) = db (ix3 2 0 l)) (l : Fin 4) :
    logitBlk x0 x1 x2 (eTab emb W b) (k0_pay4 W) (k0_pay5 x6) x7 (ix2 p l)
      = Cert.Cell.squash (Cert.Cell.dec tok hh cc emb W b dw db r (Cert.Cell.lane l)) := by
  rw [logitBlk_apply, h7]
  unfold Cert.Cell.dec
  refine congrArg Cert.Cell.squash (add_congr (Finset.sum_congr rfl fun d _ => ?_) rfl)
  rw [hid_blk x0 x1 x2 tok hh cc emb W b p r h0 ht h1 h2 d, h6]

end ToSpec

end Cert.KSide

end
-- ==== Proof.KGeom.lean ====
/-
  Where each window of the kernel sits in its array: the four grid points move the row-blocked windows (token ids,
  the two state arrays, the three results) in blocks of 384 rows, point t at rows 384·t … 384·t + 383; the embedding
  table, the weight matrix and the bias row are whole arrays at every point; the decoder weights and bias are the
  slab of head 2 at every point. Stated index by index over explicit coordinates.
-/
import proofs.«164750_g2000601216510222_pallasbulk_1026_17_alg».proof.Proof.Gen.KernelIdeal.Value
import Idealize.ShloMosaic.Lib.Pipeline.Value
import Idealize.ShloMosaic.Lib.ValueIdx
import Idealize.ShloMosaic.Lib.Tactic

noncomputable section

namespace Cert.KGeom

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ)

/-- The grid has four points. -/
theorem lt_four (t : Fin cfg0.N) : t.val < 4 := lt_of_lt_of_eq t.isLt N_0

/-- Row p of point t's block, as a row of the 1536-row arrays: 384·t + p. -/
def gRow (t : Fin cfg0.N) (p : Fin 384) : Fin 1536 := ⟨384 * t.val + p.val, by have := lt_four t; have := p.isLt; omega⟩

theorem gRow_val (t : Fin cfg0.N) (p : Fin 384) : (gRow t p).val = 384 * t.val + p.val := rfl

/-- The printed index maps, decided over the four points: the row-blocked windows are at block row t, block column 0. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

/-- The whole-array windows are at block (0, 0), the decoder windows at block (2, 0, 0), at every point. -/
theorem idx_fixed : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 3) = 2 ∧ win0_6.index t (1 : Fin 3) = 0 ∧ win0_6.index t (2 : Fin 3) = 0)
    ∧ (win0_7.index t (0 : Fin 3) = 2 ∧ win0_7.index t (1 : Fin 3) = 0 ∧ win0_7.index t (2 : Fin 3) = 0) :=
  (by decide +kernel : ∀ t : Fin grid0.N, _)

/-! ## The state arrays: row blocks -/

/-- The hidden-state block at point t, row p, is row 384·t + p of the hidden-state array. -/
theorem h_blk (c : Dev nD) (t : Fin cfg0.N) (p : Fin 384) (d : Fin 512) :
    (iblk m c 1 t : Vec F S384x512 .f32) (ix2 p d) = m ((c : Thread nD τ).loc main_arg1) (ix2 (gRow t p) d) := by
  obtain ⟨h0, h1⟩ := (idx_rows t).2.1
  unfold iblk
  rw [View.read_apply]
  show V m c main_arg1 _ = _
  rw [V_main_arg1]
  congr 1
  funext a
  apply Fin.ext
  match a with
  | ⟨0, _⟩ => show win0_1.index t 0 * 384 + 1 * p.val = 384 * t.val + p.val; rw [h0]; omega
  | ⟨1, _⟩ => show win0_1.index t 1 * 512 + 1 * d.val = d.val; rw [h1]; omega

/-- The cell-state block at point t, row p, is row 384·t + p of the cell-state array. -/
theorem c_blk (c : Dev nD) (t : Fin cfg0.N) (p : Fin 384) (d : Fin 512) :
    (iblk m c 2 t : Vec F S384x512 .f32) (ix2 p d) = m ((c : Thread nD τ).loc main_arg2) (ix2 (gRow t p) d) := by
  obtain ⟨h0, h1⟩ := (idx_rows t).2.2.1
  unfold iblk
  rw [View.read_apply]
  show V m c main_arg2 _ = _
  rw [V_main_arg2]
  congr 1
  funext a
  apply Fin.ext
  match a with
  | ⟨0, _⟩ => show win0_2.index t 0 * 384 + 1 * p.val = 384 * t.val + p.val; rw [h0]; omega
  | ⟨1, _⟩ => show win0_2.index t 1 * 512 + 1 * d.val = d.val; rw [h1]; omega

/-! ## The token ids: a column of the reshaped id array -/

/-- The id column the region finds is the id array, reshaped from [1536] to [1536, 1]. -/
theorem V_tok (c : Dev nD) :
    (V m c main_v0 : S1536x1.Idx → Elt F .i32)
      = shapeCast S1536x1 (m ((c : Thread nD τ).loc main_arg0)) Gen.shapeCasts_S1536_S1536x1 := by
  dsimp only [Gen.V, Gen.hostOps0]
  after_results
  rfl

/-- The id block at point t, row p, is id 384·t + p. -/
theorem tok_blk (c : Dev nD) (t : Fin cfg0.N) (p : Fin 384) :
    (iblk m c 0 t : Vec F S384x1 .i32) (ix2 p 0) = m ((c : Thread nD τ).loc main_arg0) (ix1 (gRow t p)) := by
  obtain ⟨h0, h1⟩ := (idx_rows t).1
  unfold iblk
  rw [View.read_apply]
  show V m c main_v0 _ = _
  rw [V_tok]
  apply shapeCast_apply
  show ((⟨1, ![1536]⟩ : Shape).rowMajor (ix1 (gRow t p))).val = ((⟨2, ![1536, 1]⟩ : Shape).rowMajor _).val
  rw [Shape.rowMajor_val_one, Shape.rowMajor_val_two]
  show (gRow t p).val = (win0_0.index t 0 * 384 + 1 * p.val) * 1 + (win0_0.index t 1 * 1 + 1 * 0)
  rw [h0, h1, gRow_val]; omega

/-! ## The tables held whole -/

/-- The embedding window is the whole embedding table at every point. -/
theorem emb_blk (c : Dev nD) (t : Fin cfg0.N) :
    (iblk m c 3 t : Vec F S9x512 .f32) = m ((c : Thread nD τ).loc main_arg3) := by
  obtain ⟨h0, h1⟩ := (idx_fixed t).1
  funext j
  unfold iblk
  rw [View.read_apply]
  show V m c main_arg3 _ = _
  rw [V_main_arg3]
  congr 1
  funext a
  apply Fin.ext
  match a with
  | ⟨0, _⟩ => show win0_3.index t 0 * 9 + 1 * (j 0).val = (j 0).val; rw [h0]; omega
  | ⟨1, _⟩ => show win0_3.index t 1 * 512 + 1 * (j 1).val = (j 1).val; rw [h1]; omega

/-- The weight window is the whole weight matrix at every point. -/
theorem w_blk (c : Dev nD) (t : Fin cfg0.N) :
    (iblk m c 4 t : Vec F S1024x2048 .f32) = m ((c : Thread nD τ).loc main_arg4) := by
  obtain ⟨h0, h1⟩ := (idx_fixed t).2.1
  funext j
  unfold iblk
  rw [View.read_apply]
  show V m c main_arg4 _ = _
  rw [V_main_arg4]
  congr 1
  funext a
  apply Fin.ext
  match a with
  | ⟨0, _⟩ => show win0_4.index t 0 * 1024 + 1 * (j 0).val = (j 0).val; rw [h0]; omega
  | ⟨1, _⟩ => show win0_4.index t 1 * 2048 + 1 * (j 1).val = (j 1).val; rw [h1]; omega

/-- The bias window is the whole bias row at every point. -/
theorem b_blk (c : Dev nD) (t : Fin cfg0.N) :
    (iblk m c 5 t : Vec F S1x2048 .f32) = m ((c : Thread nD τ).loc main_arg5) := by
  obtain ⟨h0, h1⟩ := (idx_fixed t).2.2.1
  funext j
  unfold iblk
  rw [View.read_apply]
  show V m c main_arg5 _ = _
  rw [V_main_arg5]
  congr 1
  funext a
  apply Fin.ext
  match a with
  | ⟨0, _⟩ => show win0_5.index t 0 * 1 + 1 * (j 0).val = (j 0).val; rw [h0]; omega
  | ⟨1, _⟩ => show win0_5.index t 1 * 2048 + 1 * (j 1).val = (j 1).val; rw [h1]; omega

/-! ## The decoder: head 2 of the nine -/

/-- The decoder-weight window is head 2's [512, 128] slab at every point. -/
theorem dw_blk (c : Dev nD) (t : Fin cfg0.N) (d : Fin 512) (l : Fin 128) :
    (iblk m c 6 t : Vec F S1x512x128 .f32) (ix3 0 d l) = m ((c : Thread nD τ).loc main_arg6) (ix3 2 d l) := by
  obtain ⟨h0, h1, h2⟩ := (idx_fixed t).2.2.2.1
  unfold iblk
  rw [View.read_apply]
  show V m c main_arg6 _ = _
  rw [V_main_arg6]
  congr 1
  funext a
  apply Fin.ext
  match a with
  | ⟨0, _⟩ => show win0_6.index t 0 * 1 + 1 * 0 = 2; rw [h0]
  | ⟨1, _⟩ => show win0_6.index t 1 * 512 + 1 * d.val = d.val; rw [h1]; omega
  | ⟨2, _⟩ => show win0_6.index t 2 * 128 + 1 * l.val = l.val; rw [h2]; omega

/-- The decoder-bias window is head 2's [1, 128] row at every point. -/
theorem db_blk (c : Dev nD) (t : Fin cfg0.N) (l : Fin 128) :
    (iblk m c 7 t : Vec F S1x1x128 .f32) (ix3 0 0 l) = m ((c : Thread nD τ).loc main_arg7) (ix3 2 0 l) := by
  obtain ⟨h0, h1, h2⟩ := (idx_fixed t).2.2.2.2
  unfold iblk
  rw [View.read_apply]
  show V m c main_arg7 _ = _
  rw [V_main_arg7]
  congr 1
  funext a
  apply Fin.ext
  match a with
  | ⟨0, _⟩ => show win0_7.index t 0 * 1 + 1 * 0 = 2; rw [h0]
  | ⟨1, _⟩ => show win0_7.index t 1 * 1 + 1 * 0 = 0; rw [h1]
  | ⟨2, _⟩ => show win0_7.index t 2 * 128 + 1 * l.val = l.val; rw [h2]; omega

/-! ## The results: row blocks that tile their arrays -/

/-- Inside point t's block of the logit array, (p, q) is row 384·t + p, column q. -/
theorem emb_8 (t : Fin cfg0.N) (p : Fin 384) (q : Fin 4) :
    (((cfg0.win 8).blk t).view.emb (ix2 p q) : S1536x4.Idx) = ix2 (gRow t p) q := by
  obtain ⟨h0, h1⟩ := (idx_rows t).2.2.2.1
  funext a
  apply Fin.ext
  match a with
  | ⟨0, _⟩ => show win0_8.index t 0 * 384 + 1 * p.val = 384 * t.val + p.val; rw [h0]; omega
  | ⟨1, _⟩ => show win0_8.index t 1 * 4 + 1 * q.val = q.val; rw [h1]; omega

/-- An index of the logit array is in point t's block iff each coordinate is in the block's range on its axis. -/
theorem mem_blk_8 (t : Fin cfg0.N) (i : S1536x4.Idx) :
    i ∈ ((cfg0.win 8).blk t).view.set
      ↔ ∀ a : Fin 2, win0_8.index t a * S384x4.size a ≤ (i a).val ∧ (i a).val < win0_8.index t a * S384x4.size a + S384x4.size a := by
  show i ∈ ((View.whole main_v1_0).slice (win0_8.rect t)).set ↔ _
  rw [View.set_slice_whole, Rect.mem_set_unit]
  exact Iff.rfl

/-- The four row blocks cover the logit array: row r lies in the block of point r / 384. -/
theorem cover_8 (i : S1536x4.Idx) :
    ∃ t : Fin cfg0.N, (cfg0.win 8).flush t = true ∧ i ∈ ((cfg0.win 8).blk t).view.set := by
  have hi0 : (i 0).val < 1536 := (i 0).isLt
  have hi1 : (i 1).val < 4 := (i 1).isLt
  let t : Fin cfg0.N := ⟨(i 0).val / 384, lt_of_lt_of_eq (by omega : (i 0).val / 384 < 4) N_0.symm⟩
  have ht : t.val = (i 0).val / 384 := rfl
  obtain ⟨h0, h1⟩ := (idx_rows t).2.2.2.1
  refine ⟨t, flush0_8 t, ?_⟩
  rw [mem_blk_8]
  intro a
  match a with
  | ⟨0, _⟩ => show win0_8.index t 0 * 384 ≤ (i 0).val ∧ (i 0).val < win0_8.index t 0 * 384 + 384; rw [h0, ht]; omega
  | ⟨1, _⟩ => show win0_8.index t 1 * 4 ≤ (i 1).val ∧ (i 1).val < win0_8.index t 1 * 4 + 4; rw [h1]; omega

/-- Inside point t's block of the new hidden-state array, (p, q) is row 384·t + p, column q. -/
theorem emb_9 (t : Fin cfg0.N) (p : Fin 384) (q : Fin 512) :
    (((cfg0.win 9).blk t).view.emb (ix2 p q) : S1536x512.Idx) = ix2 (gRow t p) q := by
  obtain ⟨h0, h1⟩ := (idx_rows t).2.2.2.2.1
  funext a
  apply Fin.ext
  match a with
  | ⟨0, _⟩ => show win0_9.index t 0 * 384 + 1 * p.val = 384 * t.val + p.val; rw [h0]; omega
  | ⟨1, _⟩ => show win0_9.index t 1 * 512 + 1 * q.val = q.val; rw [h1]; omega

/-- An index of the new hidden-state array is in point t's block iff each coordinate is in the block's range on its axis. -/
theorem mem_blk_9 (t : Fin cfg0.N) (i : S1536x512.Idx) :
    i ∈ ((cfg0.win 9).blk t).view.set
      ↔ ∀ a : Fin 2, win0_9.index t a * S384x512.size a ≤ (i a).val ∧ (i a).val < win0_9.index t a * S384x512.size a + S384x512.size a := by
  show i ∈ ((View.whole main_v1_1).slice (win0_9.rect t)).set ↔ _
  rw [View.set_slice_whole, Rect.mem_set_unit]
  exact Iff.rfl

/-- The four row blocks cover the new hidden-state array: row r lies in the block of point r / 384. -/
theorem cover_9 (i : S1536x512.Idx) :
    ∃ t : Fin cfg0.N, (cfg0.win 9).flush t = true ∧ i ∈ ((cfg0.win 9).blk t).view.set := by
  have hi0 : (i 0).val < 1536 := (i 0).isLt
  have hi1 : (i 1).val < 512 := (i 1).isLt
  let t : Fin cfg0.N := ⟨(i 0).val / 384, lt_of_lt_of_eq (by omega : (i 0).val / 384 < 4) N_0.symm⟩
  have ht : t.val = (i 0).val / 384 := rfl
  obtain ⟨h0, h1⟩ := (idx_rows t).2.2.2.2.1
  refine ⟨t, flush0_9 t, ?_⟩
  rw [mem_blk_9]
  intro a
  match a with
  | ⟨0, _⟩ => show win0_9.index t 0 * 384 ≤ (i 0).val ∧ (i 0).val < win0_9.index t 0 * 384 + 384; rw [h0, ht]; omega
  | ⟨1, _⟩ => show win0_9.index t 1 * 512 ≤ (i 1).val ∧ (i 1).val < win0_9.index t 1 * 512 + 512; rw [h1]; omega

/-- Inside point t's block of the new cell-state array, (p, q) is row 384·t + p, column q. -/
theorem emb_10 (t : Fin cfg0.N) (p : Fin 384) (q : Fin 512) :
    (((cfg0.win 10).blk t).view.emb (ix2 p q) : S1536x512.Idx) = ix2 (gRow t p) q := by
  obtain ⟨h0, h1⟩ := (idx_rows t).2.2.2.2.2
  funext a
  apply Fin.ext
  match a with
  | ⟨0, _⟩ => show win0_10.index t 0 * 384 + 1 * p.val = 384 * t.val + p.val; rw [h0]; omega
  | ⟨1, _⟩ => show win0_10.index t 1 * 512 + 1 * q.val = q.val; rw [h1]; omega

/-- An index of the new cell-state array is in point t's block iff each coordinate is in the block's range on its axis. -/
theorem mem_blk_10 (t : Fin cfg0.N) (i : S1536x512.Idx) :
    i ∈ ((cfg0.win 10).blk t).view.set
      ↔ ∀ a : Fin 2, win0_10.index t a * S384x512.size a ≤ (i a).val ∧ (i a).val < win0_10.index t a * S384x512.size a + S384x512.size a := by
  show i ∈ ((View.whole main_v1_2).slice (win0_10.rect t)).set ↔ _
  rw [View.set_slice_whole, Rect.mem_set_unit]
  exact Iff.rfl

/-- The four row blocks cover the new cell-state array: row r lies in the block of point r / 384. -/
theorem cover_10 (i : S1536x512.Idx) :
    ∃ t : Fin cfg0.N, (cfg0.win 10).flush t = true ∧ i ∈ ((cfg0.win 10).blk t).view.set := by
  have hi0 : (i 0).val < 1536 := (i 0).isLt
  have hi1 : (i 1).val < 512 := (i 1).isLt
  let t : Fin cfg0.N := ⟨(i 0).val / 384, lt_of_lt_of_eq (by omega : (i 0).val / 384 < 4) N_0.symm⟩
  have ht : t.val = (i 0).val / 384 := rfl
  obtain ⟨h0, h1⟩ := (idx_rows t).2.2.2.2.2
  refine ⟨t, flush0_10 t, ?_⟩
  rw [mem_blk_10]
  intro a
  match a with
  | ⟨0, _⟩ => show win0_10.index t 0 * 384 ≤ (i 0).val ∧ (i 0).val < win0_10.index t 0 * 384 + 384; rw [h0, ht]; omega
  | ⟨1, _⟩ => show win0_10.index t 1 * 512 ≤ (i 1).val ∧ (i 1).val < win0_10.index t 1 * 512 + 512; rw [h1]; omega

end Cert.KGeom

end
-- ==== Proof.KFlush.lean ====
/-
  What each grid point writes back, as pure terms of the blocks it reads.

  The first point of each core (the even points) stages three tables — the rounded copy of the weight matrix, the
  sixteen-row table built from the embedding rows, the weights' first half and the bias, and the rounded decoder slab
  — and the second point of the core (the odd points) reads what the first left. The arrays those tables are built
  from are the same block at every point, so after every point the three tables are the same three terms of the
  argument arrays, and every point's three result blocks are one function of its own token, hidden-state and
  cell-state blocks and those tables.
-/
import proofs.«164750_g2000601216510222_pallasbulk_1026_17_alg».proof.Proof.KGeom
import proofs.«164750_g2000601216510222_pallasbulk_1026_17_alg».proof.Proof.KPieces

set_option maxRecDepth 16384

noncomputable section

namespace Cert.KFlush

open Cert.KernelIdeal Cert.KernelIdeal.Gen Idealize.ShloMosaic Idealize.ShloMosaic.TcCoe Idealize.SL.Sem
open Idealize.ShloMosaic.ValueIdx Cert.KGeom
open Idealize.ShloMosaic.Pipeline (Dat)

variable {F : FTy → Type} [FloatOps F]
variable (m : (ℓ : Loc nD τ sig) → Buf (Elt F) ℓ)

/-- Head 2's [512, 128] slab of the decoder weights, as a block with a leading unit axis. -/
def dSlab (c : Dev nD) : Vec F S1x512x128 .f32 :=
  fun y => m ((c : Thread nD τ).loc main_arg6) (ix3 (2 : Fin 9) (y 1 : Fin 512) (y 2 : Fin 128))

/-- Read at (0, d, l), the slab is entry (2, d, l) of the decoder weights. -/
theorem dSlab_apply (c : Dev nD) (d : Fin 512) (l : Fin 128) :
    dSlab m c (ix3 0 d l) = m ((c : Thread nD τ).loc main_arg6) (ix3 2 d l) := rfl

/-- The decoder-weight window is that slab at every point. -/
theorem dw_slab (c : Dev nD) (t : Fin cfg0.N) : (iblk m c 6 t : Vec F S1x512x128 .f32) = dSlab m c := by
  obtain ⟨h0, h1, h2⟩ := (idx_fixed t).2.2.2.1
  funext y
  have hy : (y 0).val = 0 := by have h : (y 0).val < 1 := (y 0).isLt; omega
  unfold iblk dSlab
  rw [View.read_apply]
  show V m c main_arg6 _ = _
  rw [V_main_arg6]
  congr 1
  funext a
  apply Fin.ext
  match a with
  | ⟨0, _⟩ => show win0_6.index t 0 * 1 + 1 * (y 0).val = 2; rw [h0, hy]
  | ⟨1, _⟩ => show win0_6.index t 1 * 512 + 1 * (y 1).val = (y 1).val; rw [h1]; omega
  | ⟨2, _⟩ => show win0_6.index t 2 * 128 + 1 * (y 2).val = (y 2).val; rw [h2]; omega

/-- The point before a point is a point. -/
theorem prev_lt (t : Fin cfg0.N) : t.val - 1 < cfg0.N := Nat.lt_of_le_of_lt (Nat.sub_le _ _) t.isLt

/-! ## The three staged tables -/

/-- After an even point the three tables are the terms that point staged. -/
theorem scratch_even (c : Dev nD) (t : Fin cfg0.N) (h0 : t.val % 2 = 0) :
    (outsAt0 m c t.val t.isLt).2.2.2.1 = k0_pay4 (m ((c : Thread nD τ).loc main_arg4))
    ∧ (outsAt0 m c t.val t.isLt).2.2.2.2.1 = Cert.KSide.eTab (m ((c : Thread nD τ).loc main_arg3)) (m ((c : Thread nD τ).loc main_arg4)) (m ((c : Thread nD τ).loc main_arg5))
    ∧ (outsAt0 m c t.val t.isLt).2.2.2.2.2 = k0_pay5 (dSlab m c) := by
  rw [outsAt0_A m c t h0]
  dsimp only
  refine ⟨?_, ?_, ?_⟩
  · exact (Cert.KSide.sA0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t)).trans (by rw [w_blk])
  · exact (Cert.KSide.sA1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t)).trans (by rw [emb_blk, w_blk, b_blk])
  · exact (Cert.KSide.sA2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t)).trans (by rw [dw_slab])

/-- After EVERY point the three tables are those same terms: an odd point keeps what the even point before it left. -/
theorem scratch_at (c : Dev nD) (t : Fin cfg0.N) :
    (outsAt0 m c t.val t.isLt).2.2.2.1 = k0_pay4 (m ((c : Thread nD τ).loc main_arg4))
    ∧ (outsAt0 m c t.val t.isLt).2.2.2.2.1 = Cert.KSide.eTab (m ((c : Thread nD τ).loc main_arg3)) (m ((c : Thread nD τ).loc main_arg4)) (m ((c : Thread nD τ).loc main_arg5))
    ∧ (outsAt0 m c t.val t.isLt).2.2.2.2.2 = k0_pay5 (dSlab m c) := by
  by_cases h0 : t.val % 2 = 0
  · exact scratch_even m c t h0
  · have he : (⟨t.val - 1, prev_lt t⟩ : Fin cfg0.N).val % 2 = 0 := by show (t.val - 1) % 2 = 0; omega
    have hp := scratch_even m c ⟨t.val - 1, prev_lt t⟩ he
    rw [outsAt0_B m c t h0]
    dsimp only
    unfold sout0_B_0 sout0_B_1 sout0_B_2
    exact hp

/-- What the point before an odd point left in the three tables. -/
theorem scratch_prev (c : Dev nD) (t : Fin cfg0.N) :
    (outsAt0 m c (t.val - 1) (prev_lt t)).2.2.2.1 = k0_pay4 (m ((c : Thread nD τ).loc main_arg4))
    ∧ (outsAt0 m c (t.val - 1) (prev_lt t)).2.2.2.2.1 = Cert.KSide.eTab (m ((c : Thread nD τ).loc main_arg3)) (m ((c : Thread nD τ).loc main_arg4)) (m ((c : Thread nD τ).loc main_arg5))
    ∧ (outsAt0 m c (t.val - 1) (prev_lt t)).2.2.2.2.2 = k0_pay5 (dSlab m c) :=
  scratch_at m c ⟨t.val - 1, prev_lt t⟩

/-! ## The three result blocks -/

/-- The new cell-state block point t writes back. -/
theorem flushed10_pure (c : Dev nD) (t : Fin cfg0.N) :
    (dats m 0 c).flushed 10 t = (cfg0.win 10).cut (grid0.coords t)
      (Cert.KSide.cellBlk (iblk m c 0 t) (iblk m c 1 t) (iblk m c 2 t) (Cert.KSide.eTab (m ((c : Thread nD τ).loc main_arg3)) (m ((c : Thread nD τ).loc main_arg4)) (m ((c : Thread nD τ).loc main_arg5))) (k0_pay4 (m ((c : Thread nD τ).loc main_arg4)))) := by
  by_cases h0 : t.val % 2 = 0
  · rw [Value.flushed10_A m c t h0]
    refine congrArg ((cfg0.win 10).cut (grid0.coords t)) ((Cert.KSide.oA10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t)).trans ?_)
    rw [emb_blk, w_blk, b_blk]
  · obtain ⟨s0, s1, s2⟩ := scratch_prev m c t
    rw [Value.flushed10_B m c t h0]
    refine congrArg ((cfg0.win 10).cut (grid0.coords t)) ((Cert.KSide.oB10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (prev_lt t)).2.2.2.1 (outsAt0 m c (t.val - 1) (prev_lt t)).2.2.2.2.1 (outsAt0 m c (t.val - 1) (prev_lt t)).2.2.2.2.2).trans ?_)
    rw [s0, s1]

/-- The new hidden-state block point t writes back. -/
theorem flushed9_pure (c : Dev nD) (t : Fin cfg0.N) :
    (dats m 0 c).flushed 9 t = (cfg0.win 9).cut (grid0.coords t)
      (Cert.KSide.hidBlk (iblk m c 0 t) (iblk m c 1 t) (iblk m c 2 t) (Cert.KSide.eTab (m ((c : Thread nD τ).loc main_arg3)) (m ((c : Thread nD τ).loc main_arg4)) (m ((c : Thread nD τ).loc main_arg5))) (k0_pay4 (m ((c : Thread nD τ).loc main_arg4)))) := by
  by_cases h0 : t.val % 2 = 0
  · rw [Value.flushed9_A m c t h0]
    refine congrArg ((cfg0.win 9).cut (grid0.coords t)) ((Cert.KSide.oA9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t)).trans ?_)
    rw [emb_blk, w_blk, b_blk]
  · obtain ⟨s0, s1, s2⟩ := scratch_prev m c t
    rw [Value.flushed9_B m c t h0]
    refine congrArg ((cfg0.win 9).cut (grid0.coords t)) ((Cert.KSide.oB9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (prev_lt t)).2.2.2.1 (outsAt0 m c (t.val - 1) (prev_lt t)).2.2.2.2.1 (outsAt0 m c (t.val - 1) (prev_lt t)).2.2.2.2.2).trans ?_)
    rw [s0, s1]

/-- The logit block point t writes back. -/
theorem flushed8_pure (c : Dev nD) (t : Fin cfg0.N) :
    (dats m 0 c).flushed 8 t = (cfg0.win 8).cut (grid0.coords t)
      (Cert.KSide.logitBlk (iblk m c 0 t) (iblk m c 1 t) (iblk m c 2 t) (Cert.KSide.eTab (m ((c : Thread nD τ).loc main_arg3)) (m ((c : Thread nD τ).loc main_arg4)) (m ((c : Thread nD τ).loc main_arg5))) (k0_pay4 (m ((c : Thread nD τ).loc main_arg4))) (k0_pay5 (dSlab m c)) (iblk m c 7 t)) := by
  by_cases h0 : t.val % 2 = 0
  · rw [Value.flushed8_A m c t h0]
    refine congrArg ((cfg0.win 8).cut (grid0.coords t)) ((Cert.KSide.oA8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t)).trans ?_)
    rw [emb_blk, w_blk, b_blk, dw_slab]
  · obtain ⟨s0, s1, s2⟩ := scratch_prev m c t
    rw [Value.flushed8_B m c t h0]
    refine congrArg ((cfg0.win 8).cut (grid0.coords t)) ((Cert.KSide.oB8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (prev_lt t)).2.2.2.1 (outsAt0 m c (t.val - 1) (prev_lt t)).2.2.2.2.1 (outsAt0 m c (t.val - 1) (prev_lt t)).2.2.2.2.2).trans ?_)
    rw [s0, s1, s2]

end Cert.KFlush

end
-- ==== Proof.KRun.lean ====
import proofs.«164750_g2000601216510222_pallasbulk_1026_17_alg».proof.Proof.Gen.KernelIdeal.Value
import proofs.«164750_g2000601216510222_pallasbulk_1026_17_alg».proof.Proof.KBlock
import proofs.«164750_g2000601216510222_pallasbulk_1026_17_alg».proof.Proof.KGeom
import proofs.«164750_g2000601216510222_pallasbulk_1026_17_alg».proof.Proof.KFlush
import Idealize.ShloMosaic.Lib.Pipeline.Value
import Idealize.ShloMosaic.Lib.Tactic
import Idealize.ShloMosaic.Lib.ValueIdx
set_option maxRecDepth 16384

noncomputable section

open Idealize.ShloMosaic Idealize.ShloMosaic.TcCoe Idealize.SL.Sem

/-! The kernel's three result arrays, as the specification's functions of the argument arrays.

    Point t of the 2×2 grid works on rows 384·t … 384·t + 383. What it writes back to each output is, entry by entry, the
    specification's value at the array row the block row came from; the four row blocks tile the 1536 rows, so each
    output array ends as the specification's whole array. -/

namespace Cert.KRun

open Cert.KernelIdeal Cert.KernelIdeal.Gen Idealize.ShloMosaic.ValueIdx Cert.KGeom Cert.KSide
open Idealize.ShloMosaic.Pipeline (Dat)

/-! ## Blocks over a general block index -/

section Blocks

variable (x0 : Vec Ideal S384x1 .i32) (x1 x2 : Vec Ideal S384x512 .f32)
  (tok : (⟨1, ![1536]⟩ : Shape).Idx → BitVec 32) (hh cc : (⟨2, ![1536, 512]⟩ : Shape).Idx → EReal)
  (emb : Vec Ideal S9x512 .f32) (W : Vec Ideal S1024x2048 .f32) (b : Vec Ideal S1x2048 .f32)
  (row : Fin 384 → Fin 1536) (h0 : ∀ p, x0 (ix2 p 0) = tok (ix1 (row p))) (ht : ∀ r, (tok (ix1 r)).toNat < 9)
  (h1 : ∀ p d, x1 (ix2 p d) = hh (ix2 (row p) d)) (h2 : ∀ p q, x2 (ix2 p q) = cc (ix2 (row p) q))

include h0 ht h1 h2

theorem cell_at (y : S384x512.Idx) :
    cellBlk x0 x1 x2 (eTab emb W b) (k0_pay4 W) y = Cert.Cell.cellArr tok hh cc emb W b (ix2 (row (y 0)) (y 1)) := by
  obtain ⟨p, q, rfl⟩ : ∃ (p : Fin 384) (q : Fin 512), y = ix2 p q := ⟨y 0, y 1, eq_ix2 y⟩
  exact cell_blk x0 x1 x2 tok hh cc emb W b p (row p) (h0 p) (ht _) (h1 p) (h2 p) q

theorem hid_at (y : S384x512.Idx) :
    hidBlk x0 x1 x2 (eTab emb W b) (k0_pay4 W) y = Cert.Cell.hidArr tok hh cc emb W b (ix2 (row (y 0)) (y 1)) := by
  obtain ⟨p, q, rfl⟩ : ∃ (p : Fin 384) (q : Fin 512), y = ix2 p q := ⟨y 0, y 1, eq_ix2 y⟩
  exact hid_blk x0 x1 x2 tok hh cc emb W b p (row p) (h0 p) (ht _) (h1 p) (h2 p) q

theorem logit_at (x6 : Vec Ideal S1x512x128 .f32) (x7 : Vec Ideal S1x1x128 .f32)
    (dw : (⟨3, ![9, 512, 128]⟩ : Shape).Idx → EReal) (db : (⟨3, ![9, 1, 128]⟩ : Shape).Idx → EReal)
    (h6 : ∀ (d : Fin 512) (l : Fin 128), x6 (ix3 0 d l) = dw (ix3 2 d l))
    (h7 : ∀ l : Fin 128, x7 (ix3 0 0 l) = db (ix3 2 0 l)) (y : S384x4.Idx) :
    logitBlk x0 x1 x2 (eTab emb W b) (k0_pay4 W) (k0_pay5 x6) x7 y
      = Cert.Cell.logitArr tok hh cc emb W b dw db (ix2 (row (y 0)) (y 1)) := by
  obtain ⟨p, l, rfl⟩ : ∃ (p : Fin 384) (l : Fin 4), y = ix2 p l := ⟨y 0, y 1, eq_ix2 y⟩
  exact logit_blk x0 x1 x2 tok hh cc emb W b p (row p) (h0 p) (ht _) (h1 p) (h2 p) x6 x7 dw db h6 h7 l

end Blocks

/-- Where a block index of output window 10 lands in the array. -/
theorem emb10_at (t : Fin cfg0.N) (y : S384x512.Idx) :
    (((cfg0.win 10).blk t).view.emb y : S1536x512.Idx) = ix2 (gRow t (y 0)) (y 1) :=
  (congrArg (fun z : S384x512.Idx => (((cfg0.win 10).blk t).view.emb z : S1536x512.Idx)) (eq_ix2 y)).trans (emb_10 t (y 0) (y 1))

theorem emb9_at (t : Fin cfg0.N) (y : S384x512.Idx) :
    (((cfg0.win 9).blk t).view.emb y : S1536x512.Idx) = ix2 (gRow t (y 0)) (y 1) :=
  (congrArg (fun z : S384x512.Idx => (((cfg0.win 9).blk t).view.emb z : S1536x512.Idx)) (eq_ix2 y)).trans (emb_9 t (y 0) (y 1))

theorem emb8_at (t : Fin cfg0.N) (y : S384x4.Idx) :
    (((cfg0.win 8).blk t).view.emb y : S1536x4.Idx) = ix2 (gRow t (y 0)) (y 1) :=
  (congrArg (fun z : S384x4.Idx => (((cfg0.win 8).blk t).view.emb z : S1536x4.Idx)) (eq_ix2 y)).trans (emb_8 t (y 0) (y 1))

variable (m : (ℓ : Loc nD τ sig) → Buf (Elt Ideal) ℓ) (ρ : Dev nD → PrngReg)

/-! ## What each point writes back -/

theorem flushed10_eq (c : Dev nD) (hr : ∀ r : Fin 1536, ((m ((c : Thread nD τ).loc main_arg0)) (ix1 r)).toNat < 9) (t : Fin cfg0.N) :
    (dats m 0 c).flushed 10 t = ((cfg0.win 10).blk t).view.read (Elt Ideal) (Cert.Cell.cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [Cert.KFlush.flushed10_pure m c t]
  funext y
  rw [View.read_apply]
  exact (cell_at (iblk m c 0 t) (iblk m c 1 t) (iblk m c 2 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (gRow t)
    (tok_blk m c t) hr (h_blk m c t) (c_blk m c t) y).trans
    (congrArg (Cert.Cell.cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (emb10_at t y).symm)

theorem flushed9_eq (c : Dev nD) (hr : ∀ r : Fin 1536, ((m ((c : Thread nD τ).loc main_arg0)) (ix1 r)).toNat < 9) (t : Fin cfg0.N) :
    (dats m 0 c).flushed 9 t = ((cfg0.win 9).blk t).view.read (Elt Ideal) (Cert.Cell.hidArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [Cert.KFlush.flushed9_pure m c t]
  funext y
  rw [View.read_apply]
  exact (hid_at (iblk m c 0 t) (iblk m c 1 t) (iblk m c 2 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (gRow t)
    (tok_blk m c t) hr (h_blk m c t) (c_blk m c t) y).trans
    (congrArg (Cert.Cell.hidArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (emb9_at t y).symm)

theorem flushed8_eq (c : Dev nD) (hr : ∀ r : Fin 1536, ((m ((c : Thread nD τ).loc main_arg0)) (ix1 r)).toNat < 9) (t : Fin cfg0.N) :
    (dats m 0 c).flushed 8 t = ((cfg0.win 8).blk t).view.read (Elt Ideal) (Cert.Cell.logitArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [Cert.KFlush.flushed8_pure m c t]
  funext y
  rw [View.read_apply]
  exact (logit_at (iblk m c 0 t) (iblk m c 1 t) (iblk m c 2 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (gRow t)
    (tok_blk m c t) hr (h_blk m c t) (c_blk m c t) (Cert.KFlush.dSlab m c) (iblk m c 7 t) (m ((c : Thread nD τ).loc main_arg6)) (m ((c : Thread nD τ).loc main_arg7))
    (Cert.KFlush.dSlab_apply m c) (db_blk m c t) y).trans
    (congrArg (Cert.Cell.logitArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (emb8_at t y).symm)

/-! ## The arrays after the run -/

theorem final10 (c : Dev nD) (hr : ∀ r : Fin 1536, ((m ((c : Thread nD τ).loc main_arg0)) (ix1 r)).toNat < 9) :
    (dats m 0 c).arrAt 10 cfg0.N = Cert.Cell.cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 10 _ (fun t _ => flushed10_eq m c hr t) cover_10

theorem final9 (c : Dev nD) (hr : ∀ r : Fin 1536, ((m ((c : Thread nD τ).loc main_arg0)) (ix1 r)).toNat < 9) :
    (dats m 0 c).arrAt 9 cfg0.N = Cert.Cell.hidArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 9 _ (fun t _ => flushed9_eq m c hr t) cover_9

theorem final8 (c : Dev nD) (hr : ∀ r : Fin 1536, ((m ((c : Thread nD τ).loc main_arg0)) (ix1 r)).toNat < 9) :
    (dats m 0 c).arrAt 8 cfg0.N = Cert.Cell.logitArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 8 _ (fun t _ => flushed8_eq m c hr t) cover_8

/-- The kernel's run: every weakly fair execution ends with the three result arrays at the specification's functions of
    the argument arrays, and the arguments unchanged. -/
theorem run (hr : ∀ (c : Dev nD) (r : Fin 1536), ((m ((c : Thread nD τ).loc main_arg0)) (ix1 r)).toNat < 9) :
    θ_run defs (onTc (τ := τ) (main (F := Ideal))) ⟨m, fun _ => 0, ρ⟩ fun r => ∀ c : Dev nD,
      r.2.mem ((c : Thread nD τ).loc main_v1_0) = Cert.Cell.logitArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v1_1) = Cert.Cell.hidArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v1_2) = Cert.Cell.cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final8 m c (hr c)), (h c).2.1.trans (final9 m c (hr c)),
      (h c).2.2.1.trans (final10 m c (hr c)), (h c).2.2.2⟩)
    (Cert.KernelIdeal.Value.run_blocks m ρ)

end Cert.KRun

end
-- ==== Proof.RefOk.lean ====
/-
  The decoder head the reference selects. The prefetched table is written by the program itself: the constant 2,
  reshaped to a one-word vector. So for every launch memory the word the two decoder windows' index maps read is 2: they
  take head 2 of the 9 stacked heads, block (2, 0, 0), and a block of one head at position 2 lies inside the 9 heads.
  Hence the side condition of the generated frame holds with no precondition at all.
-/
import proofs.«164750_g2000601216510222_pallasbulk_1026_17_alg».proof.Proof.Gen.ReferenceIdeal.Frame

set_option maxRecDepth 16384

noncomputable section

namespace Cert.RefSide

open Cert.ReferenceIdeal Cert.ReferenceIdeal.Gen
open Idealize.ShloMosaic Idealize.ShloMosaic.TcCoe Idealize.SL.Sem

variable {F : FTy → Type} [FloatOps F]
variable (m : (ℓ : Loc nD τ sig) → Buf (Elt F) ℓ)

/-- The table holds the word 2 at its one index (the constant 2, reshaped, converted to itself). -/
theorem tbl_eq : tbl m 0 = (fun _ => 2#32 : S1.Idx → BitVec 32) := by
  unfold Gen.tbl
  show V m 0 main_call0_v3 = _
  dsimp only [Gen.V, Gen.V0]
  simp only [Gen.hostOps0, Gen.hostOps0_1, List.flatten_cons, List.flatten_nil, List.append_nil, List.cons_append, List.nil_append]
  after_results
  rfl

/-- The decoder weights' index map names block (2, 0, 0). -/
theorem head_w (i : grid0.Coords) : cc0_transform_4 inb_S1_S1_0 numel1_S1 (tbl m) i = ![2, 0, 0] := by
  unfold cc0_transform_4
  simp only [Pipeline.Prefetch.Contents.at, tbl_eq m]
  rfl

/-- The decoder bias's index map names block (2, 0, 0). -/
theorem head_b (i : grid0.Coords) : cc0_transform_5 inb_S1_S1_0 numel1_S1 (tbl m) i = ![2, 0, 0] := by
  unfold cc0_transform_5
  simp only [Pipeline.Prefetch.Contents.at, tbl_eq m]
  rfl

/-- THE SIDE CONDITION of the generated frame: head 2 is one of the 9 heads, for both decoder windows. -/
theorem ok : Ok m := by
  refine ⟨fun i => ⟨fun a => ?_, Or.inl rfl⟩, fun i => ⟨fun a => ?_, Or.inl rfl⟩⟩
  · rw [head_w m i]; fin_cases a <;> decide
  · rw [head_b m i]; fin_cases a <;> decide

end Cert.RefSide

end
-- ==== Proof.LibRowGather.lean ====
/-
  A gather of whole rows of a matrix, read by coordinates, for any extents.

  An `[n, c]` matrix is gathered at `e` start indices laid out as a column `[e, 1]`: every start index names a row,
  the whole row (a `1 × c` slice) is taken, and the result is the `[e, c]` matrix of the taken rows. In gather's
  dimension numbers: the result's axis 1 is the offset axis, the operand's axis 0 is collapsed and is the one axis the
  start index addresses, there are no batching axes, the index vector lies along axis 1 of the start indices, and the
  slice sizes are `[1, c]`. For ANY extents `n`, `e`, `c` (with `n` positive) and any index width, entry `(p, q)` of
  the result is entry `(r, q)` of the operand, where `r` is start index `p` read as a signed integer and clamped into
  `[0, n − 1]` (`rowAt`, `gather_row_apply`). A program's printed gather record with these lists is `rowDims n e c _`
  by `rfl`.
-/
import Idealize.ShloMosaic.PureOps.ShapeOps
import Idealize.ShloMosaic.PureOps.Dims
import Idealize.ShloMosaic.Lib.ValueIdx

namespace Cert.RowGather

open Idealize.ShloMosaic Idealize.ShloMosaic.ValueIdx

variable {α : Type}

/-- The dimension numbers of a gather of whole rows: operand `[n, c]`, start indices `[e, 1]`, result `[e, c]`.
    Their side conditions `wf` are decided on a program's literal extents. -/
abbrev rowDims (n e c : Nat)
    (wf : GatherDims.WF ⟨2, ![n, c]⟩ ⟨2, ![e, 1]⟩ ⟨2, ![e, c]⟩ [1] [0] [] [0] [] 1 ![1, c]) :
    GatherDims ⟨2, ![n, c]⟩ ⟨2, ![e, 1]⟩ ⟨2, ![e, c]⟩ where
  offsetDims := [1]
  collapsedSliceDims := [0]
  operandBatchingDims := []
  startIndicesBatchingDims := []
  startIndexMap := [0]
  indexVectorDim := 1
  sliceSizes := ![1, c]
  wf := wf

/-- The row that start index `p` names: the index read as a signed integer, clamped into `[0, n − 1]`. -/
def rowAt {n e w : Nat} (hn : 0 < n) (idx : IVec ⟨2, ![e, 1]⟩ w) (p : Fin e) : Fin n :=
  ⟨min (idx (ix2 p 0)).toInt.toNat (n - 1), by omega⟩

/-- THE ROW GATHER READ AT `(p, q)`: the operand's entry in column `q` of the row that start index `p` names. -/
theorem gather_row_apply {n e c w : Nat} (hn : 0 < n)
    (wf : GatherDims.WF ⟨2, ![n, c]⟩ ⟨2, ![e, 1]⟩ ⟨2, ![e, c]⟩ [1] [0] [] [0] [] 1 ![1, c])
    (x : (⟨2, ![n, c]⟩ : Shape).Idx → α) (idx : IVec ⟨2, ![e, 1]⟩ w) (p : Fin e) (q : Fin c) :
    Host.gather (rowDims n e c wf) x idx (ix2 p q) = x (ix2 (rowAt hn idx p) q) := by
  unfold Host.gather
  congr 1
  funext a
  refine Fin.ext ?_
  match a with
  | ⟨0, _⟩ =>
    show (rowDims n e c wf).start (ix2 p q) idx 0 + (rowDims n e c wf).batchCoord (ix2 p q) 0
      + (rowDims n e c wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims n e c wf).startIndexMap from List.mem_singleton.mpr rfl)]
    have hsi : (rowDims n e c wf).siIdx (ix2 p q) ⟨List.idxOf (0 : Fin 2) (rowDims n e c wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    show (rowDims n e c wf).start (ix2 p q) idx 1 + (rowDims n e c wf).batchCoord (ix2 p q) 1
      + (rowDims n e c wf).offCoord (ix2 p q) 1 = q.val
    have hk : (1 : Fin 2) ∈ (rowDims n e c wf).sKept :=
      (GatherDims.mem_sKept _ _).mpr ⟨fun h => absurd (List.mem_singleton.mp h) (show ¬ (1 : Fin 2) = 0 by decide), List.not_mem_nil⟩
    rw [GatherDims.batchCoord_eq_zero _ _ _ List.not_mem_nil]
    unfold GatherDims.start
    rw [dif_neg (show (1 : Fin 2) ∉ (rowDims n e c wf).startIndexMap from
      fun h => absurd (List.mem_singleton.mp h) (show ¬ (1 : Fin 2) = 0 by decide))]
    unfold GatherDims.offCoord
    rw [dif_pos hk]
    simp only [Nat.add_zero, Nat.zero_add]
    rfl

end Cert.RowGather
-- ==== Proof.LibSideBySide.lean ====
/-
  Two arrays laid side by side, and a vector seen as a one-row matrix, read by coordinates.

  Concatenating two arrays along an axis keeps every other coordinate; along the joined axis a position below the first
  piece's extent reads the first piece at that position, and a position at or past it reads the second piece at the
  position less that extent. Stated here for two matrices with the same number of rows joined along the columns, and for
  two vectors, for any extents. The last lemma reads a vector reshaped to a matrix of one row: entry (0, q) is entry q,
  both having row-major position q.
-/
import Idealize.ShloMosaic.Lib.Pipeline.Value
import Idealize.ShloMosaic.Lib.ValueIdx

namespace Cert.LibSideBySide

open Idealize.ShloMosaic Idealize.ShloMosaic.ValueIdx

variable {α : Type}

/-- Two matrices joined along the columns, at a column inside the first: the first matrix at that column. -/
theorem cols_left {a b₁ b₂ n : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1) (k : Fin a) (q : Fin b₁) (col : Fin n)
    (hc : col.val = q.val) :
    concatenate ⟨2, ![a, n]⟩ 1 [⟨⟨2, ![a, b₁]⟩, x₁⟩, ⟨⟨2, ![a, b₂]⟩, x₂⟩] h (ix2 k col) = x₁ (ix2 k q) :=
  concatenate_pair_apply_left (1 : Fin 2) x₁ x₂ h (ix2 k col) rfl (ix2 k q) fun b => by
    match b with
    | ⟨0, _⟩ => rfl
    | ⟨1, _⟩ => exact hc.symm

/-- Two matrices joined along the columns, at a column past the first: the second matrix at the column less the first
    matrix's width. -/
theorem cols_right {a b₁ b₂ n : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1) (k : Fin a) (q : Fin b₂) (col : Fin n)
    (hc : col.val = b₁ + q.val) :
    concatenate ⟨2, ![a, n]⟩ 1 [⟨⟨2, ![a, b₁]⟩, x₁⟩, ⟨⟨2, ![a, b₂]⟩, x₂⟩] h (ix2 k col) = x₂ (ix2 k q) :=
  concatenate_pair_apply_right (1 : Fin 2) x₁ x₂ h (ix2 k col) rfl rfl (ix2 k q)
    (fun b hb => by
      match b, hb with
      | ⟨0, _⟩, _ => rfl
      | ⟨1, _⟩, hb => exact absurd rfl hb)
    (by show q.val + b₁ = col.val; omega)

/-- Two vectors joined, at a position inside the first: the first vector at that position. -/
theorem vec_left {b₁ b₂ n : ℕ} (x₁ : (⟨1, ![b₁]⟩ : Shape).Idx → α) (x₂ : (⟨1, ![b₂]⟩ : Shape).Idx → α)
    (h : Shape.Concatenates [⟨1, ![b₁]⟩, ⟨1, ![b₂]⟩] ⟨1, ![n]⟩ 0) (q : Fin b₁) (pos : Fin n) (hc : pos.val = q.val) :
    concatenate ⟨1, ![n]⟩ 0 [⟨⟨1, ![b₁]⟩, x₁⟩, ⟨⟨1, ![b₂]⟩, x₂⟩] h (ix1 pos) = x₁ (ix1 q) :=
  concatenate_pair_apply_left (0 : Fin 1) x₁ x₂ h (ix1 pos) rfl (ix1 q) fun b => by
    match b with
    | ⟨0, _⟩ => exact hc.symm

/-- Two vectors joined, at a position past the first: the second vector at the position less the first's length. -/
theorem vec_right {b₁ b₂ n : ℕ} (x₁ : (⟨1, ![b₁]⟩ : Shape).Idx → α) (x₂ : (⟨1, ![b₂]⟩ : Shape).Idx → α)
    (h : Shape.Concatenates [⟨1, ![b₁]⟩, ⟨1, ![b₂]⟩] ⟨1, ![n]⟩ 0) (q : Fin b₂) (pos : Fin n) (hc : pos.val = b₁ + q.val) :
    concatenate ⟨1, ![n]⟩ 0 [⟨⟨1, ![b₁]⟩, x₁⟩, ⟨⟨1, ![b₂]⟩, x₂⟩] h (ix1 pos) = x₂ (ix1 q) :=
  concatenate_pair_apply_right (0 : Fin 1) x₁ x₂ h (ix1 pos) rfl rfl (ix1 q)
    (fun b hb => by
      match b, hb with
      | ⟨0, _⟩, hb => exact absurd rfl hb)
    (by show q.val + b₁ = pos.val; omega)

/-- A vector reshaped to a matrix of one row reads, at (0, q), the vector at q. -/
theorem row_apply {n : ℕ} (x : (⟨1, ![n]⟩ : Shape).Idx → α) (h : (⟨1, ![n]⟩ : Shape).ShapeCasts ⟨2, ![1, n]⟩) (q : Fin n) :
    shapeCast ⟨2, ![1, n]⟩ x h (ix2 (0 : Fin 1) q) = x (ix1 q) :=
  shapeCast_apply x h _ _ (by
    rw [Shape.rowMajor_val_one, Shape.rowMajor_val_two]
    show q.val = (0 : Fin 1).val * n + q.val
    simp)

end Cert.LibSideBySide
-- ==== Proof.RefGather.lean ====
/-
  The row block the host prepares for the reference kernel, entry by entry.

  The host reads row r's token id w as a signed word, moves it up by 9 if it is negative, gathers the embedding row it then
  names (clamped into the nine rows), and replaces the whole row by NaN unless the moved id lies in [0, 8]; beside the 512
  embedding entries it lays the 512 entries of the hidden state. For an id that is nonnegative and below 9 as an unsigned
  word — then it is the same number as a signed one — nothing is moved, the check passes, the clamp does nothing, and the
  row named is the id itself. So the left half of row r is the embedding row of r's token and the right half is h(r, ·).
-/
import proofs.«164750_g2000601216510222_pallasbulk_1026_17_alg».proof.Proof.Spec
import proofs.«164750_g2000601216510222_pallasbulk_1026_17_alg».proof.Proof.LibRowGather
import proofs.«164750_g2000601216510222_pallasbulk_1026_17_alg».proof.Proof.LibSideBySide
import proofs.«164750_g2000601216510222_pallasbulk_1026_17_alg».proof.Proof.Gen.ReferenceIdeal
import Idealize.ShloMosaic.PureOps.Reduce
import Idealize.ShloMosaic.Lib.Pipeline.Value

noncomputable section

namespace Cert.RefSide

open Cert.ReferenceIdeal Cert.ReferenceIdeal.Gen Cert.Cell
open Idealize.ShloMosaic Idealize.ShloMosaic.ValueIdx

/-- A token word as the host uses it: moved up by 9 if negative as a signed number. -/
def wrap (w : BitVec 32) : BitVec 32 := Scalar.select (IntOp.cmpi .slt w 0#32) (IntOp.addi w 9#32) w

/-- The tokens as the host lays them out for the gather: a negative token moved up by 9, then written as a column. -/
def tokCol (tok : IVec S1536 32) : IVec S1536x1 32 :=
  broadcastInDim S1536x1 ![0] bcast_S1536_S1536x1_0
    (select (cmpi .slt tok (broadcastInDim S1536 ![] bcast_S_S1536 (constantI S_ 32 0#32)))
      (addi tok (broadcastInDim S1536 ![] bcast_S_S1536 (constantI S_ 32 9#32))) tok)

/-- The row block the host hands the kernel: the tokens wrapped once if negative, used if they then lie in [0, 8] (else the
    row is NaN), the embedding rows they name, and beside them the hidden state. -/
def hostXh (tok : IVec S1536 32) (emb : Vec Ideal S9x512 .f32) (h : Vec Ideal S1536x512 .f32) : Vec Ideal S1536x1024 .f32 :=
  concatenate S1536x1024 1
    [⟨S1536x512,
        select
          (broadcastInDim S1536x512 ![0] bcast_S1536_S1536x512_0
            (Host.reduce IntOp.andi
              (andi
                (cmpi .sge (tokCol tok) (broadcastInDim S1536x1 ![] bcast_S_S1536x1 (constantI S_ 32 0#32)))
                (cmpi .sle (tokCol tok)
                  (broadcastInDim S1536x1 ![0, 1] bcast_S1x1_S1536x1_0_1
                    (broadcastInDim S1x1 ![1] bcast_S1_S1x1_1 (constantI S1 32 8#32)))))
              (constantI S_ 1 1#1) reducesTo_S1536x1_S1536_d1 h_S_))
          (Host.gather gather_S9x512_S1536x1_S1536x512_1_0_n_n_0_1_1512 emb (tokCol tok))
          (broadcastInDim S1536x512 ![] bcast_S_S1536x512 (constant (F := Ideal) S_ .f32 0x7FC00000#32))⟩,
      ⟨S1536x512, h⟩]
    concatenates_S1536x512_S1536x512_S1536x1024_d1

/-- For the nine ids 0 … 8: nothing is moved, both range checks pass, and the signed reading is the id. -/
theorem word_facts : ∀ n : Fin 9,
    wrap (BitVec.ofNat 32 n.val) = BitVec.ofNat 32 n.val
      ∧ IntOp.andi (IntOp.cmpi .sge (BitVec.ofNat 32 n.val) 0#32) (IntOp.cmpi .sle (BitVec.ofNat 32 n.val) 8#32) = 1#1
      ∧ (BitVec.ofNat 32 n.val).toInt.toNat = n.val := by decide

/-- The same for a word below 9. -/
theorem word_lt (w : BitVec 32) (hw : w.toNat < 9) :
    wrap w = w ∧ IntOp.andi (IntOp.cmpi .sge w 0#32) (IntOp.cmpi .sle w 8#32) = 1#1 ∧ w.toInt.toNat = w.toNat := by
  have e : BitVec.ofNat 32 w.toNat = w :=
    BitVec.eq_of_toNat_eq (by rw [BitVec.toNat_ofNat]; exact Nat.mod_eq_of_lt w.isLt)
  have h := word_facts ⟨w.toNat, hw⟩
  simp only [e] at h
  exact h

/-- The token column at a position is the wrapped token of that row. -/
theorem tokCol_apply (tok : IVec S1536 32) (i : S1536x1.Idx) : tokCol tok i = wrap (tok (ix1 (i 0))) :=
  (broadcastInDim_apply _ _ _ i (ix1 (i 0)) fun a => by
    match a with
    | ⟨0, _⟩ => rfl).trans rfl

/-- A left fold of `and` over words that are all 1, started at 1, is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi 1#1 1#1 = 1#1 from by decide]
    exact foldl_andi_ones f l fun n hn => h n (List.mem_cons_of_mem _ hn)

section
variable (tok : IVec S1536 32) (emb : Vec Ideal S9x512 .f32) (h : Vec Ideal S1536x512 .f32)

/-- With every token below 9 the range check passes in every row. -/
theorem mask_one (hr : ∀ r : Fin 1536, (tok (ix1 r)).toNat < 9) (j : S1536.Idx) :
    Host.reduce IntOp.andi
      (andi
        (cmpi .sge (tokCol tok) (broadcastInDim S1536x1 ![] bcast_S_S1536x1 (constantI S_ 32 0#32)))
        (cmpi .sle (tokCol tok)
          (broadcastInDim S1536x1 ![0, 1] bcast_S1x1_S1536x1_0_1
            (broadcastInDim S1x1 ![1] bcast_S1_S1x1_1 (constantI S1 32 8#32)))))
      (constantI S_ 1 1#1) reducesTo_S1536x1_S1536_d1 h_S_ j = 1#1 := by
  rw [Host.reduce_eq_foldl]
  refine foldl_andi_ones _ _ fun i _ => ?_
  show IntOp.andi (IntOp.cmpi .sge (tokCol tok i) 0#32) (IntOp.cmpi .sle (tokCol tok i) 8#32) = 1#1
  rw [tokCol_apply, (word_lt _ (hr (i 0))).1]
  exact (word_lt _ (hr (i 0))).2.1

/-- The left half of row r is the embedding row of r's token. -/
theorem xh_left (hr : ∀ r : Fin 1536, (tok (ix1 r)).toNat < 9) (r : Fin 1536) (d : Fin 512) :
    hostXh tok emb h (ix2 r (wrow 0 (by omega) d)) = emb (ix2 (rowOf (tok (ix1 r))) d) := by
  unfold hostXh
  refine (Cert.LibSideBySide.cols_left _ _ _ r d (wrow 0 (by omega) d) (Nat.zero_add _)).trans ?_
  rw [select_apply]
  have hm : broadcastInDim S1536x512 ![0] bcast_S1536_S1536x512_0
      (Host.reduce IntOp.andi
        (andi
          (cmpi .sge (tokCol tok) (broadcastInDim S1536x1 ![] bcast_S_S1536x1 (constantI S_ 32 0#32)))
          (cmpi .sle (tokCol tok)
            (broadcastInDim S1536x1 ![0, 1] bcast_S1x1_S1536x1_0_1
              (broadcastInDim S1x1 ![1] bcast_S1_S1x1_1 (constantI S1 32 8#32)))))
        (constantI S_ 1 1#1) reducesTo_S1536x1_S1536_d1 h_S_) (ix2 r d) = 1#1 := mask_one tok hr _
  rw [hm, select_one]
  refine (Cert.RowGather.gather_row_apply (n := 9) (e := 1536) (c := 512) (by decide)
    gather_S9x512_S1536x1_S1536x512_1_0_n_n_0_1_1512_wf emb (tokCol tok) r d).trans ?_
  refine congrArg emb (congrArg (fun k => ix2 k d) (Fin.ext ?_))
  show min (tokCol tok (ix2 r 0)).toInt.toNat (9 - 1) = (tok (ix1 r)).toNat % 9
  rw [tokCol_apply, (word_lt _ (hr r)).1, (word_lt _ (hr r)).2.2, Nat.mod_eq_of_lt (hr r)]
  have := hr r
  omega

/-- The right half of row r is h(r, ·). -/
theorem xh_right (r : Fin 1536) (d : Fin 512) :
    hostXh tok emb h (ix2 r (wrow 512 (by omega) d)) = h (ix2 r d) := by
  unfold hostXh
  exact Cert.LibSideBySide.cols_right _ _ _ r d (wrow 512 (by omega) d) rfl

end

end Cert.RefSide

end
-- ==== Proof.RefHost.lean ====
/-
  What the reference's kernel finds in its first window's array: the row block the host prepared.

  Before the kernel is launched the host computes, from the token ids, the embedding table and the hidden state, the
  1536 × 1024 array [x | h] (the host prefix's operations composed, `hostXh`). Under the precondition's range for the ids
  its left half is the embedding row of each row's token and its right half the hidden state.
-/
import proofs.«164750_g2000601216510222_pallasbulk_1026_17_alg».proof.Proof.RefGather
import proofs.«164750_g2000601216510222_pallasbulk_1026_17_alg».proof.Proof.Gen.ReferenceIdeal.Frame

set_option maxRecDepth 16384

noncomputable section

namespace Cert.RefSide

open Cert.ReferenceIdeal Cert.ReferenceIdeal.Gen Cert.Cell
open Idealize.ShloMosaic Idealize.ShloMosaic.TcCoe Idealize.ShloMosaic.ValueIdx Idealize.SL.Sem

variable (m : (ℓ : Loc nD τ sig) → Buf (Elt Ideal) ℓ)

set_option maxHeartbeats 4000000 in
/-- The array the first window stages is the host's row block of the launch arguments. -/
theorem xh_eq (c : Dev nD) : (V m c main_call0_v1 : S1536x1024.Idx → EReal)
    = hostXh (m ((c : Thread nD τ).loc main_arg0)) (m ((c : Thread nD τ).loc main_arg3)) (m ((c : Thread nD τ).loc main_arg1)) := by
  dsimp only [Gen.V, Gen.V0]
  rfl

/-- The left half of the staged row block: row r holds the embedding row of r's token, when the tokens are below 9. -/
theorem xhV_left (c : Dev nD) (hr : ∀ r : Fin 1536, (m ((c : Thread nD τ).loc main_arg0) (ix1 r)).toNat < 9) :
    ∀ (r : Fin 1536) (d : Fin 512), V m c main_call0_v1 (ix2 r (Cert.Cell.wrow 0 (by omega) d))
      = m ((c : Thread nD τ).loc main_arg3) (ix2 (Cert.Cell.rowOf (m ((c : Thread nD τ).loc main_arg0) (ix1 r))) d) :=
  fun r d => (congrFun (xh_eq m c) _).trans
    (xh_left (m ((c : Thread nD τ).loc main_arg0)) (m ((c : Thread nD τ).loc main_arg3)) (m ((c : Thread nD τ).loc main_arg1)) hr r d)

/-- The right half of the staged row block is the hidden state. -/
theorem xhV_right (c : Dev nD) :
    ∀ (r : Fin 1536) (d : Fin 512), V m c main_call0_v1 (ix2 r (Cert.Cell.wrow 512 (by omega) d))
      = m ((c : Thread nD τ).loc main_arg1) (ix2 r d) :=
  fun r d => (congrFun (xh_eq m c) _).trans
    (xh_right (m ((c : Thread nD τ).loc main_arg0)) (m ((c : Thread nD τ).loc main_arg3)) (m ((c : Thread nD τ).loc main_arg1)) r d)

end Cert.RefSide

end
-- ==== Proof.RefCell.lean ====
/-
  The reference kernel's body, entry by entry, on the extended reals.

  The body takes the row block xh = [x | h] (1536 × 1024), the cell state c, the weights W (1024 × 2048), the bias b and one
  decoder head (weights 512 × 128, bias 1 × 128), and forms
      pre(r, col) = Σ_{k<1024} xh(r,k) · W(k,col) + b(0,col),
  slices it into the four gates, and squashes the decoder's output. When the left half of xh is the embedding row of
  row r's token and the right half is h, the sum over the 1024 weight rows splits into its first and last 512 rows and
      pre(r, col) = (Σ_d emb · W(d, col) + Σ_d h · W(512+d, col)) + b = (Σ_d emb · W(d, col) + b) + Σ_d h · W(512+d, col),
  which is the specification's gate: only commutativity and associativity of + on the extended reals are used, so no
  entry needs to be finite. Everything after the gates is pointwise and is the specification's text.
-/
import proofs.«164750_g2000601216510222_pallasbulk_1026_17_alg».proof.Proof.Spec
import proofs.«164750_g2000601216510222_pallasbulk_1026_17_alg».proof.Proof.LibPlainDot
import proofs.«164750_g2000601216510222_pallasbulk_1026_17_alg».proof.Proof.Gen.ReferenceIdeal.Skeleton
import Idealize.ShloMosaic.Lib.Pipeline.Value
import Idealize.ShloMosaic.Lib.ValueLayout

noncomputable section

open scoped BigOperators

namespace Cert.RefSide

open Cert.ReferenceIdeal Cert.ReferenceIdeal.Gen Cert.Cell
open Idealize.ShloMosaic Idealize.ShloMosaic.ValueIdx

/-- A sum over the 1024 weight rows is the sum over the first 512 plus the sum over the last 512. -/
theorem sum_rows (f : Fin 1024 → EReal) :
    ∑ k : Fin 1024, f k = ∑ d : Fin 512, f (wrow 0 (by omega) d) + ∑ d : Fin 512, f (wrow 512 (by omega) d) :=
  (Fin.sum_univ_add (a := 512) (b := 512) f).trans
    (congrArg₂ (· + ·)
      (Finset.sum_congr rfl fun d _ => congrArg f (Fin.ext (Nat.zero_add _).symm))
      (Finset.sum_congr rfl fun d _ => congrArg f (Fin.ext rfl)))

section
variable (tok : (⟨1, ![1536]⟩ : Shape).Idx → BitVec 32)
  (h c : (⟨2, ![1536, 512]⟩ : Shape).Idx → EReal) (emb : (⟨2, ![9, 512]⟩ : Shape).Idx → EReal)
  (W : (⟨2, ![1024, 2048]⟩ : Shape).Idx → EReal) (b : (⟨2, ![1, 2048]⟩ : Shape).Idx → EReal)
  (dw : (⟨3, ![9, 512, 128]⟩ : Shape).Idx → EReal) (db : (⟨3, ![9, 1, 128]⟩ : Shape).Idx → EReal)
  (x0 : Vec Ideal S1536x1024 .f32) (x21 : Vec Ideal S1x512x128 .f32) (x24 : Vec Ideal S1x1x128 .f32)

/-- The pre-activations at (r, col): the row of xh against the column of W, plus the bias. -/
theorem pay1_apply (r : Fin 1536) (col : Fin 2048) :
    k0_pay1 (F := Ideal) x0 W b (ix2 r col) = (∑ k : Fin 1024, x0 (ix2 r k) * W (ix2 k col)) + b (ix2 0 col) := by
  unfold k0_pay1
  refine congrArg₂ (· + ·) ?_ ?_
  · refine (Cert.LibPlainDot.matmul_zero_apply 1536 1024 2048 none
      (shapeCast S1536x1024 x0 shapeCasts_S1536x1024_S1536x1024) W (ix2 r col)).trans ?_
    rw [shapeCast_self]
  · exact broadcastTo_apply b _ (ix2 r col) (ix2 0 col) fun a => by
      match a with
      | ⟨0, _⟩ => rfl
      | ⟨1, _⟩ => rfl

/-- With xh = [embedding row of the token | h], the pre-activation is the specification's gate. -/
theorem pay1_gate
    (hL : ∀ (r : Fin 1536) (d : Fin 512), x0 (ix2 r (wrow 0 (by omega) d)) = emb (ix2 (rowOf (tok (ix1 r))) d))
    (hR : ∀ (r : Fin 1536) (d : Fin 512), x0 (ix2 r (wrow 512 (by omega) d)) = h (ix2 r d))
    (r : Fin 1536) (col : Fin 2048) :
    k0_pay1 (F := Ideal) x0 W b (ix2 r col) = gate tok h emb W b r col := by
  rw [pay1_apply, sum_rows]
  simp only [hL, hR]
  unfold gate tokPart hidPart
  exact add_right_comm _ _ _

/-- The gate that starts at column `off`: the slice of the pre-activations at (r, q) is the gate at column off + q. -/
theorem slice_gate
    (hL : ∀ (r : Fin 1536) (d : Fin 512), x0 (ix2 r (wrow 0 (by omega) d)) = emb (ix2 (rowOf (tok (ix1 r))) d))
    (hR : ∀ (r : Fin 1536) (d : Fin 512), x0 (ix2 r (wrow 512 (by omega) d)) = h (ix2 r d))
    (off : Nat) (hoff : off + 512 ≤ 2048) (hs : S1536x2048.Slices ![0, off] S1536x512) (r : Fin 1536) (q : Fin 512) :
    extractStridedSlice S1536x512 ![0, off] (k0_pay1 (F := Ideal) x0 W b) hs (ix2 r q)
      = gate tok h emb W b r (gcol off hoff q) :=
  (extractStridedSlice_apply _ _ hs (ix2 r q) (ix2 r (gcol off hoff q)) fun a => by
      match a with
      | ⟨0, _⟩ => exact (Nat.zero_add _).symm
      | ⟨1, _⟩ => rfl).trans
    (pay1_gate tok h emb W b x0 hL hR r _)

/-- The new cell state at (r, q). -/
theorem pay2_cell
    (hL : ∀ (r : Fin 1536) (d : Fin 512), x0 (ix2 r (wrow 0 (by omega) d)) = emb (ix2 (rowOf (tok (ix1 r))) d))
    (hR : ∀ (r : Fin 1536) (d : Fin 512), x0 (ix2 r (wrow 512 (by omega) d)) = h (ix2 r d))
    (r : Fin 1536) (q : Fin 512) :
    k0_pay2 (F := Ideal) x0 c W b (ix2 r q) = cell tok h c emb W b r q := by
  unfold k0_pay2 cell
  exact congrArg₂ (· + ·)
    (congrArg₂ (· * ·) (congrArg Ideal.logistic (slice_gate tok h emb W b x0 hL hR 512 (by omega) _ r q)) rfl)
    (congrArg₂ (· * ·) (congrArg Ideal.logistic (slice_gate tok h emb W b x0 hL hR 0 (by omega) _ r q))
      (congrArg Ideal.tanh (slice_gate tok h emb W b x0 hL hR 1024 (by omega) _ r q)))

/-- The new hidden state at (r, q). -/
theorem pay3_hid
    (hL : ∀ (r : Fin 1536) (d : Fin 512), x0 (ix2 r (wrow 0 (by omega) d)) = emb (ix2 (rowOf (tok (ix1 r))) d))
    (hR : ∀ (r : Fin 1536) (d : Fin 512), x0 (ix2 r (wrow 512 (by omega) d)) = h (ix2 r d))
    (r : Fin 1536) (q : Fin 512) :
    k0_pay3 (F := Ideal) x0 c W b (ix2 r q) = hid tok h c emb W b r q := by
  unfold k0_pay3 hid
  exact congrArg₂ (· * ·)
    (congrArg Ideal.logistic (slice_gate tok h emb W b x0 hL hR 1536 (by omega) _ r q))
    (congrArg Ideal.tanh (pay2_cell tok h c emb W b x0 hL hR r q))

/-- The squashed decoder output at (r, l), for a head block that is head 2 of the stacked decoder. -/
theorem pay4_logit
    (hL : ∀ (r : Fin 1536) (d : Fin 512), x0 (ix2 r (wrow 0 (by omega) d)) = emb (ix2 (rowOf (tok (ix1 r))) d))
    (hR : ∀ (r : Fin 1536) (d : Fin 512), x0 (ix2 r (wrow 512 (by omega) d)) = h (ix2 r d))
    (hW : ∀ (d : Fin 512) (l : Fin 128), x21 (ix3 0 d l) = dw (ix3 2 d l))
    (hB : ∀ l : Fin 128, x24 (ix3 0 0 l) = db (ix3 2 0 l))
    (r : Fin 1536) (l : Fin 128) :
    k0_pay4 (F := Ideal) x0 c W b x21 x24 (ix2 r l) = squash (dec tok h c emb W b dw db r l) := by
  unfold k0_pay4 squash dec
  refine congrArg (fun z => Ideal.ofBits .f32 0x40200000#32 * Ideal.tanh (z * Ideal.ofBits .f32 0x3E4CCCCD#32)) ?_
  refine congrArg₂ (· + ·) ?_ ?_
  · refine (Cert.LibPlainDot.matmul_zero_apply 1536 512 128 none (k0_pay3 (F := Ideal) x0 c W b)
      (shapeCast S512x128 x21 shapeCasts_S1x512x128_S512x128) (ix2 r l)).trans ?_
    exact Finset.sum_congr rfl fun d _ =>
      congrArg₂ (· * ·) (pay3_hid tok h c emb W b x0 hL hR r d) ((shapeCast_1ab_ab_apply x21 _ d l).trans (hW d l))
  · refine (broadcastTo_apply _ _ (ix2 r l) (ix2 0 l) fun a => ?_).trans
      ((shapeCast_1ab_ab_apply x24 _ 0 l).trans (hB l))
    match a with
    | ⟨0, _⟩ => rfl
    | ⟨1, _⟩ => rfl

end

end Cert.RefSide

end
-- ==== Proof.RefVal.lean ====
/-
  The reference kernel's three results as whole arrays, and the host's final slice.

  With the row block the host prepared in the first window, the cell state, weights and bias in the next three, and head 2
  of the stacked decoder in the last two, the body's three pure terms are, as whole arrays, the specification's cell state,
  hidden state, and the squashed decoder output on all 128 lanes. The host then keeps lanes 0 … 3 of the latter.
-/
import proofs.«164750_g2000601216510222_pallasbulk_1026_17_alg».proof.Proof.RefCell
import proofs.«164750_g2000601216510222_pallasbulk_1026_17_alg».proof.Proof.RefGather

noncomputable section

namespace Cert.RefSide

open Cert.ReferenceIdeal Cert.ReferenceIdeal.Gen Cert.Cell
open Idealize.ShloMosaic Idealize.ShloMosaic.ValueIdx

section
variable (tok : (⟨1, ![1536]⟩ : Shape).Idx → BitVec 32)
  (h c : (⟨2, ![1536, 512]⟩ : Shape).Idx → EReal) (emb : (⟨2, ![9, 512]⟩ : Shape).Idx → EReal)
  (W : (⟨2, ![1024, 2048]⟩ : Shape).Idx → EReal) (b : (⟨2, ![1, 2048]⟩ : Shape).Idx → EReal)
  (dw : (⟨3, ![9, 512, 128]⟩ : Shape).Idx → EReal) (db : (⟨3, ![9, 1, 128]⟩ : Shape).Idx → EReal)

/-- The squashed decoder output on all 128 lanes. -/
def logitPad : (⟨2, ![1536, 128]⟩ : Shape).Idx → EReal :=
  fun j => squash (dec tok h c emb W b dw db (j 0) (j 1))

/-- The cell state, whole. -/
theorem val_cell (hr : ∀ r : Fin 1536, (tok (ix1 r)).toNat < 9) (x0 : Vec Ideal S1536x1024 .f32)
    (hx0 : x0 = hostXh tok emb h) : k0_pay2 (F := Ideal) x0 c W b = cellArr tok h c emb W b := by
  subst hx0
  funext j
  obtain ⟨r, q, rfl⟩ : ∃ (r : Fin 1536) (q : Fin 512), j = ix2 r q := ⟨j 0, j 1, eq_ix2 j⟩
  exact pay2_cell tok h c emb W b (hostXh tok emb h) (xh_left tok emb h hr) (xh_right tok emb h) r q

/-- The hidden state, whole. -/
theorem val_hid (hr : ∀ r : Fin 1536, (tok (ix1 r)).toNat < 9) (x0 : Vec Ideal S1536x1024 .f32)
    (hx0 : x0 = hostXh tok emb h) : k0_pay3 (F := Ideal) x0 c W b = hidArr tok h c emb W b := by
  subst hx0
  funext j
  obtain ⟨r, q, rfl⟩ : ∃ (r : Fin 1536) (q : Fin 512), j = ix2 r q := ⟨j 0, j 1, eq_ix2 j⟩
  exact pay3_hid tok h c emb W b (hostXh tok emb h) (xh_left tok emb h hr) (xh_right tok emb h) r q

/-- The padded logits, whole, for decoder blocks that are head 2. -/
theorem val_logit (hr : ∀ r : Fin 1536, (tok (ix1 r)).toNat < 9) (x0 : Vec Ideal S1536x1024 .f32)
    (hx0 : x0 = hostXh tok emb h) (x21 : Vec Ideal S1x512x128 .f32) (x24 : Vec Ideal S1x1x128 .f32)
    (hW : ∀ (d : Fin 512) (l : Fin 128), x21 (ix3 0 d l) = dw (ix3 2 d l))
    (hB : ∀ l : Fin 128, x24 (ix3 0 0 l) = db (ix3 2 0 l)) :
    k0_pay4 (F := Ideal) x0 c W b x21 x24 = logitPad tok h c emb W b dw db := by
  subst hx0
  funext j
  obtain ⟨r, l, rfl⟩ : ∃ (r : Fin 1536) (l : Fin 128), j = ix2 r l := ⟨j 0, j 1, eq_ix2 j⟩
  exact pay4_logit tok h c emb W b dw db (hostXh tok emb h) x21 x24 (xh_left tok emb h hr) (xh_right tok emb h) hW hB r l

/-- Lanes 0 … 3 of the padded logits are the logits. -/
theorem slice_logit (hs : S1536x128.Slices ![0, 0] S1536x4) :
    extractStridedSlice S1536x4 ![0, 0] (logitPad tok h c emb W b dw db) hs = logitArr tok h c emb W b dw db := by
  funext j
  obtain ⟨r, l, rfl⟩ : ∃ (r : Fin 1536) (l : Fin 4), j = ix2 r l := ⟨j 0, j 1, eq_ix2 j⟩
  exact extractStridedSlice_apply _ _ hs (ix2 r l) (ix2 r (lane l)) fun a => by
    match a with
    | ⟨0, _⟩ => exact (Nat.zero_add _).symm
    | ⟨1, _⟩ => exact (Nat.zero_add _).symm

end

end Cert.RefSide

end
-- ==== Proof.RefGeom.lean ====
/-
  Where each window of the reference's one launch sits in its array. The launch has a single grid point. The joined
  [token row | hidden state] array, the cell state, the weight matrix and the bias row are held whole; the decoder
  weights and bias are the slab of the head the one-word table names, which is head 2; each of the three results is
  one block that is its whole array.
-/
import proofs.«164750_g2000601216510222_pallasbulk_1026_17_alg».proof.Proof.Gen.ReferenceIdeal.Frame
import proofs.«164750_g2000601216510222_pallasbulk_1026_17_alg».proof.Proof.RefOk
import Idealize.ShloMosaic.Lib.Pipeline.Value
import Idealize.ShloMosaic.Lib.Tactic
import Idealize.ShloMosaic.Lib.ValueIdx

set_option maxRecDepth 16384

noncomputable section

namespace Cert.RefGeom

open Cert.ReferenceIdeal Cert.ReferenceIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ)

/-! ## The arrays held whole -/

/-- The first window is the whole joined [token row | hidden state] array. -/
theorem blk0 (hO : Ok m) (c : Dev nD) (t : Fin (cfgM m hO).N) :
    (iblk m hO c 0 t : Vec F S1536x1024 .f32) = V m c main_call0_v1 := by
  apply funext
  intro (y : S1536x1024.Idx)
  show V m c main_call0_v1 ((((cfgM m hO).win 0).blk t).view.emb y) = V m c main_call0_v1 y
  congr 1
  apply funext
  intro (a : Fin 2)
  apply Fin.ext
  match a with
  | ⟨0, _⟩ => show 0 * 1536 + 1 * (y 0).val = (y 0).val; omega
  | ⟨1, _⟩ => show 0 * 1024 + 1 * (y 1).val = (y 1).val; omega

/-- The second window is the whole cell-state array. -/
theorem blk1 (hO : Ok m) (c : Dev nD) (t : Fin (cfgM m hO).N) :
    (iblk m hO c 1 t : Vec F S1536x512 .f32) = V m c main_arg2 := by
  apply funext
  intro (y : S1536x512.Idx)
  show V m c main_arg2 ((((cfgM m hO).win 1).blk t).view.emb y) = V m c main_arg2 y
  congr 1
  apply funext
  intro (a : Fin 2)
  apply Fin.ext
  match a with
  | ⟨0, _⟩ => show 0 * 1536 + 1 * (y 0).val = (y 0).val; omega
  | ⟨1, _⟩ => show 0 * 512 + 1 * (y 1).val = (y 1).val; omega

/-- The third window is the whole weight matrix. -/
theorem blk2 (hO : Ok m) (c : Dev nD) (t : Fin (cfgM m hO).N) :
    (iblk m hO c 2 t : Vec F S1024x2048 .f32) = V m c main_arg4 := by
  apply funext
  intro (y : S1024x2048.Idx)
  show V m c main_arg4 ((((cfgM m hO).win 2).blk t).view.emb y) = V m c main_arg4 y
  congr 1
  apply funext
  intro (a : Fin 2)
  apply Fin.ext
  match a with
  | ⟨0, _⟩ => show 0 * 1024 + 1 * (y 0).val = (y 0).val; omega
  | ⟨1, _⟩ => show 0 * 2048 + 1 * (y 1).val = (y 1).val; omega

/-- The fourth window is the whole bias row. -/
theorem blk3 (hO : Ok m) (c : Dev nD) (t : Fin (cfgM m hO).N) :
    (iblk m hO c 3 t : Vec F S1x2048 .f32) = V m c main_arg5 := by
  apply funext
  intro (y : S1x2048.Idx)
  show V m c main_arg5 ((((cfgM m hO).win 3).blk t).view.emb y) = V m c main_arg5 y
  congr 1
  apply funext
  intro (a : Fin 2)
  apply Fin.ext
  match a with
  | ⟨0, _⟩ => show 0 * 1 + 1 * (y 0).val = (y 0).val; omega
  | ⟨1, _⟩ => show 0 * 2048 + 1 * (y 1).val = (y 1).val; omega

/-! ## The decoder: the head the table names, head 2 -/

/-- The decoder-weight window is at block (2, 0, 0). -/
theorem index4 (hO : Ok m) (t : Fin (cfgM m hO).N) : ((cfgM m hO).win 4).index t = ![2, 0, 0] :=
  Cert.RefSide.head_w m ((cfgM m hO).grid.coords t)

/-- The decoder-bias window is at block (2, 0, 0). -/
theorem index5 (hO : Ok m) (t : Fin (cfgM m hO).N) : ((cfgM m hO).win 5).index t = ![2, 0, 0] :=
  Cert.RefSide.head_b m ((cfgM m hO).grid.coords t)

/-- The decoder-weight window is head 2's [512, 128] slab. -/
theorem blk4 (hO : Ok m) (c : Dev nD) (t : Fin (cfgM m hO).N) (d : Fin 512) (l : Fin 128) :
    (iblk m hO c 4 t : Vec F S1x512x128 .f32) (ix3 0 d l) = V m c main_arg6 (ix3 2 d l) := by
  show V m c main_arg6 ((((cfgM m hO).win 4).blk t).view.emb (ix3 0 d l)) = V m c main_arg6 (ix3 2 d l)
  congr 1
  apply funext
  intro (a : Fin 3)
  apply Fin.ext
  show (((cfgM m hO).win 4).index t) a * S1x512x128.size a + 1 * ((ix3 0 d l : S1x512x128.Idx) a).val
    = ((ix3 2 d l : S9x512x128.Idx) a).val
  rw [index4 m hO t]
  match a with
  | ⟨0, _⟩ => rfl
  | ⟨1, _⟩ => show 0 * 512 + 1 * d.val = d.val; omega
  | ⟨2, _⟩ => show 0 * 128 + 1 * l.val = l.val; omega

/-- The decoder-bias window is head 2's [1, 128] row. -/
theorem blk5 (hO : Ok m) (c : Dev nD) (t : Fin (cfgM m hO).N) (l : Fin 128) :
    (iblk m hO c 5 t : Vec F S1x1x128 .f32) (ix3 0 0 l) = V m c main_arg7 (ix3 2 0 l) := by
  show V m c main_arg7 ((((cfgM m hO).win 5).blk t).view.emb (ix3 0 0 l)) = V m c main_arg7 (ix3 2 0 l)
  congr 1
  apply funext
  intro (a : Fin 3)
  apply Fin.ext
  show (((cfgM m hO).win 5).index t) a * S1x1x128.size a + 1 * ((ix3 0 0 l : S1x1x128.Idx) a).val
    = ((ix3 2 0 l : S9x1x128.Idx) a).val
  rw [index5 m hO t]
  match a with
  | ⟨0, _⟩ => rfl
  | ⟨1, _⟩ => rfl
  | ⟨2, _⟩ => show 0 * 128 + 1 * l.val = l.val; omega

/-! ## The results: one block each, the whole array -/

/-- The padded-logit window's one block is its whole array: an index of the block is the same index of the array. -/
theorem emb_6 (hO : Ok m) (t : Fin (cfgM m hO).N) (y : S1536x128.Idx) :
    ((((cfgM m hO).win 6).blk t).view.emb y : S1536x128.Idx) = y := by
  apply funext
  intro (a : Fin 2)
  apply Fin.ext
  match a with
  | ⟨0, _⟩ => show 0 * 1536 + 1 * (y 0).val = (y 0).val; omega
  | ⟨1, _⟩ => show 0 * 128 + 1 * (y 1).val = (y 1).val; omega

/-- The one point's block covers the padded-logit array. -/
theorem cover_6 (hO : Ok m) (i : S1536x128.Idx) :
    ∃ t : Fin (cfgM m hO).N, ((cfgM m hO).win 6).flush t = true ∧ i ∈ (((cfgM m hO).win 6).blk t).view.set := by
  have h0 : (i 0).val < 1536 := (i 0).isLt
  have h1 : (i 1).val < 128 := (i 1).isLt
  let t : Fin (cfgM m hO).N := ⟨0, lt_of_lt_of_eq Nat.zero_lt_one N_0.symm⟩
  refine ⟨t, flush0_6 (adm m hO) t, ?_⟩
  show i ∈ ((View.whole main_v0_0).slice (((cfgM m hO).win 6).rect t)).set
  erw [View.set_slice_whole, Rect.mem_set_unit]
  intro (a : Fin 2)
  match a with
  | ⟨0, _⟩ => show 0 * 1536 ≤ (i 0).val ∧ (i 0).val < 0 * 1536 + 1536; omega
  | ⟨1, _⟩ => show 0 * 128 ≤ (i 1).val ∧ (i 1).val < 0 * 128 + 128; omega

/-- The new hidden-state window's one block is its whole array: an index of the block is the same index of the array. -/
theorem emb_7 (hO : Ok m) (t : Fin (cfgM m hO).N) (y : S1536x512.Idx) :
    ((((cfgM m hO).win 7).blk t).view.emb y : S1536x512.Idx) = y := by
  apply funext
  intro (a : Fin 2)
  apply Fin.ext
  match a with
  | ⟨0, _⟩ => show 0 * 1536 + 1 * (y 0).val = (y 0).val; omega
  | ⟨1, _⟩ => show 0 * 512 + 1 * (y 1).val = (y 1).val; omega

/-- The one point's block covers the new hidden-state array. -/
theorem cover_7 (hO : Ok m) (i : S1536x512.Idx) :
    ∃ t : Fin (cfgM m hO).N, ((cfgM m hO).win 7).flush t = true ∧ i ∈ (((cfgM m hO).win 7).blk t).view.set := by
  have h0 : (i 0).val < 1536 := (i 0).isLt
  have h1 : (i 1).val < 512 := (i 1).isLt
  let t : Fin (cfgM m hO).N := ⟨0, lt_of_lt_of_eq Nat.zero_lt_one N_0.symm⟩
  refine ⟨t, flush0_7 (adm m hO) t, ?_⟩
  show i ∈ ((View.whole main_v0_1).slice (((cfgM m hO).win 7).rect t)).set
  erw [View.set_slice_whole, Rect.mem_set_unit]
  intro (a : Fin 2)
  match a with
  | ⟨0, _⟩ => show 0 * 1536 ≤ (i 0).val ∧ (i 0).val < 0 * 1536 + 1536; omega
  | ⟨1, _⟩ => show 0 * 512 ≤ (i 1).val ∧ (i 1).val < 0 * 512 + 512; omega

/-- The new cell-state window's one block is its whole array: an index of the block is the same index of the array. -/
theorem emb_8 (hO : Ok m) (t : Fin (cfgM m hO).N) (y : S1536x512.Idx) :
    ((((cfgM m hO).win 8).blk t).view.emb y : S1536x512.Idx) = y := by
  apply funext
  intro (a : Fin 2)
  apply Fin.ext
  match a with
  | ⟨0, _⟩ => show 0 * 1536 + 1 * (y 0).val = (y 0).val; omega
  | ⟨1, _⟩ => show 0 * 512 + 1 * (y 1).val = (y 1).val; omega

/-- The one point's block covers the new cell-state array. -/
theorem cover_8 (hO : Ok m) (i : S1536x512.Idx) :
    ∃ t : Fin (cfgM m hO).N, ((cfgM m hO).win 8).flush t = true ∧ i ∈ (((cfgM m hO).win 8).blk t).view.set := by
  have h0 : (i 0).val < 1536 := (i 0).isLt
  have h1 : (i 1).val < 512 := (i 1).isLt
  let t : Fin (cfgM m hO).N := ⟨0, lt_of_lt_of_eq Nat.zero_lt_one N_0.symm⟩
  refine ⟨t, flush0_8 (adm m hO) t, ?_⟩
  show i ∈ ((View.whole main_v0_2).slice (((cfgM m hO).win 8).rect t)).set
  erw [View.set_slice_whole, Rect.mem_set_unit]
  intro (a : Fin 2)
  match a with
  | ⟨0, _⟩ => show 0 * 1536 ≤ (i 0).val ∧ (i 0).val < 0 * 1536 + 1536; omega
  | ⟨1, _⟩ => show 0 * 512 ≤ (i 1).val ∧ (i 1).val < 0 * 512 + 512; omega

end Cert.RefGeom

end
-- ==== Proof.RefBody.lean ====
/-
  What the reference kernel's body leaves in its three outputs, as values of the input blocks.

  The body stores each output once, whole: the padded logits, the hidden state and the cell state. Each store covers its
  buffer from offset zero, so what the buffer holds afterwards is the stored value; and each input is loaded whole from
  offset zero, so the loaded value is the input block itself. Hence the three outputs are the body's three pure terms of the
  six input blocks. This holds for any float instance.
-/
import proofs.«164750_g2000601216510222_pallasbulk_1026_17_alg».proof.Proof.Gen.ReferenceIdeal.Frame
import Idealize.ShloMosaic.Lib.Pipeline.Value
import Idealize.ShloMosaic.Lib.Tactic

set_option maxRecDepth 16384

noncomputable section

namespace Cert.RefSide

open Cert.ReferenceIdeal Cert.ReferenceIdeal.Gen
open Idealize.ShloMosaic Idealize.ShloMosaic.TcCoe Idealize.ShloMosaic.Tactic Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

variable {F : FTy → Type} [FloatOps F]
variable (c : Dev nD) (i : grid0.Coords)
  (arg2 : Memref sig .tc .vmem S1536x1024 .f32) (harg2 : arg2.IsWhole) (arg3 : Memref sig .tc .vmem S1536x512 .f32) (harg3 : arg3.IsWhole)
  (arg4 : Memref sig .tc .vmem S1024x2048 .f32) (harg4 : arg4.IsWhole) (arg5 : Memref sig .tc .vmem S1x2048 .f32) (harg5 : arg5.IsWhole)
  (arg6 : Memref sig .tc .vmem S1x512x128 .f32) (harg6 : arg6.IsWhole) (arg7 : Memref sig .tc .vmem S1x1x128 .f32) (harg7 : arg7.IsWhole)
  (arg8 : Memref sig .tc .vmem S1536x128 .f32) (harg8 : arg8.IsWhole) (arg9 : Memref sig .tc .vmem S1536x512 .f32) (harg9 : arg9.IsWhole)
  (arg10 : Memref sig .tc .vmem S1536x512 .f32) (harg10 : arg10.IsWhole)
  (x0 : Vec F S1536x1024 .f32) (x1 : Vec F S1536x512 .f32) (x2 : Vec F S1024x2048 .f32) (x3 : Vec F S1x2048 .f32)
  (x4 : Vec F S1x512x128 .f32) (x5 : Vec F S1x1x128 .f32) (xt0 : TbBuf0 (F := F) c tbM0_0)

/-- The padded logits: the squashed decoder output of the six blocks. -/
theorem out6 : out0_A_6 c i arg2 harg2 arg3 harg3 arg4 harg4 arg5 harg5 arg6 harg6 arg7 harg7 arg8 harg8 arg9 harg9 arg10 harg10 x0 x1 x2 x3 x4 x5 xt0 = k0_pay4 x0 x1 x2 x3 x4 x5 := by
  unfold out0_A_6
  rw [View.read_writes_eq_canon _ _ _ (cover0_A_6 c i arg2 harg2 arg3 harg3 arg4 harg4 arg5 harg5 arg6 harg6 arg7 harg7 arg8 harg8 arg9 harg9 arg10 harg10 x0 x1 x2 x3 x4 x5 xt0)]
  unfold kernelRun0_A
  dsimp only
  rw [View.canon_unit_zero hz2]
  simp only [View.readAt_eq_ld, harg2.read_unread, harg3.read_unread, harg4.read_unread, harg5.read_unread,
    harg6.read_unread, harg7.read_unread,
    View.ld_unit_zero (S := S1536x1024) hz2, View.ld_unit_zero (S := S1536x512) hz2,
    View.ld_unit_zero (S := S1024x2048) hz2, View.ld_unit_zero (S := S1x2048) hz2,
    View.ld_unit_zero (S := S1x512x128) hz3, View.ld_unit_zero (S := S1x1x128) hz3]

/-- The hidden state. -/
theorem out7 : out0_A_7 c i arg2 harg2 arg3 harg3 arg4 harg4 arg5 harg5 arg6 harg6 arg7 harg7 arg8 harg8 arg9 harg9 arg10 harg10 x0 x1 x2 x3 x4 x5 xt0 = k0_pay3 x0 x1 x2 x3 := by
  unfold out0_A_7
  rw [View.read_writes_eq_canon _ _ _ (cover0_A_7 c i arg2 harg2 arg3 harg3 arg4 harg4 arg5 harg5 arg6 harg6 arg7 harg7 arg8 harg8 arg9 harg9 arg10 harg10 x0 x1 x2 x3 x4 x5 xt0)]
  unfold kernelRun0_A
  dsimp only
  rw [View.canon_unit_zero hz2]
  simp only [View.readAt_eq_ld, harg2.read_unread, harg3.read_unread, harg4.read_unread, harg5.read_unread,
    View.ld_unit_zero (S := S1536x1024) hz2, View.ld_unit_zero (S := S1536x512) hz2,
    View.ld_unit_zero (S := S1024x2048) hz2, View.ld_unit_zero (S := S1x2048) hz2]

/-- The cell state. -/
theorem out8 : out0_A_8 c i arg2 harg2 arg3 harg3 arg4 harg4 arg5 harg5 arg6 harg6 arg7 harg7 arg8 harg8 arg9 harg9 arg10 harg10 x0 x1 x2 x3 x4 x5 xt0 = k0_pay2 x0 x1 x2 x3 := by
  unfold out0_A_8
  rw [View.read_writes_eq_canon _ _ _ (cover0_A_8 c i arg2 harg2 arg3 harg3 arg4 harg4 arg5 harg5 arg6 harg6 arg7 harg7 arg8 harg8 arg9 harg9 arg10 harg10 x0 x1 x2 x3 x4 x5 xt0)]
  unfold kernelRun0_A
  dsimp only
  sl_unfold_words
  rw [View.canon_unit_zero hz2]
  simp only [View.readAt_eq_ld, harg2.read_unread, harg3.read_unread, harg4.read_unread, harg5.read_unread,
    View.ld_unit_zero (S := S1536x1024) hz2, View.ld_unit_zero (S := S1536x512) hz2,
    View.ld_unit_zero (S := S1024x2048) hz2, View.ld_unit_zero (S := S1x2048) hz2]

end Cert.RefSide

end
-- ==== Proof.RefFlush.lean ====
/-
  What the reference's one launch leaves in its three output arrays, as the specification's functions.

  The launch has one grid point and its body one case: each output block is one pure term of the six input blocks. The
  first four input blocks are whole arrays and the two decoder blocks are head 2's slabs, so, when the left half of each
  row of the joined array is the embedding row of that row's token and the right half is the row's hidden state, every
  entry of the three terms is the specification's cell state, hidden state and squashed decoder output. Each output's
  one block is its whole array, so the arrays end as those functions.
-/
import proofs.«164750_g2000601216510222_pallasbulk_1026_17_alg».proof.Proof.RefGeom
import proofs.«164750_g2000601216510222_pallasbulk_1026_17_alg».proof.Proof.RefBody
import proofs.«164750_g2000601216510222_pallasbulk_1026_17_alg».proof.Proof.RefCell

set_option maxRecDepth 16384

noncomputable section

namespace Cert.RefFlush

open Cert.ReferenceIdeal Cert.ReferenceIdeal.Gen Idealize.ShloMosaic Idealize.ShloMosaic.TcCoe Idealize.SL.Sem
open Idealize.ShloMosaic.ValueIdx Cert.RefGeom Cert.RefSide
open Idealize.ShloMosaic.Pipeline (Dat)

/-! ## The body's three terms, entry by entry, over plain arrays -/

section Pure

variable (tok : (⟨1, ![1536]⟩ : Shape).Idx → BitVec 32)
  (hh cc : (⟨2, ![1536, 512]⟩ : Shape).Idx → EReal) (emb : (⟨2, ![9, 512]⟩ : Shape).Idx → EReal)
  (W : (⟨2, ![1024, 2048]⟩ : Shape).Idx → EReal) (b : (⟨2, ![1, 2048]⟩ : Shape).Idx → EReal)
  (x0 : Vec Ideal S1536x1024 .f32)
  (hL : ∀ (r : Fin 1536) (d : Fin 512), x0 (ix2 r (Cert.Cell.wrow 0 (by omega) d)) = emb (ix2 (Cert.Cell.rowOf (tok (ix1 r))) d))
  (hR : ∀ (r : Fin 1536) (d : Fin 512), x0 (ix2 r (Cert.Cell.wrow 512 (by omega) d)) = hh (ix2 r d))

include hL hR

/-- The cell-state term at any index is the specification's cell state there. -/
theorem cell_at (y : S1536x512.Idx) : k0_pay2 (F := Ideal) x0 cc W b y = Cert.Cell.cellArr tok hh cc emb W b y := by
  obtain ⟨r, q, rfl⟩ : ∃ (r : Fin 1536) (q : Fin 512), y = ix2 r q := ⟨y 0, y 1, eq_ix2 y⟩
  exact pay2_cell tok hh cc emb W b x0 hL hR r q

/-- The hidden-state term at any index is the specification's hidden state there. -/
theorem hid_at (y : S1536x512.Idx) : k0_pay3 (F := Ideal) x0 cc W b y = Cert.Cell.hidArr tok hh cc emb W b y := by
  obtain ⟨r, q, rfl⟩ : ∃ (r : Fin 1536) (q : Fin 512), y = ix2 r q := ⟨y 0, y 1, eq_ix2 y⟩
  exact pay3_hid tok hh cc emb W b x0 hL hR r q

/-- The decoder term at any index of the 128 lanes is the specification's squashed decoder output there. -/
theorem logit_at (dw : (⟨3, ![9, 512, 128]⟩ : Shape).Idx → EReal) (db : (⟨3, ![9, 1, 128]⟩ : Shape).Idx → EReal)
    (x4 : Vec Ideal S1x512x128 .f32) (x5 : Vec Ideal S1x1x128 .f32)
    (hW : ∀ (d : Fin 512) (l : Fin 128), x4 (ix3 0 d l) = dw (ix3 2 d l))
    (hB : ∀ l : Fin 128, x5 (ix3 0 0 l) = db (ix3 2 0 l)) (y : S1536x128.Idx) :
    k0_pay4 (F := Ideal) x0 cc W b x4 x5 y = Cert.Cell.squash (Cert.Cell.dec tok hh cc emb W b dw db (y 0) (y 1)) := by
  obtain ⟨r, l, rfl⟩ : ∃ (r : Fin 1536) (l : Fin 128), y = ix2 r l := ⟨y 0, y 1, eq_ix2 y⟩
  exact pay4_logit tok hh cc emb W b dw db x0 x4 x5 hL hR hW hB r l

end Pure

variable (m : (ℓ : Loc nD τ sig) → Buf (Elt Ideal) ℓ)

/-! ## What the body leaves in each output's buffer, as terms of the arrays -/

/-- The cell-state buffer after the body. -/
theorem after8_pure (hO : Ok m) (c : Dev nD) (t : Fin (cfgM m hO).N) :
    (dats m hO 0 c).after 8 t = k0_pay2 (F := Ideal) (V m c main_call0_v1) (V m c main_arg2) (V m c main_arg4) (V m c main_arg5) := by
  rw [after0_8]
  unfold outsAt0
  dsimp only
  exact (out8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (iblk m hO c 5 t) (tbl m 0)).trans (by rw [blk0 m hO c t, blk1 m hO c t, blk2 m hO c t, blk3 m hO c t])

/-- The hidden-state buffer after the body. -/
theorem after7_pure (hO : Ok m) (c : Dev nD) (t : Fin (cfgM m hO).N) :
    (dats m hO 0 c).after 7 t = k0_pay3 (F := Ideal) (V m c main_call0_v1) (V m c main_arg2) (V m c main_arg4) (V m c main_arg5) := by
  rw [after0_7]
  unfold outsAt0
  dsimp only
  exact (out7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (iblk m hO c 5 t) (tbl m 0)).trans (by rw [blk0 m hO c t, blk1 m hO c t, blk2 m hO c t, blk3 m hO c t])

/-- The padded-logit buffer after the body. -/
theorem after6_pure (hO : Ok m) (c : Dev nD) (t : Fin (cfgM m hO).N) :
    (dats m hO 0 c).after 6 t
      = k0_pay4 (F := Ideal) (V m c main_call0_v1) (V m c main_arg2) (V m c main_arg4) (V m c main_arg5) (iblk m hO c 4 t) (iblk m hO c 5 t) := by
  rw [after0_6]
  unfold outsAt0
  dsimp only
  exact (out6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (iblk m hO c 5 t) (tbl m 0)).trans (by rw [blk0 m hO c t, blk1 m hO c t, blk2 m hO c t, blk3 m hO c t])

/-! ## What the one point writes back -/

theorem flushed8_eq (hO : Ok m) (c : Dev nD) (tok : (⟨1, ![1536]⟩ : Shape).Idx → BitVec 32) (emb : (⟨2, ![9, 512]⟩ : Shape).Idx → EReal)
    (hh : (⟨2, ![1536, 512]⟩ : Shape).Idx → EReal)
    (hL : ∀ (r : Fin 1536) (d : Fin 512), V m c main_call0_v1 (ix2 r (Cert.Cell.wrow 0 (by omega) d)) = emb (ix2 (Cert.Cell.rowOf (tok (ix1 r))) d))
    (hR : ∀ (r : Fin 1536) (d : Fin 512), V m c main_call0_v1 (ix2 r (Cert.Cell.wrow 512 (by omega) d)) = hh (ix2 r d)) (t : Fin (cfgM m hO).N) :
    (dats m hO 0 c).flushed 8 t
      = (((cfgM m hO).win 8).blk t).view.read (Elt Ideal) (Cert.Cell.cellArr tok hh (V m c main_arg2) emb (V m c main_arg4) (V m c main_arg5)) := by
  apply funext
  intro (y : S1536x512.Idx)
  show (dats m hO 0 c).after 8 t y = Cert.Cell.cellArr tok hh (V m c main_arg2) emb (V m c main_arg4) (V m c main_arg5) ((((cfgM m hO).win 8).blk t).view.emb y)
  refine (congrFun (after8_pure m hO c t) y).trans ?_
  refine (cell_at tok hh (V m c main_arg2) emb (V m c main_arg4) (V m c main_arg5) (V m c main_call0_v1) hL hR y).trans ?_
  exact congrArg (Cert.Cell.cellArr tok hh (V m c main_arg2) emb (V m c main_arg4) (V m c main_arg5)) (emb_8 m hO t y).symm

theorem flushed7_eq (hO : Ok m) (c : Dev nD) (tok : (⟨1, ![1536]⟩ : Shape).Idx → BitVec 32) (emb : (⟨2, ![9, 512]⟩ : Shape).Idx → EReal)
    (hh : (⟨2, ![1536, 512]⟩ : Shape).Idx → EReal)
    (hL : ∀ (r : Fin 1536) (d : Fin 512), V m c main_call0_v1 (ix2 r (Cert.Cell.wrow 0 (by omega) d)) = emb (ix2 (Cert.Cell.rowOf (tok (ix1 r))) d))
    (hR : ∀ (r : Fin 1536) (d : Fin 512), V m c main_call0_v1 (ix2 r (Cert.Cell.wrow 512 (by omega) d)) = hh (ix2 r d)) (t : Fin (cfgM m hO).N) :
    (dats m hO 0 c).flushed 7 t
      = (((cfgM m hO).win 7).blk t).view.read (Elt Ideal) (Cert.Cell.hidArr tok hh (V m c main_arg2) emb (V m c main_arg4) (V m c main_arg5)) := by
  apply funext
  intro (y : S1536x512.Idx)
  show (dats m hO 0 c).after 7 t y = Cert.Cell.hidArr tok hh (V m c main_arg2) emb (V m c main_arg4) (V m c main_arg5) ((((cfgM m hO).win 7).blk t).view.emb y)
  refine (congrFun (after7_pure m hO c t) y).trans ?_
  refine (hid_at tok hh (V m c main_arg2) emb (V m c main_arg4) (V m c main_arg5) (V m c main_call0_v1) hL hR y).trans ?_
  exact congrArg (Cert.Cell.hidArr tok hh (V m c main_arg2) emb (V m c main_arg4) (V m c main_arg5)) (emb_7 m hO t y).symm

theorem flushed6_eq (hO : Ok m) (c : Dev nD) (tok : (⟨1, ![1536]⟩ : Shape).Idx → BitVec 32) (emb : (⟨2, ![9, 512]⟩ : Shape).Idx → EReal)
    (hh : (⟨2, ![1536, 512]⟩ : Shape).Idx → EReal)
    (hL : ∀ (r : Fin 1536) (d : Fin 512), V m c main_call0_v1 (ix2 r (Cert.Cell.wrow 0 (by omega) d)) = emb (ix2 (Cert.Cell.rowOf (tok (ix1 r))) d))
    (hR : ∀ (r : Fin 1536) (d : Fin 512), V m c main_call0_v1 (ix2 r (Cert.Cell.wrow 512 (by omega) d)) = hh (ix2 r d)) (t : Fin (cfgM m hO).N) :
    (dats m hO 0 c).flushed 6 t
      = (((cfgM m hO).win 6).blk t).view.read (Elt Ideal) (fun j : S1536x128.Idx => Cert.Cell.squash (Cert.Cell.dec tok hh (V m c main_arg2) emb (V m c main_arg4) (V m c main_arg5) (V m c main_arg6) (V m c main_arg7) (j 0) (j 1))) := by
  apply funext
  intro (y : S1536x128.Idx)
  show (dats m hO 0 c).after 6 t y = (fun j : S1536x128.Idx => Cert.Cell.squash (Cert.Cell.dec tok hh (V m c main_arg2) emb (V m c main_arg4) (V m c main_arg5) (V m c main_arg6) (V m c main_arg7) (j 0) (j 1))) ((((cfgM m hO).win 6).blk t).view.emb y)
  refine (congrFun (after6_pure m hO c t) y).trans ?_
  refine (logit_at tok hh (V m c main_arg2) emb (V m c main_arg4) (V m c main_arg5) (V m c main_call0_v1) hL hR (V m c main_arg6) (V m c main_arg7) (iblk m hO c 4 t) (iblk m hO c 5 t)
    (blk4 m hO c t) (blk5 m hO c t) y).trans ?_
  exact congrArg (fun j : S1536x128.Idx => Cert.Cell.squash (Cert.Cell.dec tok hh (V m c main_arg2) emb (V m c main_arg4) (V m c main_arg5) (V m c main_arg6) (V m c main_arg7) (j 0) (j 1))) (emb_6 m hO t y).symm

/-! ## The arrays after the launch -/

/-- The cell-state array ends as the specification's cell state. -/
theorem final8 (hO : Ok m) (c : Dev nD) (tok : (⟨1, ![1536]⟩ : Shape).Idx → BitVec 32) (emb : (⟨2, ![9, 512]⟩ : Shape).Idx → EReal)
    (hh : (⟨2, ![1536, 512]⟩ : Shape).Idx → EReal)
    (hL : ∀ (r : Fin 1536) (d : Fin 512), V m c main_call0_v1 (ix2 r (Cert.Cell.wrow 0 (by omega) d)) = emb (ix2 (Cert.Cell.rowOf (tok (ix1 r))) d))
    (hR : ∀ (r : Fin 1536) (d : Fin 512), V m c main_call0_v1 (ix2 r (Cert.Cell.wrow 512 (by omega) d)) = hh (ix2 r d)) :
    (dats m hO 0 c).arrAt 8 (cfgM m hO).N = Cert.Cell.cellArr tok hh (V m c main_arg2) emb (V m c main_arg4) (V m c main_arg5) :=
  (dats m hO 0 c).arrAt_eq_of_cover 8 _ (fun t _ => flushed8_eq m hO c tok emb hh hL hR t) (cover_8 m hO)

/-- The hidden-state array ends as the specification's hidden state. -/
theorem final7 (hO : Ok m) (c : Dev nD) (tok : (⟨1, ![1536]⟩ : Shape).Idx → BitVec 32) (emb : (⟨2, ![9, 512]⟩ : Shape).Idx → EReal)
    (hh : (⟨2, ![1536, 512]⟩ : Shape).Idx → EReal)
    (hL : ∀ (r : Fin 1536) (d : Fin 512), V m c main_call0_v1 (ix2 r (Cert.Cell.wrow 0 (by omega) d)) = emb (ix2 (Cert.Cell.rowOf (tok (ix1 r))) d))
    (hR : ∀ (r : Fin 1536) (d : Fin 512), V m c main_call0_v1 (ix2 r (Cert.Cell.wrow 512 (by omega) d)) = hh (ix2 r d)) :
    (dats m hO 0 c).arrAt 7 (cfgM m hO).N = Cert.Cell.hidArr tok hh (V m c main_arg2) emb (V m c main_arg4) (V m c main_arg5) :=
  (dats m hO 0 c).arrAt_eq_of_cover 7 _ (fun t _ => flushed7_eq m hO c tok emb hh hL hR t) (cover_7 m hO)

/-- The padded-logit array ends as the specification's squashed decoder output on all 128 lanes. -/
theorem final6 (hO : Ok m) (c : Dev nD) (tok : (⟨1, ![1536]⟩ : Shape).Idx → BitVec 32) (emb : (⟨2, ![9, 512]⟩ : Shape).Idx → EReal)
    (hh : (⟨2, ![1536, 512]⟩ : Shape).Idx → EReal)
    (hL : ∀ (r : Fin 1536) (d : Fin 512), V m c main_call0_v1 (ix2 r (Cert.Cell.wrow 0 (by omega) d)) = emb (ix2 (Cert.Cell.rowOf (tok (ix1 r))) d))
    (hR : ∀ (r : Fin 1536) (d : Fin 512), V m c main_call0_v1 (ix2 r (Cert.Cell.wrow 512 (by omega) d)) = hh (ix2 r d)) :
    (dats m hO 0 c).arrAt 6 (cfgM m hO).N = (fun j : S1536x128.Idx => Cert.Cell.squash (Cert.Cell.dec tok hh (V m c main_arg2) emb (V m c main_arg4) (V m c main_arg5) (V m c main_arg6) (V m c main_arg7) (j 0) (j 1))) :=
  (dats m hO 0 c).arrAt_eq_of_cover 6 _ (fun t _ => flushed6_eq m hO c tok emb hh hL hR t) (cover_6 m hO)

end Cert.RefFlush

end
-- ==== Proof.RefRun.lean ====
/-
  The reference's run, read: its three results and its unchanged arguments.

  The generated frame run ends with each output array of the kernel at what the write-backs left and every other buffer
  at what the host lines after the kernel leave. The kernel's grid has one point and each output's block is its whole
  array, so the three arrays end at the body's three results; the host's last line keeps lanes 0 … 3 of the padded
  logits. With the host's row block in the first window (under the range of the token ids) these are the specification's
  logits, hidden state and cell state of the launch arguments.
-/
import proofs.«164750_g2000601216510222_pallasbulk_1026_17_alg».proof.Proof.RefOk
import proofs.«164750_g2000601216510222_pallasbulk_1026_17_alg».proof.Proof.RefHost
import proofs.«164750_g2000601216510222_pallasbulk_1026_17_alg».proof.Proof.RefVal
import proofs.«164750_g2000601216510222_pallasbulk_1026_17_alg».proof.Proof.RefFlush
import proofs.«164750_g2000601216510222_pallasbulk_1026_17_alg».proof.Proof.Gen.ReferenceIdeal.Frame
import Idealize.ShloMosaic.Lib.Pipeline.Value

set_option maxRecDepth 16384

noncomputable section

namespace Cert.RefSide

open Cert.ReferenceIdeal Cert.ReferenceIdeal.Gen Cert.Cell
open Idealize.ShloMosaic Idealize.ShloMosaic.TcCoe Idealize.ShloMosaic.ValueIdx Idealize.SL.Sem

variable (m : (ℓ : Loc nD τ sig) → Buf (Elt Ideal) ℓ) (ρ : Dev nD → PrngReg)

/-- The host's last line: lanes 0 … 3 of what the kernel left in its first output array. -/
theorem tail_eq (hO : Ok m) (c : Dev nD) (G : S1536x128.Idx → EReal)
    (hG : (dats m hO 0 c).arrAt 6 (cfgM m hO).N = G) :
    Pipeline.afterTail pcfgs (fun _ => adm m hO) (dats m hO) 0 (V0 m) [hostOps1] c main_v1
      = extractStridedSlice S1536x4 ![0, 0] G slices_S1536x128_S1536x4_0_0 := by
  unfold Pipeline.afterTail
  show StableHlo.after hostOps1 _ (Proc.devRef .tc main_v1) = _
  after_results
  have e : (Pipeline.withArrays (Pipeline.pin pcfgs (fun _ => adm m hO) 0).spec c (V0 m c)
      (fun w => (dats m hO 0 c).arrAt w (Pipeline.pin pcfgs (fun _ => adm m hO) 0).N) (Proc.devRef .tc main_v0_0)
        : S1536x128.Idx → EReal) = G :=
    (Pipeline.withArrays_arr spec0 winFacts0.arr_inj c _ _ 6).trans hG
  rw [e]

/-- The run with its three output arrays named: the sliced first, the second and the third, and the arguments as launched. -/
theorem run_of (hO : Ok m) (G6 : Dev nD → S1536x128.Idx → EReal) (G7 G8 : Dev nD → S1536x512.Idx → EReal)
    (h6 : ∀ c, (dats m hO 0 c).arrAt 6 (cfgM m hO).N = G6 c)
    (h7 : ∀ c, (dats m hO 0 c).arrAt 7 (cfgM m hO).N = G7 c)
    (h8 : ∀ c, (dats m hO 0 c).arrAt 8 (cfgM m hO).N = G8 c) :
    θ_run (defs (F := Ideal)) (onTc (τ := τ) (main (F := Ideal))) ⟨m, fun _ => 0, ρ⟩ (fun r => ∀ c : Dev nD,
      r.2.mem ((c.tc : Thread nD τ).loc main_v1) = extractStridedSlice S1536x4 ![0, 0] (G6 c) slices_S1536x128_S1536x4_0_0
      ∧ r.2.mem ((c.tc : Thread nD τ).loc main_v0_1) = G7 c
      ∧ r.2.mem ((c.tc : Thread nD τ).loc main_v0_2) = G8 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v1 (by decide : main_v1 ∈ Pipeline.restRefs sig spec0)).trans (tail_eq m hO c (G6 c) (h6 c)),
      ((h c).1 7).trans (h7 c),
      ((h c).1 8).trans (h8 c),
      (((h c).2 main_arg0 (by decide : main_arg0 ∈ Pipeline.restRefs sig spec0)).trans (W_main_arg0 m hO (dats m hO) c)),
      (((h c).2 main_arg1 (by decide : main_arg1 ∈ Pipeline.restRefs sig spec0)).trans (W_main_arg1 m hO (dats m hO) c)),
      ((h c).1 1).trans (((dats m hO 0 c).arrAt_in 1 rfl _).trans ((A_eq m hO c 1).trans (V_main_arg2 m c))),
      (((h c).2 main_arg3 (by decide : main_arg3 ∈ Pipeline.restRefs sig spec0)).trans (W_main_arg3 m hO (dats m hO) c)),
      ((h c).1 2).trans (((dats m hO 0 c).arrAt_in 2 rfl _).trans ((A_eq m hO c 2).trans (V_main_arg4 m c))),
      ((h c).1 3).trans (((dats m hO 0 c).arrAt_in 3 rfl _).trans ((A_eq m hO c 3).trans (V_main_arg5 m c))),
      ((h c).1 4).trans (((dats m hO 0 c).arrAt_in 4 rfl _).trans ((A_eq m hO c 4).trans (V_main_arg6 m c))),
      ((h c).1 5).trans (((dats m hO 0 c).arrAt_in 5 rfl _).trans ((A_eq m hO c 5).trans (V_main_arg7 m c)))⟩)
    (run_main m ρ hO)

/-- THE REFERENCE'S RUN: for token ids below 9, every execution ends with the logits, the hidden state and the cell state of
    the specification at the launch arguments, and the arguments as launched. -/
theorem run (hr : ∀ (c : Dev nD) (r : Fin 1536), ((m ((c.tc : Thread nD τ).loc main_arg0)) (ValueIdx.ix1 r)).toNat < 9) :
    θ_run (defs (F := Ideal)) (onTc (τ := τ) (main (F := Ideal))) ⟨m, fun _ => 0, ρ⟩ (fun r => ∀ c : Dev nD,
      r.2.mem ((c.tc : Thread nD τ).loc main_v1) = Cert.Cell.logitArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v0_1) = Cert.Cell.hidArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v0_2) = Cert.Cell.cellArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  have hO : Ok m := ok m
  have h6 : ∀ c : Dev nD, (dats m hO 0 c).arrAt 6 (cfgM m hO).N = logitPad (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := fun c => by
    have e := Cert.RefFlush.final6 m hO c (m ((c.tc : Thread nD τ).loc main_arg0)) (m ((c.tc : Thread nD τ).loc main_arg3)) (m ((c.tc : Thread nD τ).loc main_arg1)) (xhV_left m c (hr c)) (xhV_right m c)
    rw [V_main_arg2 m c, V_main_arg4 m c, V_main_arg5 m c, V_main_arg6 m c, V_main_arg7 m c] at e
    exact e
  have h7 : ∀ c : Dev nD, (dats m hO 0 c).arrAt 7 (cfgM m hO).N = Cert.Cell.hidArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := fun c => by
    have e := Cert.RefFlush.final7 m hO c (m ((c.tc : Thread nD τ).loc main_arg0)) (m ((c.tc : Thread nD τ).loc main_arg3)) (m ((c.tc : Thread nD τ).loc main_arg1)) (xhV_left m c (hr c)) (xhV_right m c)
    rw [V_main_arg2 m c, V_main_arg4 m c, V_main_arg5 m c] at e
    exact e
  have h8 : ∀ c : Dev nD, (dats m hO 0 c).arrAt 8 (cfgM m hO).N = Cert.Cell.cellArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := fun c => by
    have e := Cert.RefFlush.final8 m hO c (m ((c.tc : Thread nD τ).loc main_arg0)) (m ((c.tc : Thread nD τ).loc main_arg3)) (m ((c.tc : Thread nD τ).loc main_arg1)) (xhV_left m c (hr c)) (xhV_right m c)
    rw [V_main_arg2 m c, V_main_arg4 m c, V_main_arg5 m c] at e
    exact e
  refine (θ_run defs _ _).mono (fun r h c => ?_)
    (run_of m ρ hO (fun c => logitPad (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (fun c => Cert.Cell.hidArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (fun c => Cert.Cell.cellArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) h6 h7 h8)
  obtain ⟨e1, rest⟩ := h c
  exact ⟨e1.trans (slice_logit _ _ _ _ _ _ _ _ slices_S1536x128_S1536x4_0_0), rest⟩

end Cert.RefSide

end
-- ==== Proof.lean ====
/-
  The certificate of the fused controller step against its reference: one LSTM cell step on 1536 token rows (token
  embedding, four gates, new cell and hidden states) followed by decoder head 2, temperature-scaled and squashed.

  Both programs compute, on the extended reals, the functions of Proof/Spec.lean (Cert.Cell): the kernel tile by tile
  over a 2×2 grid, gathering the token's embedding by a one-hot product against a staged sixteen-row table and spelling
  the logistic function through tanh (Proof/KPieces, KBlock, KGeom, KFlush, KRun); the reference by a host gather and concatenation
  followed by one launch over the whole batch and a host slice of the padded logits (Proof/RefOk, RefGather, RefHost, RefBody, RefCell, RefVal, RefGeom, RefFlush, RefRun). Nothing in the
  argument needs a finite entry; what it does need is that every token id names one of the nine embedding rows, which
  the precondition states (Proof/PreRange, PreRangeClaims). The ideal pass rewrote nothing, so `preserves` is trivial.
-/
import proofs.«164750_g2000601216510222_pallasbulk_1026_17_alg».proof.Defs
import proofs.«164750_g2000601216510222_pallasbulk_1026_17_alg».proof.Proof.Gen.Kernel.Frame
import proofs.«164750_g2000601216510222_pallasbulk_1026_17_alg».proof.Proof.Gen.KernelIdeal.Frame
import proofs.«164750_g2000601216510222_pallasbulk_1026_17_alg».proof.Proof.Gen.KernelIdeal.Value
import proofs.«164750_g2000601216510222_pallasbulk_1026_17_alg».proof.Proof.Gen.ReferenceIdeal.Frame
import proofs.«164750_g2000601216510222_pallasbulk_1026_17_alg».proof.Proof.Gen.Pre_finite_inputs
import proofs.«164750_g2000601216510222_pallasbulk_1026_17_alg».proof.Proof.PreRangeClaims
import proofs.«164750_g2000601216510222_pallasbulk_1026_17_alg».proof.Proof.KRun
import proofs.«164750_g2000601216510222_pallasbulk_1026_17_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's one prefetched word is the constant 2, a valid head of the nine: its frame needs no more. -/
theorem frame_ri : Cert.frame_ReferenceIdeal := fun m ρ _ => Cert.ReferenceIdeal.Gen.frame m ρ (Cert.RefSide.ok m)

theorem preserves : Cert.preserves_Kernel_KernelIdeal := trivial

/-- Both runs end with the three results at the specification's functions of arguments that agree. -/
theorem algebraic : Cert.algebraic_KernelIdeal_ReferenceIdeal := by
  intro m ρ m' ρ' hpre hagree
  have hk := Cert.PreRange.kernel_tok_lt m hpre
  refine ⟨_, _, _, Cert.KRun.run m ρ hk, ?_⟩
  refine (θ_run Cert.ReferenceIdeal.defs _ _).mono (fun r h c => ?_)
    (Cert.RefSide.run m' ρ' (fun c r => by rw [(hagree c).1]; exact hk c r))
  obtain ⟨a0, a1, a2, a3, a4, a5, a6, a7⟩ := hagree c
  refine ⟨(h c).1.trans ?_, (h c).2.1.trans ?_, (h c).2.2.1.trans ?_, (h c).2.2.2⟩
  · rw [a0, a1, a2, a3, a4, a5, a6, a7]
  · rw [a0, a1, a2, a3, a4, a5]
  · rw [a0, a1, a2, a3, a4, a5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
